-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S1600000 : Shape := ⟨1, ![1600000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S1 : Shape := ⟨1, ![1]⟩
abbrev S256x32 : Shape := ⟨2, ![256, 32]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S1 : S_.BroadcastsInDim S1 (![] : Fin 0 → Fin S1.rank)
  reducesTo_S1_S_d0 : S1.ReducesTo [0] S_
  bcast_S_S256x32 : S_.BroadcastsInDim S256x32 (![] : Fin 0 → Fin S256x32.rank)
  reducesTo_S256x32_S_d0_1 : S256x32.ReducesTo [0, 1] S_

variable [Facts]

def fn_part3 {F : FTy → Type} [FloatOps F] (main_arg12 : FVec F S256x32 .f32) (main_arg13 : FVec F S32 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S256x32 .f32 := Host.absf main_arg12
  let main_cst_20 : FVec F S_ .f32 := constant S_ .f32 0x7F800000#32
  let main_v55 : FVec F S256x32 .f32 := broadcastInDim S256x32 ![] bcast_S_S256x32 main_cst_20
  let main_v56 : IVec S256x32 1 := cmpf .olt main_v54 main_v55
  let main_c_21 : IVec S_ 1 := constantI S_ 1 1#1
  let main_v57 : IVec S_ 1 := (fun x v => Host.reduce IntOp.andi x v reducesTo_S256x32_S_d0_1 h_S_) main_v56 main_c_21
  let main_v58 : IVec S_ 1 := andi main_v53 main_v57
  let main_v59 : FVec F S32 .f32 := Host.absf main_arg13
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  main_v63

def fn_part2 {F : FTy → Type} [FloatOps F] (main_arg8 : FVec F S32 .f32) (main_arg9 : FVec F S32 .f32) (main_arg10 : FVec F S32 .f32) (main_arg11 : FVec F S1 .f32) (main_arg12 : FVec F S256x32 .f32) (main_arg13 : FVec F S32 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_arg12 main_arg13 main_v48 main_v49 main_v50

def fn_part1 {F : FTy → Type} [FloatOps F] (main_arg5 : FVec F S64 .f32) (main_arg6 : FVec F S64 .f32) (main_arg7 : FVec F S64x32 .f32) (main_arg8 : FVec F S32 .f32) (main_arg9 : FVec F S32 .f32) (main_arg10 : FVec F S32 .f32) (main_arg11 : FVec F S1 .f32) (main_arg12 : FVec F S256x32 .f32) (main_arg13 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32 .f32 := Host.absf main_arg7
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x256 .f32) (main_arg1 : IVec S2x1600000 32) (main_arg2 : FVec F S1600000 .f32) (main_arg3 : FVec F S256x64 .f32) (main_arg4 : FVec F S64 .f32) (main_arg5 : FVec F S64 .f32) (main_arg6 : FVec F S64 .f32) (main_arg7 : FVec F S64x32 .f32) (main_arg8 : FVec F S32 .f32) (main_arg9 : FVec F S32 .f32) (main_arg10 : FVec F S32 .f32) (main_arg11 : FVec F S1 .f32) (main_arg12 : FVec F S256x32 .f32) (main_arg13 : FVec F S32 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x64 .f32 := Host.absf main_arg3
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_v13 main_v16
-- ==== Kernel.lean ====
abbrev S100000x256 : Shape := ⟨2, ![100000, 256]⟩
abbrev S2x1600000 : Shape := ⟨2, ![2, 1600000]⟩
abbrev S1600000 : Shape := ⟨1, ![1600000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S1 : Shape := ⟨1, ![1]⟩
abbrev S256x32 : Shape := ⟨2, ![256, 32]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1x32 : Shape := ⟨2, ![1, 32]⟩
abbrev S100000x64 : Shape := ⟨2, ![100000, 64]⟩
abbrev S100000x32 : Shape := ⟨2, ![100000, 32]⟩
abbrev S5000x256 : Shape := ⟨2, ![5000, 256]⟩
abbrev S5000x64 : Shape := ⟨2, ![5000, 64]⟩
abbrev S5000x32 : Shape := ⟨2, ![5000, 32]⟩
abbrev S1700000x64 : Shape := ⟨2, ![1700000, 64]⟩
abbrev S1x64 : Shape := ⟨2, ![1, 64]⟩
abbrev S1x1 : Shape := ⟨2, ![1, 1]⟩
abbrev S1700000x32 : Shape := ⟨2, ![1700000, 32]⟩

abbrev nBuf : Space → Nat
  | .hbm => 125
  | .vmem => 41
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1600000, .f32⟩
  | .hbm, ⟨3, _⟩ => ⟨S256x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S1, .f32⟩
  | .hbm, ⟨12, _⟩ => ⟨S256x32, .f32⟩
  | .hbm, ⟨13, _⟩ => ⟨S32, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S100000, .i32⟩
  | .hbm, ⟨19, _⟩ => ⟨S1700000, .i32⟩
  | .hbm, ⟨20, _⟩ => ⟨S1700000, .i32⟩
  | .hbm, ⟨21, _⟩ => ⟨S_, .f32⟩
  | .hbm, ⟨22, _⟩ => ⟨S100000, .f32⟩
  | .hbm, ⟨23, _⟩ => ⟨S1700000, .f32⟩
  | .hbm, ⟨24, _⟩ => ⟨S_, .f32⟩
  | .hbm, ⟨25, _⟩ => ⟨S100000, .f32⟩
  | .hbm, ⟨26, _⟩ => ⟨S1700000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000, .f32⟩
  | .hbm, ⟨55, _⟩ => ⟨S1700000, .f32⟩
  | .hbm, ⟨56, _⟩ => ⟨S1x32, .f32⟩
  | .hbm, ⟨57, _⟩ => ⟨S100000x64, .f32⟩
  | .hbm, ⟨58, _⟩ => ⟨S100000x32, .f32⟩
  | .hbm, ⟨59, _⟩ => ⟨S_, .i32⟩
  | .hbm, ⟨60, _⟩ => ⟨S1700000, .i32⟩
  | .hbm, ⟨61, _⟩ => ⟨S1700000, .i1⟩
  | .hbm, ⟨62, _⟩ => ⟨S_, .i32⟩
  | .hbm, ⟨63, _⟩ => ⟨S1700000, .i32⟩
  | .hbm, ⟨64, _⟩ => ⟨S1700000, .i32⟩
  | .hbm, ⟨65, _⟩ => ⟨S1700000, .i32⟩
  | .hbm, ⟨66, _⟩ => ⟨S1700000x1, .i32⟩
  | .hbm, ⟨67, _⟩ => ⟨S1700000x64, .f32⟩
  | .hbm, ⟨68, _⟩ => ⟨S1700000x1, .f32⟩
  | .hbm, ⟨69, _⟩ => ⟨S1700000x64, .f32⟩
  | .hbm, ⟨70, _⟩ => ⟨S1700000x64, .f32⟩
  | .hbm, ⟨71, _⟩ => ⟨S_, .f32⟩
  | .hbm, ⟨72, _⟩ => ⟨S100000x64, .f32⟩
  | .hbm, ⟨73, _⟩ => ⟨S1700000x1, .i32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S1x64, .f32⟩
  | .hbm, ⟨79, _⟩ => ⟨S1x64, .f32⟩
  | .hbm, ⟨80, _⟩ => ⟨S_, .f32⟩
  | .hbm, ⟨81, _⟩ => ⟨S1x64, .f32⟩
  | .hbm, ⟨82, _⟩ => ⟨S1x64, .f32⟩
  | .hbm, ⟨83, _⟩ => ⟨S_, .f32⟩
  | .hbm, ⟨84, _⟩ => ⟨S1x64, .f32⟩
  | .hbm, ⟨85, _⟩ => ⟨S1x64, .f32⟩
  | .hbm, ⟨86, _⟩ => ⟨S1x64, .f32⟩
  | .hbm, ⟨87, _⟩ => ⟨S1x64, .f32⟩
  | .hbm, ⟨88, _⟩ => ⟨S1x64, .f32⟩
  | .hbm, ⟨89, _⟩ => ⟨S1x64, .f32⟩
  | .hbm, ⟨90, _⟩ => ⟨S1x1, .f32⟩
  | .hbm, ⟨91, _⟩ => ⟨S100000x64, .f32⟩
  | .hbm, ⟨92, _⟩ => ⟨S100000x32, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000x32, .f32⟩
  | .hbm, ⟨102, _⟩ => ⟨S1700000x1, .f32⟩
  | .hbm, ⟨103, _⟩ => ⟨S1700000x32, .f32⟩
  | .hbm, ⟨104, _⟩ => ⟨S1700000x32, .f32⟩
  | .hbm, ⟨105, _⟩ => ⟨S_, .f32⟩
  | .hbm, ⟨106, _⟩ => ⟨S100000x32, .f32⟩
  | .hbm, ⟨107, _⟩ => ⟨S1700000x1, .i32⟩
  | .hbm, ⟨108, _⟩ => ⟨S100000x32, .f32⟩
  | .hbm, ⟨109, _⟩ => ⟨S1x32, .f32⟩
  | .hbm, ⟨110, _⟩ => ⟨S100000x32, .f32⟩
  | .hbm, ⟨111, _⟩ => ⟨S100000x32, .f32⟩
  | .hbm, ⟨112, _⟩ => ⟨S1x32, .f32⟩
  | .hbm, ⟨113, _⟩ => ⟨S1x32, .f32⟩
  | .hbm, ⟨114, _⟩ => ⟨S_, .f32⟩
  | .hbm, ⟨115, _⟩ => ⟨S1x32, .f32⟩
  | .hbm, ⟨116, _⟩ => ⟨S1x32, .f32⟩
  | .hbm, ⟨117, _⟩ => ⟨S_, .f32⟩
  | .hbm, ⟨118, _⟩ => ⟨S1x32, .f32⟩
  | .hbm, ⟨119, _⟩ => ⟨S1x32, .f32⟩
  | .hbm, ⟨120, _⟩ => ⟨S1x32, .f32⟩
  | .hbm, ⟨121, _⟩ => ⟨S1x32, .f32⟩
  | .hbm, ⟨122, _⟩ => ⟨S1x32, .f32⟩
  | .hbm, ⟨123, _⟩ => ⟨S1x32, .f32⟩
  | .hbm, ⟨124, _⟩ => ⟨S100000x32, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S256x32, .f32⟩
  | .local _ .vmem, ⟨4, _⟩ => ⟨S1x32, .f32⟩
  | .local _ .vmem, ⟨5, _⟩ => ⟨S5000x64, .f32⟩
  | .local _ .vmem, ⟨6, _⟩ => ⟨S5000x64, .f32⟩
  | .local _ .vmem, ⟨7, _⟩ => ⟨S5000x32, .f32⟩
  | .local _ .vmem, ⟨8, _⟩ => ⟨S5000x32, .f32⟩
  | .local _ .vmem, ⟨9, _⟩ => ⟨S5000x64, .f32⟩
  | .local _ .vmem, ⟨10, _⟩ => ⟨S5000x64, .f32⟩
  | .local _ .vmem, ⟨11, _⟩ => ⟨S1x64, .f32⟩
  | .local _ .vmem, ⟨12, _⟩ => ⟨S1x64, .f32⟩
  | .local _ .vmem, ⟨13, _⟩ => ⟨S5000x64, .f32⟩
  | .local _ .vmem, ⟨14, _⟩ => ⟨S5000x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x1, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x32, .f32⟩
  | .local _ .vmem, ⟨25, _⟩ => ⟨S5000x32, .f32⟩
  | .local _ .vmem, ⟨26, _⟩ => ⟨S5000x32, .f32⟩
  | .local _ .vmem, ⟨27, _⟩ => ⟨S5000x32, .f32⟩
  | .local _ .vmem, ⟨28, _⟩ => ⟨S5000x32, .f32⟩
  | .local _ .vmem, ⟨29, _⟩ => ⟨S1x32, .f32⟩
  | .local _ .vmem, ⟨30, _⟩ => ⟨S1x32, .f32⟩
  | .local _ .vmem, ⟨31, _⟩ => ⟨S5000x32, .f32⟩
  | .local _ .vmem, ⟨32, _⟩ => ⟨S5000x32, .f32⟩
  | .local _ .vmem, ⟨33, _⟩ => ⟨S1x32, .f32⟩
  | .local _ .vmem, ⟨34, _⟩ => ⟨S1x32, .f32⟩
  | .local _ .vmem, ⟨35, _⟩ => ⟨S1x32, .f32⟩
  | .local _ .vmem, ⟨36, _⟩ => ⟨S1x32, .f32⟩
  | .local _ .vmem, ⟨37, _⟩ => ⟨S5000x32, .f32⟩
  | .local _ .vmem, ⟨38, _⟩ => ⟨S5000x32, .f32⟩
  | .local _ .vmem, ⟨39, _⟩ => ⟨S5000x32, .f32⟩
  | .local _ .vmem, ⟨40, _⟩ => ⟨S5000x32, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_4 : Ref sig .tc := ⟨.hbm, 46, rfl⟩
abbrev main_v24 : Ref sig .tc := ⟨.hbm, 47, rfl⟩
abbrev main_v25 : Ref sig .tc := ⟨.hbm, 48, rfl⟩
abbrev main_c_5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33_0 : Ref sig .tc := ⟨.hbm, 57, rfl⟩
abbrev main_v33_1 : Ref sig .tc := ⟨.hbm, 58, rfl⟩
abbrev main_c_6 : Ref sig .tc := ⟨.hbm, 59, rfl⟩
abbrev main_v34 : Ref sig .tc := ⟨.hbm, 60, rfl⟩
abbrev main_v35 : Ref sig .tc := ⟨.hbm, 61, rfl⟩
abbrev main_c_7 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_8 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50_0 : Ref sig .tc := ⟨.hbm, 78, rfl⟩
abbrev main_v50_1 : Ref sig .tc := ⟨.hbm, 79, rfl⟩
abbrev main_cst_9 : Ref sig .tc := ⟨.hbm, 80, rfl⟩
abbrev main_v51 : Ref sig .tc := ⟨.hbm, 81, rfl⟩
abbrev main_v52 : Ref sig .tc := ⟨.hbm, 82, rfl⟩
abbrev main_cst_10 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_11 : Ref sig .tc := ⟨.hbm, 93, rfl⟩
abbrev main_v62 : Ref sig .tc := ⟨.hbm, 94, rfl⟩
abbrev main_v63 : Ref sig .tc := ⟨.hbm, 95, rfl⟩
abbrev main_c_12 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_13 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78_0 : Ref sig .tc := ⟨.hbm, 112, rfl⟩
abbrev main_v78_1 : Ref sig .tc := ⟨.hbm, 113, rfl⟩
abbrev main_cst_14 : Ref sig .tc := ⟨.hbm, 114, rfl⟩
abbrev main_v79 : Ref sig .tc := ⟨.hbm, 115, rfl⟩
abbrev main_v80 : Ref sig .tc := ⟨.hbm, 116, rfl⟩
abbrev main_cst_15 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg3_0 : Ref sig .tc := ⟨.vmem, 35, rfl⟩
abbrev cc5_stg4_0 : Ref sig .tc := ⟨.vmem, 36, rfl⟩
abbrev cc5_stg5_0 : Ref sig .tc := ⟨.vmem, 37, rfl⟩
abbrev cc5_stg5_1 : Ref sig .tc := ⟨.vmem, 38, rfl⟩
abbrev cc5_stg6_0 : Ref sig .tc := ⟨.vmem, 39, rfl⟩
abbrev cc5_stg6_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem6_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem3_0 : DmaSem sig := 35
abbrev cc5_sem4_0 : DmaSem sig := 36
abbrev cc5_sem5_0 : DmaSem sig := 37
abbrev cc5_sem5_1 : DmaSem sig := 38
abbrev cc5_sem6_0 : DmaSem sig := 39
abbrev cc5_sem6_1 : DmaSem sig := 40

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x32 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S5000x32 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  shapeCasts_S32_S1x32 : S32.ShapeCasts S1x32
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S256x32_S256x32_0_0 : ∀ a, (![0, 0] : Fin 2 → Nat) a + S256x32.size a ≤ S256x32.size a
  h_S256x32 : 0 < S256x32.numel
  inb_S5000x64_S5000x64_0_0 : ∀ a, (![0, 0] : Fin 2 → Nat) a + S5000x64.size a ≤ S5000x64.size a
  h_S5000x64 : 0 < S5000x64.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  inb_S1x64_S1x64_0_0 : ∀ a, (![0, 0] : Fin 2 → Nat) a + S1x64.size a ≤ S1x64.size a
  h_S1x64 : 0 < S1x64.numel
  shapeCasts_S5000x64_S5000x64 : S5000x64.ShapeCasts S5000x64
  shapeCasts_S1x64_S1x64 : S1x64.ShapeCasts S1x64
  reduces_S5000x64_S64 : S5000x64.Reduces [0] S64
  shapeCasts_S64_S1x64 : S64.ShapeCasts S1x64
  bcast_S_S1x64 : S_.BroadcastsInDim S1x64 (![] : Fin 0 → Fin S1x64.rank)
  shapeCasts_S1_S1x1 : S1.ShapeCasts S1x1
  broadcasts_S1x64_S5000x64 : S1x64.Broadcasts S5000x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x64 : S1x1.Broadcasts S5000x64
  inb_S64x32_S64x32_0_0 : ∀ a, (![0, 0] : Fin 2 → Nat) a + S64x32.size a ≤ S64x32.size a
  h_S64x32 : 0 < S64x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  shapeCasts_S5000x32_S5000x32 : S5000x32.ShapeCasts S5000x32
  reduces_S5000x32_S32 : S5000x32.Reduces [0] S32
  bcast_S_S1x32 : S_.BroadcastsInDim S1x32 (![] : Fin 0 → Fin S1x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x64_S5000x64_1_0_0_1_n_n_wf : DotDims.WF S5000x256 S256x64 S5000x64 [1] [0] [0] [1] [] []
  dot_S5000x256_S256x32_S5000x32_1_0_0_1_n_n_wf : DotDims.WF S5000x256 S256x32 S5000x32 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x32_S5000x32_1_0_0_1_n_n_wf : DotDims.WF S5000x64 S64x32 S5000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S256x32.size a
  hwx0_2 : ∀ i : grid0.Coords, EltTy.bits .f32 = 32 ∨ (Rect.block (s := S256x32) S256x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x32.size a ≤ S100000x32.size a
  hwx0_5 : ∀ i : grid0.Coords, EltTy.bits .f32 = 32 ∨ (Rect.block (s := S100000x32) S5000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x32.size a ≤ S64x32.size a
  hwx3_1 : ∀ i : grid3.Coords, EltTy.bits .f32 = 32 ∨ (Rect.block (s := S64x32) S64x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S100000x32.size a
  hwx3_2 : ∀ i : grid3.Coords, EltTy.bits .f32 = 32 ∨ (Rect.block (s := S100000x32) S5000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S100000x32.size a
  hwx4_0 : ∀ i : grid4.Coords, EltTy.bits .f32 = 32 ∨ (Rect.block (s := S100000x32) S5000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x32.size a ≤ S1x32.size a
  hwx4_1 : ∀ i : grid4.Coords, EltTy.bits .f32 = 32 ∨ (Rect.block (s := S1x32) S1x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x32.size a ≤ S100000x32.size a
  hwx5_0 : ∀ i : grid5.Coords, EltTy.bits .f32 = 32 ∨ (Rect.block (s := S100000x32) S5000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x32.size a ≤ S1x32.size a
  hwx5_4 : ∀ i : grid5.Coords, EltTy.bits .f32 = 32 ∨ (Rect.block (s := S1x32) S1x32.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x32.size a ≤ S100000x32.size a
  hwx5_5 : ∀ i : grid5.Coords, EltTy.bits .f32 = 32 ∨ (Rect.block (s := S100000x32) S5000x32.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x32.size a ≤ S100000x32.size a
  hwx5_6 : ∀ i : grid5.Coords, EltTy.bits .f32 = 32 ∨ (Rect.block (s := S100000x32) S5000x32.size (cc5_transform_6 i) (hinb5_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def dot_S5000x256_S256x32_S5000x32_1_0_0_1_n_n : DotDims S5000x256 S256x32 S5000x32 where
  lhsContracting := [1]
  rhsContracting := [0]
  lhsNonContracting := [0]
  rhsNonContracting := [1]
  lhsBatch := []
  rhsBatch := []
  wf := dot_S5000x256_S256x32_S5000x32_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg12) S256x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33_0) S5000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v33_1) S5000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v49) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50_0) S1x64.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50_1) S1x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v60) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v60) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S64x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v77) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v78_0) S1x32.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v78_1) S1x32.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S5000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v80) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v84) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v85) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v86) S1x32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v33_1) S5000x32.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v87) S5000x32.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S1600000 : Shape := ⟨1, ![1600000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S1 : Shape := ⟨1, ![1]⟩
abbrev S256x32 : Shape := ⟨2, ![256, 32]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x32 : Shape := ⟨2, ![100000, 32]⟩
abbrev S1x32 : Shape := ⟨2, ![1, 32]⟩
abbrev S100000x64 : Shape := ⟨2, ![100000, 64]⟩
abbrev S1700000x64 : Shape := ⟨2, ![1700000, 64]⟩
abbrev S1x64 : Shape := ⟨2, ![1, 64]⟩
abbrev S1700000x32 : Shape := ⟨2, ![1700000, 32]⟩

abbrev nBuf : Space → Nat
  | .hbm => 168
  | .vmem => 0
  | .smem => 0
  | _ => 0

abbrev hbmTy0_0 (i : Nat) : BufTy := match i % 128 with
  | 0 => ⟨S100000x256, .f32⟩
  | 1 => ⟨S2x1600000, .i32⟩
  | 2 => ⟨S1600000, .f32⟩
  | 3 => ⟨S256x64, .f32⟩
  | 4 => ⟨S64, .f32⟩
  | 5 => ⟨S64, .f32⟩
  | 6 => ⟨S64, .f32⟩
  | 7 => ⟨S64x32, .f32⟩
  | 8 => ⟨S32, .f32⟩
  | 9 => ⟨S32, .f32⟩
  | 10 => ⟨S32, .f32⟩
  | 11 => ⟨S1, .f32⟩
  | 12 => ⟨S256x32, .f32⟩
  | 13 => ⟨S32, .f32⟩
  | 14 => ⟨S1x1600000, .i32⟩
  | 15 => ⟨S1600000, .i32⟩
  | 16 => ⟨S1x1600000, .i32⟩
  | 17 => ⟨S1600000, .i32⟩
  | 18 => ⟨S100000, .i32⟩
  | 19 => ⟨S1700000, .i32⟩
  | 20 => ⟨S1700000, .i32⟩
  | 21 => ⟨S_, .f32⟩
  | 22 => ⟨S100000, .f32⟩
  | 23 => ⟨S1700000, .f32⟩
  | 24 => ⟨S_, .f32⟩
  | 25 => ⟨S100000, .f32⟩
  | 26 => ⟨S1700000x1, .i32⟩
  | 27 => ⟨S100000, .f32⟩
  | 28 => ⟨S_, .f32⟩
  | 29 => ⟨S100000, .f32⟩
  | 30 => ⟨S100000, .i1⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S1700000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000, .f32⟩
  | 55 => ⟨S1700000, .f32⟩
  | 56 => ⟨S100000x32, .f32⟩
  | 57 => ⟨S1x32, .f32⟩
  | 58 => ⟨S100000x32, .f32⟩
  | 59 => ⟨S100000x32, .f32⟩
  | 60 => ⟨S100000x64, .f32⟩
  | 61 => ⟨S_, .i32⟩
  | 62 => ⟨S1700000, .i32⟩
  | 63 => ⟨S1700000, .i1⟩
  | 64 => ⟨S_, .i32⟩
  | 65 => ⟨S1700000, .i32⟩
  | 66 => ⟨S1700000, .i32⟩
  | 67 => ⟨S1700000, .i32⟩
  | 68 => ⟨S1700000x1, .i32⟩
  | 69 => ⟨S1700000x64, .f32⟩
  | 70 => ⟨S1700000x1, .f32⟩
  | 71 => ⟨S1700000x64, .f32⟩
  | 72 => ⟨S1700000x64, .f32⟩
  | 73 => ⟨S_, .f32⟩
  | 74 => ⟨S100000x64, .f32⟩
  | 75 => ⟨S1700000x1, .i32⟩
  | 76 => ⟨S100000x64, .f32⟩
  | 77 => ⟨S1x64, .f32⟩
  | 78 => ⟨S100000x64, .f32⟩
  | 79 => ⟨S100000x64, .f32⟩
  | 80 => ⟨S_, .f32⟩
  | 81 => ⟨S64, .f32⟩
  | 82 => ⟨S_, .f32⟩
  | 83 => ⟨S64, .f32⟩
  | 84 => ⟨S64, .f32⟩
  | 85 => ⟨S1x64, .f32⟩
  | 86 => ⟨S100000x64, .f32⟩
  | 87 => ⟨S100000x64, .f32⟩
  | 88 => ⟨S100000x64, .f32⟩
  | 89 => ⟨S_, .f32⟩
  | 90 => ⟨S64, .f32⟩
  | 91 => ⟨S_, .f32⟩
  | 92 => ⟨S64, .f32⟩
  | 93 => ⟨S64, .f32⟩
  | 94 => ⟨S1x64, .f32⟩
  | 95 => ⟨S100000x64, .f32⟩
  | 96 => ⟨S100000x64, .f32⟩
  | 97 => ⟨S1x64, .f32⟩
  | 98 => ⟨S100000x64, .f32⟩
  | 99 => ⟨S100000x64, .f32⟩
  | 100 => ⟨S_, .f32⟩
  | 101 => ⟨S64, .f32⟩
  | 102 => ⟨S64, .f32⟩
  | 103 => ⟨S64, .f32⟩
  | 104 => ⟨S1x64, .f32⟩
  | 105 => ⟨S100000x64, .f32⟩
  | 106 => ⟨S100000x64, .f32⟩
  | 107 => ⟨S1x64, .f32⟩
  | 108 => ⟨S100000x64, .f32⟩
  | 109 => ⟨S100000x64, .f32⟩
  | 110 => ⟨S_, .f32⟩
  | 111 => ⟨S100000x64, .f32⟩
  | 112 => ⟨S100000x64, .i1⟩
  | 113 => ⟨S_, .f32⟩
  | 114 => ⟨S100000x64, .f32⟩
  | 115 => ⟨S100000x64, .f32⟩
  | 116 => ⟨S100000x64, .f32⟩
  | 117 => ⟨S100000x32, .f32⟩
  | 118 => ⟨S_, .i32⟩
  | 119 => ⟨S1700000, .i32⟩
  | 120 => ⟨S1700000, .i1⟩
  | 121 => ⟨S_, .i32⟩
  | 122 => ⟨S1700000, .i32⟩
  | 123 => ⟨S1700000, .i32⟩
  | 124 => ⟨S1700000, .i32⟩
  | 125 => ⟨S1700000x1, .i32⟩
  | 126 => ⟨S1700000x32, .f32⟩
  | 127 => ⟨S1700000x1, .f32⟩
  | _ => ⟨S100000x256, .f32⟩

abbrev hbmTy0_1 (i : Nat) : BufTy := match i % 128 with
  | 0 => ⟨S1700000x32, .f32⟩
  | 1 => ⟨S1700000x32, .f32⟩
  | 2 => ⟨S_, .f32⟩
  | 3 => ⟨S100000x32, .f32⟩
  | 4 => ⟨S1700000x1, .i32⟩
  | 5 => ⟨S100000x32, .f32⟩
  | 6 => ⟨S1x32, .f32⟩
  | 7 => ⟨S100000x32, .f32⟩
  | 8 => ⟨S100000x32, .f32⟩
  | 9 => ⟨S_, .f32⟩
  | 10 => ⟨S32, .f32⟩
  | 11 => ⟨S_, .f32⟩
  | 12 => ⟨S32, .f32⟩
  | 13 => ⟨S32, .f32⟩
  | 14 => ⟨S1x32, .f32⟩
  | 15 => ⟨S100000x32, .f32⟩
  | 16 => ⟨S100000x32, .f32⟩
  | 17 => ⟨S100000x32, .f32⟩
  | 18 => ⟨S_, .f32⟩
  | 19 => ⟨S32, .f32⟩
  | 20 => ⟨S_, .f32⟩
  | 21 => ⟨S32, .f32⟩
  | 22 => ⟨S32, .f32⟩
  | 23 => ⟨S1x32, .f32⟩
  | 24 => ⟨S100000x32, .f32⟩
  | 25 => ⟨S100000x32, .f32⟩
  | 26 => ⟨S1x32, .f32⟩
  | 27 => ⟨S100000x32, .f32⟩
  | 28 => ⟨S100000x32, .f32⟩
  | 29 => ⟨S_, .f32⟩
  | 30 => ⟨S32, .f32⟩
  | 31 => ⟨S32, .f32⟩
  | 32 => ⟨S32, .f32⟩
  | 33 => ⟨S1x32, .f32⟩
  | 34 => ⟨S100000x32, .f32⟩
  | 35 => ⟨S100000x32, .f32⟩
  | 36 => ⟨S1x32, .f32⟩
  | 37 => ⟨S100000x32, .f32⟩
  | 38 => ⟨S100000x32, .f32⟩
  | 39 => ⟨S100000x32, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_4 : Ref sig .tc := ⟨.hbm, 46, rfl⟩
abbrev main_v24 : Ref sig .tc := ⟨.hbm, 47, rfl⟩
abbrev main_v25 : Ref sig .tc := ⟨.hbm, 48, rfl⟩
abbrev main_c_5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_6 : Ref sig .tc := ⟨.hbm, 61, rfl⟩
abbrev main_v37 : Ref sig .tc := ⟨.hbm, 62, rfl⟩
abbrev main_v38 : Ref sig .tc := ⟨.hbm, 63, rfl⟩
abbrev main_c_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_8 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_9 : Ref sig .tc := ⟨.hbm, 80, rfl⟩
abbrev main_v53 : Ref sig .tc := ⟨.hbm, 81, rfl⟩
abbrev main_cst_10 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_11 : Ref sig .tc := ⟨.hbm, 89, rfl⟩
abbrev main_v60 : Ref sig .tc := ⟨.hbm, 90, rfl⟩
abbrev main_cst_12 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_14 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_c_15 : Ref sig .tc := ⟨.hbm, 118, rfl⟩
abbrev main_v85 : Ref sig .tc := ⟨.hbm, 119, rfl⟩
abbrev main_v86 : Ref sig .tc := ⟨.hbm, 120, rfl⟩
abbrev main_c_16 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_17 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_18 : Ref sig .tc := ⟨.hbm, 137, rfl⟩
abbrev main_v101 : Ref sig .tc := ⟨.hbm, 138, rfl⟩
abbrev main_cst_19 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_20 : Ref sig .tc := ⟨.hbm, 146, rfl⟩
abbrev main_v108 : Ref sig .tc := ⟨.hbm, 147, rfl⟩
abbrev main_cst_21 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_cst_22 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  shapeCasts_S1_S_ : S1.ShapeCasts S_
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  reducesTo_S100000x32_S32_d0 : S100000x32.ReducesTo [0] S32
  bcast_S_S32 : S_.BroadcastsInDim S32 (![] : Fin 0 → Fin S32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x32_S100000x32_1_0_0_1_n_n_wf : DotDims.WF S100000x256 S256x32 S100000x32 [1] [0] [0] [1] [] []
  dot_S100000x256_S256x64_S100000x64_1_0_0_1_n_n_wf : DotDims.WF S100000x256 S256x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x32_S100000x32_1_0_0_1_n_n : DotDims S100000x256 S256x32 S100000x32 where
  lhsContracting := [1]
  rhsContracting := [0]
  lhsNonContracting := [0]
  rhsNonContracting := [1]
  lhsBatch := []
  rhsBatch := []
  wf := dot_S100000x256_S256x32_S100000x32_1_0_0_1_n_n_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KernelRun.lean ====
/-
  The idealized kernel's run with its result named. @main is thirteen segments — seven stretches of host operations and six
  pallas_calls — and the contents of every unscoped buffer at each segment boundary are a fold from the launch memory: a host
  stretch applies its operations, a pallas_call leaves its arrays at what its write-backs produce and every other buffer as it
  was. Every weakly fair execution terminates, nothing faults, and in the final state every unscoped buffer holds the last
  boundary's contents: in particular the result buffer, and each argument array, which no segment writes.
-/
import proofs.«151287_j81509889343954_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- THE RUN: the result buffer ends at the last boundary's contents, each argument array as launched. -/
theorem run : θ_run defs (onTc (τ := τ) (main (F := F))) ⟨m, fun _ => 0, ρ⟩ (fun r => ∀ c : Dev nD,
      r.2.mem ((c.tc : Thread nD τ).loc main_v87) = W13 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v87 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c)⟩)

end Cert.KernelIdeal.Run

end
-- ==== Proof.LibDotEntry.lean ====
/-
  A matrix product read at an entry, on the host and on the TensorCore. At exact arithmetic the host's `dot_general` of an m×K matrix by a K×n
  matrix, whose dimension numbers contract the left factor's columns against the right factor's rows, has at entry
  (p, q) the sum over k of left (p, k) · right (k, q) — the same sum a TensorCore matrix product into a zero
  accumulator has there. Stated for any dimension record of these three shapes, given where it sends an output index
  and a contraction index.
-/
import Idealize.ShloMosaic.Lib.ValueIdx
import Idealize.ShloMosaic.PureOps.Ideal.Laws

noncomputable section

namespace Cert.Lib.DotEntry

open Idealize.ShloMosaic Idealize.ShloMosaic.TcCoe Idealize.SL.Sem Idealize.ShloMosaic.ValueIdx

/-- The host's product of an m×K by a K×n matrix, read at entry (p, q), is the sum over the one contracted axis of
    the products of row p of the left factor with column q of the right factor. The four hypotheses say where the
    product's dimension numbers send an output index and a contraction index: to (row, k) on the left and
    (k, column) on the right. -/
theorem dotGeneral_ix2 {m K n : Nat} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ .f32) (rhs : FVec Ideal ⟨2, ![K, n]⟩ .f32) (p : Fin m) (q : Fin n) :
    Host.dotGeneral (F := Ideal) D none lhs rhs (ix2 p q) = ∑ k : Fin K, lhs (ix2 p k) * rhs (ix2 k q) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A TensorCore product of an m×K by a K×n matrix (of any two float formats: at exact arithmetic a format is only a
    label) into a zero accumulator, read at entry (p, q), is the same sum. -/
theorem matmul_zero_ix2 {m K n : Nat} {φ₁ φ₂ : FTy} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ φ₁) (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.Lib.DotEntry

end
-- ==== Proof.LibMatDims.lean ====
/-
  The dimension numbers of a plain matrix product, read at an entry.

  A product of an m×K matrix by a K×n matrix that contracts the left factor's columns against the right factor's rows,
  with no batch axes, reads — at output entry (p, q) and contraction position k — the left factor at (p, k) and the
  right factor at (k, q).  These are the four index facts the entry-wise reading of a product asks for, derived once
  from the lists of the dimension record instead of per record.
-/
import Idealize.ShloMosaic.PureOps.Dims

noncomputable section

namespace Cert.Lib.MatDims

open Idealize.ShloMosaic

variable {m K n : Nat} (D : DotDims ⟨2, ![m, K]⟩ ⟨2, ![K, n]⟩ ⟨2, ![m, n]⟩)

/-- One contracted axis. -/
theorem contr_rank (hc : D.lhsContracting = [1]) : D.contr.rank = 1 := by
  rw [D.rank_contr, hc]; rfl

/-- Its extent is the left factor's column count. -/
theorem contr_size (hc : D.lhsContracting = [1]) :
    D.contr.size ⟨0, by rw [contr_rank D hc]; exact Nat.one_pos⟩ = K := by
  rw [D.size_contr 0 (by rw [hc]; exact Nat.one_pos)]
  simp only [hc]
  rfl

/-- The left factor's row is the output's row. -/
theorem lhs_row (hb : D.lhsBatch = []) (hn : D.lhsNonContracting = [0])
    (i : (⟨2, ![m, n]⟩ : Shape).Idx) (c : D.contr.Idx) : (D.lhsIdx i c 0).val = (i 0).val := by
  unfold DotDims.lhsIdx
  rw [dif_neg (by rw [hb]; exact List.not_mem_nil), dif_pos (by rw [hn]; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn])

/-- The left factor's column is the contraction position. -/
theorem lhs_col (hc : D.lhsContracting = [1]) (i : (⟨2, ![m, n]⟩ : Shape).Idx) (c : D.contr.Idx) :
    (D.lhsIdx i c 1).val = (c ⟨0, by rw [contr_rank D hc]; exact Nat.one_pos⟩).val :=
  D.lhsIdx_val_of_single hc i c

/-- The right factor's row is the contraction position. -/
theorem rhs_row (hc : D.lhsContracting = [1]) (hc' : D.rhsContracting = [0]) (i : (⟨2, ![m, n]⟩ : Shape).Idx)
    (c : D.contr.Idx) : (D.rhsIdx i c 0).val = (c ⟨0, by rw [contr_rank D hc]; exact Nat.one_pos⟩).val :=
  D.rhsIdx_val_of_single hc' i c

/-- The right factor's column is the output's column. -/
theorem rhs_col (hb : D.lhsBatch = []) (hb' : D.rhsBatch = []) (hn : D.lhsNonContracting = [0])
    (hn' : D.rhsNonContracting = [1]) (i : (⟨2, ![m, n]⟩ : Shape).Idx) (c : D.contr.Idx) :
    (D.rhsIdx i c 1).val = (i 1).val := by
  unfold DotDims.rhsIdx
  rw [dif_neg (by rw [hb']; exact List.not_mem_nil), dif_pos (by rw [hn']; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn, hn'])

end Cert.Lib.MatDims

end
-- ==== Proof.LibMatProduct.lean ====
/-
  The matrix product at exact arithmetic, as ONE function of two matrices (`Cert.Dense.mm`): entry (p, q) of an m×K
  matrix times a K×n matrix is the sum over k of left (p, k) · right (k, q). The host's dot_general whose dimension
  numbers contract the left factor's columns against the right factor's rows IS this function (an equation between
  functions, so it rewrites under any later stage), and a TensorCore product with the same dimension numbers into a
  zero accumulator has this function's entries. General: no program is named; the hypotheses on the dimension record
  are its six lists, each closed by `rfl` at a printed record.
-/
import Idealize.ShloMosaic.Lib.ValueIdx
import Idealize.ShloMosaic.PureOps.Ideal.Laws
import proofs.«151287_j81509889343954_1_alg».proof.Proof.LibDotEntry
import proofs.«151287_j81509889343954_1_alg».proof.Proof.LibMatDims

noncomputable section

namespace Cert.Dense

open Idealize.ShloMosaic Idealize.ShloMosaic.TcCoe Idealize.SL.Sem Idealize.ShloMosaic.ValueIdx

/-- The product of an m×K matrix by a K×n matrix on the extended reals. -/
def mm {m K n : Nat} (x : FVec Ideal ⟨2, ![m, K]⟩ .f32) (w : FVec Ideal ⟨2, ![K, n]⟩ .f32) : FVec Ideal ⟨2, ![m, n]⟩ .f32 :=
  fun i => ∑ k : Fin K, x (ix2 (i 0) k) * w (ix2 k (i 1))

theorem mm_apply {m K n : Nat} (x : FVec Ideal ⟨2, ![m, K]⟩ .f32) (w : FVec Ideal ⟨2, ![K, n]⟩ .f32) (p : Fin m) (q : Fin n) :
    mm x w (ix2 p q) = ∑ k : Fin K, x (ix2 p k) * w (ix2 k q) := rfl

/-- The host's product with plain matrix dimension numbers (no batch axis, the left factor's axis 1 contracted against
    the right factor's axis 0) is the matrix product. -/
theorem dotGeneral_eq_mm {m K n : Nat} (D : DotDims ⟨2, ![m, K]⟩ ⟨2, ![K, n]⟩ ⟨2, ![m, n]⟩)
    (hlb : D.lhsBatch = []) (hrb : D.rhsBatch = []) (hlc : D.lhsContracting = [1]) (hrc : D.rhsContracting = [0])
    (hln : D.lhsNonContracting = [0]) (hrn : D.rhsNonContracting = [1])
    (x : FVec Ideal ⟨2, ![m, K]⟩ .f32) (w : FVec Ideal ⟨2, ![K, n]⟩ .f32) :
    Host.dotGeneral (F := Ideal) D none x w = mm x w := by
  funext i
  obtain ⟨p, q, rfl⟩ : ∃ (p : Fin m) (q : Fin n), i = ix2 p q := ⟨i 0, i 1, eq_ix2 i⟩
  exact Cert.Lib.DotEntry.dotGeneral_ix2 D (Cert.Lib.MatDims.contr_rank D hlc) (Cert.Lib.MatDims.contr_size D hlc)
    (Cert.Lib.MatDims.lhs_row D hlb hln) (Cert.Lib.MatDims.lhs_col D hlc) (Cert.Lib.MatDims.rhs_row D hlc hrc)
    (Cert.Lib.MatDims.rhs_col D hlb hrb hln hrn) x w p q

/-- A TensorCore product with the same dimension numbers into a zero accumulator, read at an entry, is the matrix
    product's entry. The two factors may carry any float format: at exact arithmetic a format is a label. -/
theorem matmul_zero_apply {m K n : Nat} {φ₁ φ₂ : FTy} (D : DotDims ⟨2, ![m, K]⟩ ⟨2, ![K, n]⟩ ⟨2, ![m, n]⟩)
    (hlb : D.lhsBatch = []) (hrb : D.rhsBatch = []) (hlc : D.lhsContracting = [1]) (hrc : D.rhsContracting = [0])
    (hln : D.lhsNonContracting = [0]) (hrn : D.rhsNonContracting = [1])
    (x : FVec Ideal ⟨2, ![m, K]⟩ φ₁) (w : FVec Ideal ⟨2, ![K, n]⟩ φ₂) (p : Fin m) (q : Fin n) :
    matmul D none x w (constant (F := Ideal) ⟨2, ![m, n]⟩ .f32 0x00000000#32) (ix2 p q)
      = ∑ k : Fin K, x (ix2 p k) * w (ix2 k q) :=
  Cert.Lib.DotEntry.matmul_zero_ix2 D (Cert.Lib.MatDims.contr_rank D hlc) (Cert.Lib.MatDims.contr_size D hlc)
    (Cert.Lib.MatDims.lhs_row D hlb hln) (Cert.Lib.MatDims.lhs_col D hlc) (Cert.Lib.MatDims.rhs_row D hlc hrc)
    (Cert.Lib.MatDims.rhs_col D hlb hrb hln hrn) x w p q

end Cert.Dense

end
-- ==== Proof.BlockProducts.lean ====
/-
  The first pallas_call: the node features `x` (100000 rows of 256 features) are visited in 20 blocks of 5000 rows; at each block
  the body forms the block's products with the two weight matrices `W1` (256×64) and `Wr` (256×32), adds the bias row to the second
  product, and writes the two 5000-row blocks back. A row of a product depends on the same row of `x` only, so the 20 written blocks
  are the restrictions of ONE whole-array function each: after the call the first result array is the matrix product x·W1 and the
  second is x·Wr with the bias row added to every row. (At exact arithmetic the change of float format before the product is the
  identity, and a product into a zero accumulator is the plain sum over the contracted axis.)
-/
import proofs.«151287_j81509889343954_1_alg».proof.Proof.Gen.KernelIdeal.Frame
import proofs.«151287_j81509889343954_1_alg».proof.Proof.LibMatProduct
import Idealize.ShloMosaic.Lib.Pipeline.Value
import Idealize.ShloMosaic.Lib.ValueIdx

set_option maxRecDepth 16384

noncomputable section

namespace Cert.KernelIdeal.BlockProducts

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The product and the sum of two extended reals (entries read out of buffers are extended reals). -/
abbrev mulE (a b : EReal) : EReal := a * b
abbrev addE (a b : EReal) : EReal := a + b

/-- x·W1, entry (p, q) the sum over the 256 features of x (p, k) · W1 (k, q). -/
abbrev prod1 (x : S100000x256.Idx → Elt Ideal .f32) (w : S256x64.Idx → Elt Ideal .f32) : S100000x64.Idx → Elt Ideal .f32 :=
  Cert.Dense.mm (m := 100000) (K := 256) (n := 64) x w

/-- x·Wr + br, entry (p, q) the sum over the 256 features of x (p, k) · Wr (k, q), plus the bias row's entry q. -/
abbrev prod2 (x : S100000x256.Idx → Elt Ideal .f32) (w : S256x32.Idx → Elt Ideal .f32) (b : S1x32.Idx → Elt Ideal .f32) :
    S100000x32.Idx → Elt Ideal .f32 :=
  fun i => Cert.Dense.mm (m := 100000) (K := 256) (n := 32) x w i + b (ix2 (0 : Fin 1) (i 1))

/-- Where each window's block sits at grid point `t`: the row-blocked windows (x and the two results) at block row `t`, the
    weight matrices and the bias row at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The body's first product at entry (r, l) of the block: the sum over k of the x block at (r, k) times the W1 block at (k, l). -/
theorem pay2_at (x0 : Vec Ideal S5000x256 .f32) (x1 : Vec Ideal S256x64 .f32) (r : Fin 5000) (l : Fin 64) :
    k0_pay2 x0 x1 (ix2 r l) = ∑ k : Fin 256, x0 (ix2 r k) * x1 (ix2 k l) := by
  unfold k0_pay2 k0_pay1
  exact Cert.Dense.matmul_zero_apply (m := 5000) (K := 256) (n := 64) dot_S5000x256_S256x64_S5000x64_1_0_0_1_n_n rfl rfl rfl rfl rfl rfl _ _ r l

/-- The body's second product with the bias row added, at entry (r, l) of the block. -/
theorem pay3_at (x0 : Vec Ideal S5000x256 .f32) (x2 : Vec Ideal S256x32 .f32) (x3 : Vec Ideal S1x32 .f32) (r : Fin 5000) (l : Fin 32) :
    k0_pay3 x0 x2 x3 (ix2 r l) = (∑ k : Fin 256, x0 (ix2 r k) * x2 (ix2 k l)) + x3 (ix2 (0 : Fin 1) l) := by
  unfold k0_pay3 k0_pay1
  show (matmul dot_S5000x256_S256x32_S5000x32_1_0_0_1_n_n none _ _ (constant (F := Ideal) S5000x32 .f32 0x00000000#32)) (ix2 r l)
      + broadcastTo S5000x32 (shapeCast S1x32 x3 shapeCasts_S1x32_S1x32) broadcasts_S1x32_S5000x32 (ix2 r l) = _
  rw [Cert.Dense.matmul_zero_apply (m := 5000) (K := 256) (n := 32) dot_S5000x256_S256x32_S5000x32_1_0_0_1_n_n rfl rfl rfl rfl rfl rfl _ _ r l]
  refine congrArg (_ + ·) ?_
  rw [shapeCast_self]
  exact broadcastTo_apply x3 broadcasts_S1x32_S5000x32 (ix2 r l) (ix2 (0 : Fin 1) l) (fun a => by
    match a with
    | ⟨0, _⟩ => show 0 = if (1 : Nat) = 1 then 0 else _; rw [if_pos rfl]
    | ⟨1, _⟩ => show l.val = if (32 : Nat) = 1 then 0 else l.val; rw [if_neg (by decide)])

/-- WHAT POINT `t` WRITES BACK to the first result: block `t` of x·W1 of the arrays as the call finds them. -/
theorem flushed4_eq (c : Dev nD) (t : Fin cfg0.N) :
    (dat0 V c).flushed 4 t = ((cfg0.win 4).blk t).view.read (Elt Ideal) (prod1 (V c main_arg0) (V c main_arg3)) := by
  show (cfg0.win 4).cut (grid0.coords t) ((dat0 V c).after 4 t) = _
  rw [after0_4]
  unfold out0_4
  rw [View.canon_unit_zero hz]
  simp only [View.ld_unit_zero (S := S5000x256) hz, View.ld_unit_zero (S := S256x64) hz]
  obtain ⟨e0, e1, e2, e3, e4, e5, e6, e7, e8, e9, e10, e11⟩ := idx_facts t
  funext j
  obtain ⟨r, l, rfl⟩ : ∃ (r : Fin 5000) (l : Fin 64), j = ix2 r l := ⟨j 0, j 1, eq_ix2 j⟩
  refine (pay2_at _ _ r l).trans ?_
  show _ = ∑ k : Fin 256, mulE (V c main_arg0 (ix2 ((((cfg0.win 4).blk t).view.emb (ix2 r l)) 0) k)) (V c main_arg3 (ix2 k ((((cfg0.win 4).blk t).view.emb (ix2 r l)) 1)))
  refine Finset.sum_congr rfl fun k _ => ?_
  have hx : ((cfg0.win 0).blk t).view.emb (ix2 r k) = ix2 ((((cfg0.win 4).blk t).view.emb (ix2 r l)) 0) k := by
    funext a; apply Fin.ext
    match a with
    | ⟨0, _⟩ => show win0_0.index t (0 : Fin 2) * 5000 + 1 * r.val = win0_4.index t (0 : Fin 2) * 5000 + 1 * r.val; omega
    | ⟨1, _⟩ => show win0_0.index t (1 : Fin 2) * 256 + 1 * k.val = k.val; omega
  have hw : ((cfg0.win 1).blk t).view.emb (ix2 k l) = ix2 k ((((cfg0.win 4).blk t).view.emb (ix2 r l)) 1) := by
    funext a; apply Fin.ext
    match a with
    | ⟨0, _⟩ => show win0_1.index t (0 : Fin 2) * 256 + 1 * k.val = k.val; omega
    | ⟨1, _⟩ => show win0_1.index t (1 : Fin 2) * 64 + 1 * l.val = win0_4.index t (1 : Fin 2) * 64 + 1 * l.val; omega
  show mulE (V c main_arg0 (((cfg0.win 0).blk t).view.emb (ix2 r k))) (V c main_arg3 (((cfg0.win 1).blk t).view.emb (ix2 k l))) = _
  rw [hx, hw]; rfl

/-- WHAT POINT `t` WRITES BACK to the second result: block `t` of x·Wr + br. -/
theorem flushed5_eq (c : Dev nD) (t : Fin cfg0.N) :
    (dat0 V c).flushed 5 t = ((cfg0.win 5).blk t).view.read (Elt Ideal) (prod2 (V c main_arg0) (V c main_arg12) (V c main_v32)) := by
  show (cfg0.win 5).cut (grid0.coords t) ((dat0 V c).after 5 t) = _
  rw [after0_5]
  unfold out0_5
  rw [View.canon_unit_zero hz]
  simp only [View.ld_unit_zero (S := S5000x256) hz, View.ld_unit_zero (S := S256x32) hz, View.ld_unit_zero (S := S1x32) hz]
  obtain ⟨e0, e1, e2, e3, e4, e5, e6, e7, e8, e9, e10, e11⟩ := idx_facts t
  funext j
  obtain ⟨r, l, rfl⟩ : ∃ (r : Fin 5000) (l : Fin 32), j = ix2 r l := ⟨j 0, j 1, eq_ix2 j⟩
  refine (pay3_at _ _ _ r l).trans ?_
  show _ = addE (∑ k : Fin 256, mulE (V c main_arg0 (ix2 ((((cfg0.win 5).blk t).view.emb (ix2 r l)) 0) k)) (V c main_arg12 (ix2 k ((((cfg0.win 5).blk t).view.emb (ix2 r l)) 1))))
    (V c main_v32 (ix2 (0 : Fin 1) ((((cfg0.win 5).blk t).view.emb (ix2 r l)) 1)))
  have hb : ((cfg0.win 3).blk t).view.emb (ix2 (0 : Fin 1) l) = ix2 (0 : Fin 1) ((((cfg0.win 5).blk t).view.emb (ix2 r l)) 1) := by
    funext a; apply Fin.ext
    match a with
    | ⟨0, _⟩ => show win0_3.index t (0 : Fin 2) * 1 + 1 * 0 = 0; omega
    | ⟨1, _⟩ => show win0_3.index t (1 : Fin 2) * 32 + 1 * l.val = win0_5.index t (1 : Fin 2) * 32 + 1 * l.val; omega
  refine congrArg₂ (· + ·) (Finset.sum_congr rfl fun k _ => ?_) ?_
  · have hx : ((cfg0.win 0).blk t).view.emb (ix2 r k) = ix2 ((((cfg0.win 5).blk t).view.emb (ix2 r l)) 0) k := by
      funext a; apply Fin.ext
      match a with
      | ⟨0, _⟩ => show win0_0.index t (0 : Fin 2) * 5000 + 1 * r.val = win0_5.index t (0 : Fin 2) * 5000 + 1 * r.val; omega
      | ⟨1, _⟩ => show win0_0.index t (1 : Fin 2) * 256 + 1 * k.val = k.val; omega
    have hw : ((cfg0.win 2).blk t).view.emb (ix2 k l) = ix2 k ((((cfg0.win 5).blk t).view.emb (ix2 r l)) 1) := by
      funext a; apply Fin.ext
      match a with
      | ⟨0, _⟩ => show win0_2.index t (0 : Fin 2) * 256 + 1 * k.val = k.val; omega
      | ⟨1, _⟩ => show win0_2.index t (1 : Fin 2) * 32 + 1 * l.val = win0_5.index t (1 : Fin 2) * 32 + 1 * l.val; omega
    show mulE (V c main_arg0 (((cfg0.win 0).blk t).view.emb (ix2 r k))) (V c main_arg12 (((cfg0.win 2).blk t).view.emb (ix2 k l))) = _
    rw [hx, hw]; rfl
  · show (V c main_v32 (((cfg0.win 3).blk t).view.emb (ix2 (0 : Fin 1) l)) : EReal) = _
    rw [hb]; rfl

/-- An index of the first result is in point `t`'s block iff each coordinate is in the block's range on its axis. -/
theorem mem_blk4 (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v33_0).slice (win0_4.rect t)).set ↔ _
  rw [View.set_slice_whole, Rect.mem_set_unit]
  exact Iff.rfl

theorem mem_blk5 (t : Fin cfg0.N) (i : S100000x32.Idx) :
    i ∈ ((cfg0.win 5).blk t).view.set ↔ ∀ a : Fin 2, win0_5.index t a * S5000x32.size a ≤ (i a).val ∧ (i a).val < win0_5.index t a * S5000x32.size a + S5000x32.size a := by
  show i ∈ ((View.whole main_v33_1).slice (win0_5.rect t)).set ↔ _
  rw [View.set_slice_whole, Rect.mem_set_unit]
  exact Iff.rfl

/-- THE FIRST RESULT after the call: x·W1 — row `p` lies in the block of point `p / 5000`. -/
theorem final4 (c : Dev nD) : (dat0 V c).arrAt 4 cfg0.N = prod1 (V c main_arg0) (V c main_arg3) :=
  (dat0 V c).arrAt_eq_of_cover 4 _ (fun t _ => flushed4_eq V c t) fun i => by
    have hi0 : (i 0).val < 100000 := (i 0).isLt
    have hi1 : (i 1).val < 64 := (i 1).isLt
    have hN : cfg0.N = 20 := N_0
    refine ⟨⟨(i 0).val / 5000, by rw [hN]; omega⟩, flush0_4 _, ?_⟩
    rw [mem_blk4]
    obtain ⟨e0, e1, e2, e3, e4, e5, e6, e7, e8, e9, e10, e11⟩ := idx_facts ⟨(i 0).val / 5000, by rw [hN]; omega⟩
    intro a
    match a with
    | ⟨0, _⟩ => show win0_4.index _ (0 : Fin 2) * 5000 ≤ (i 0).val ∧ (i 0).val < win0_4.index _ (0 : Fin 2) * 5000 + 5000; rw [e8]; show (i 0).val / 5000 * 5000 ≤ _ ∧ _ < (i 0).val / 5000 * 5000 + 5000; omega
    | ⟨1, _⟩ => show win0_4.index _ (1 : Fin 2) * 64 ≤ (i 1).val ∧ (i 1).val < win0_4.index _ (1 : Fin 2) * 64 + 64; rw [e9]; omega

/-- THE SECOND RESULT after the call: x·Wr + br. -/
theorem final5 (c : Dev nD) : (dat0 V c).arrAt 5 cfg0.N = prod2 (V c main_arg0) (V c main_arg12) (V c main_v32) :=
  (dat0 V c).arrAt_eq_of_cover 5 _ (fun t _ => flushed5_eq V c t) fun i => by
    have hi0 : (i 0).val < 100000 := (i 0).isLt
    have hi1 : (i 1).val < 32 := (i 1).isLt
    have hN : cfg0.N = 20 := N_0
    refine ⟨⟨(i 0).val / 5000, by rw [hN]; omega⟩, flush0_5 _, ?_⟩
    rw [mem_blk5]
    obtain ⟨e0, e1, e2, e3, e4, e5, e6, e7, e8, e9, e10, e11⟩ := idx_facts ⟨(i 0).val / 5000, by rw [hN]; omega⟩
    intro a
    match a with
    | ⟨0, _⟩ => show win0_5.index _ (0 : Fin 2) * 5000 ≤ (i 0).val ∧ (i 0).val < win0_5.index _ (0 : Fin 2) * 5000 + 5000; rw [e10]; show (i 0).val / 5000 * 5000 ≤ _ ∧ _ < (i 0).val / 5000 * 5000 + 5000; omega
    | ⟨1, _⟩ => show win0_5.index _ (1 : Fin 2) * 32 ≤ (i 1).val ∧ (i 1).val < win0_5.index _ (1 : Fin 2) * 32 + 32; rw [e11]; omega

end Cert.KernelIdeal.BlockProducts

end
-- ==== Proof.LibSumBlocks.lean ====
/-
  Regrouping a finite sum by blocks.  A sum over `Fin n` with `n = a * b` is the sum over the `a`
  blocks of `b` consecutive positions of each block's sum: position `p * b + q` is the `q`-th of
  block `p`.  Valid in any commutative additive monoid (the extended reals included: no
  cancellation is used), because it is only a re-indexing along the bijection
  `Fin a × Fin b ≃ Fin (a * b)`.
-/
import Mathlib.Algebra.BigOperators.Fin
import Mathlib.Logic.Equiv.Fin.Basic

namespace LibSumBlocks

/-- Position `q` of block `p` lies below `a * b`. -/
theorem mul_add_lt {a b p q : ℕ} (hp : p < a) (hq : q < b) : p * b + q < a * b :=
  calc p * b + q < p * b + b := by omega
    _ = (p + 1) * b := by rw [Nat.add_mul, Nat.one_mul]
    _ ≤ a * b := Nat.mul_le_mul_right b hp

/-- A sum over `Fin n`, `n = a * b`, is the double sum over the block `p : Fin a` and the position
    `q : Fin b` inside it of the term at `p * b + q`. -/
theorem sum_fin_blocks {M : Type*} [AddCommMonoid M] {n : ℕ} (a b : ℕ) (hn : a * b = n) (f : Fin n → M) :
    ∑ i : Fin n, f i
      = ∑ p : Fin a, ∑ q : Fin b, f ⟨p.val * b + q.val, hn ▸ mul_add_lt p.isLt q.isLt⟩ := by
  subst hn
  rw [← Equiv.sum_comp finProdFinEquiv f, Fintype.sum_prod_type]
  refine Finset.sum_congr rfl fun p _ => Finset.sum_congr rfl fun q _ => ?_
  refine congrArg f (Fin.ext ?_)
  show q.val + b * p.val = p.val * b + q.val
  rw [Nat.mul_comm, Nat.add_comm]

/-- The same for a term that depends on the position only through its value. -/
theorem sum_fin_nat_blocks {M : Type*} [AddCommMonoid M] {n : ℕ} (a b : ℕ) (hn : a * b = n) (g : ℕ → M) :
    ∑ i : Fin n, g i.val = ∑ p : Fin a, ∑ q : Fin b, g (p.val * b + q.val) :=
  sum_fin_blocks a b hn fun i => g i.val

/-- Three levels: `n = a * b * c` positions as `a` blocks of `b` rows of `c` entries; entry `l` of row `r` of
    block `t` is position `(t * b + r) * c + l`. -/
theorem sum_fin_nat_blocks3 {M : Type*} [AddCommMonoid M] {n : ℕ} (a b c : ℕ) (hn : a * b * c = n) (g : ℕ → M) :
    ∑ i : Fin n, g i.val
      = ∑ t : Fin a, ∑ r : Fin b, ∑ l : Fin c, g ((t.val * b + r.val) * c + l.val) := by
  rw [sum_fin_nat_blocks (a * b) c hn g]
  exact sum_fin_nat_blocks a b rfl fun R => ∑ l : Fin c, g (R * c + l.val)

/-- A sum over `Finset.range N` of a function that, below `N`, is a function of the `Fin N` position: the two
    spellings of one sum. -/
theorem sum_range_eq_sum_fin {M : Type*} [AddCommMonoid M] (N : ℕ) (g : ℕ → M) (f : Fin N → M)
    (h : ∀ t : Fin N, g t.val = f t) : ∑ s ∈ Finset.range N, g s = ∑ t : Fin N, f t := by
  rw [← Fin.sum_univ_eq_sum_range]
  exact Finset.sum_congr rfl fun t _ => h t

end LibSumBlocks
-- ==== Proof.ColumnSums.lean ====
/-
  A statistics pallas_call: the [100000, 64] array of aggregated features is visited in 20 blocks of 5000 rows, and two [1, 64]
  outputs whose block never moves are carried from grid point to grid point: the first point stores zero rows and then, like every
  later point, adds to the first output the block's column sums and to the second the column sums of the block's squares. The outputs
  are written back after the last point only. So what the two result arrays end holding is, column by column, the sum over all
  100000 rows of the entries, and of their squares: the running sums after point n are sums over the first n+1 blocks (by induction
  on the point), and 20 blocks of 5000 consecutive rows are all the rows (a re-indexing of a finite sum, valid in any commutative
  monoid, so on the extended reals with no finiteness needed).
-/
import proofs.«151287_j81509889343954_1_alg».proof.Proof.Gen.KernelIdeal.Frame
import proofs.«151287_j81509889343954_1_alg».proof.Proof.LibSumBlocks
import Idealize.ShloMosaic.Lib.Pipeline.Value
import Idealize.ShloMosaic.Lib.ValueIdx
import Idealize.ShloMosaic.Lib.Tactic
import Idealize.ShloMosaic.PureOps.Ideal.Laws

set_option maxRecDepth 16384

noncomputable section

namespace Cert.KernelIdeal.ColumnSums

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The zero row the first point stores. -/
abbrev zeroRow : Vec Ideal S1x64 .f32 := broadcast S1x64 (Scalar.ofBits (F := Ideal) .f32 0x00000000#32)

/-- A length-64 vector laid out as a [1, 64] row reads, at (0, q), the vector's entry q. -/
theorem rowCast_at (v : FVec Ideal S64 .f32) (q : Fin 64) :
    shapeCast S1x64 v shapeCasts_S64_S1x64 (ix2 (0 : Fin 1) q) = v (ix1 q) :=
  shapeCast_apply v shapeCasts_S64_S1x64 _ _ (by
    rw [Shape.rowMajor_val_two]
    show (Shape.rowMajor S64 (ix1 q)).val = 0 * 64 + q.val
    rw [Shape.rowMajor_val_one]; simp)

/-- The column sum of a 5000-row block at column q. -/
theorem colSum_at (x : FVec Ideal S5000x64 .f32) (hacc : (0x00000000#32 : BitVec 32) = 0x00000000#32) (q : Fin 64) :
    multiReduction .add [0] S64 x 0x00000000#32 reduces_S5000x64_S64 (.inl rfl) hacc (ix1 q) = ∑ r : Fin 5000, x (ix2 r q) := by
  refine (Ideal.multiReduction_add_single x 0x00000000#32 reduces_S5000x64_S64 (.inl rfl) hacc (ix1 q)).trans ?_
  refine Finset.sum_congr rfl fun r _ => congrArg x (funext fun a => Fin.ext ?_)
  match a with
  | ⟨0, _⟩ => rfl
  | ⟨1, _⟩ => rfl

/-- The first output's new contents: the carried row plus the block's column sums. -/
theorem pay4_at (x : Vec Ideal S5000x64 .f32) (acc : Vec Ideal S1x64 .f32) (q : Fin 64) :
    k1_pay4 x acc (ix2 (0 : Fin 1) q) = acc (ix2 (0 : Fin 1) q) + ∑ r : Fin 5000, x (ix2 r q) := by
  unfold k1_pay4 k1_pay3
  show shapeCast S1x64 acc shapeCasts_S1x64_S1x64 (ix2 (0 : Fin 1) q) + shapeCast S1x64 _ shapeCasts_S64_S1x64 (ix2 (0 : Fin 1) q) = _
  rw [shapeCast_self, rowCast_at]
  refine congrArg (_ + ·) ?_
  refine (colSum_at _ rfl q).trans ?_
  rw [shapeCast_self]

/-- The second output's new contents: the carried row plus the column sums of the block's squares. -/
theorem pay5_at (x : Vec Ideal S5000x64 .f32) (acc : Vec Ideal S1x64 .f32) (q : Fin 64) :
    k1_pay5 x acc (ix2 (0 : Fin 1) q) = acc (ix2 (0 : Fin 1) q) + ∑ r : Fin 5000, x (ix2 r q) * x (ix2 r q) := by
  unfold k1_pay5 k1_pay3
  show shapeCast S1x64 acc shapeCasts_S1x64_S1x64 (ix2 (0 : Fin 1) q) + shapeCast S1x64 _ shapeCasts_S64_S1x64 (ix2 (0 : Fin 1) q) = _
  rw [shapeCast_self, rowCast_at]
  refine congrArg (_ + ·) ?_
  refine (colSum_at _ rfl q).trans ?_
  rw [shapeCast_self]
  rfl

/-! ## What one grid point leaves in the two carried rows -/

/-- A LATER POINT (1 … 19): the first output's buffer, holding the carried row `xo1`, is left at the carried row plus the
    block's column sums — the body's one covering store. -/
theorem out_B_1 (c : Dev nD) (i : grid1.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole) (hc : ¬cond1_0 i) (x : Vec Ideal S5000x64 .f32) (xo1 xo2 : Vec Ideal S1x64 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  rw [View.canon_unit_zero hz]
  simp only [View.readAt_eq_ld, h1.read_unread, h2.read_unread, h3.read_unread, View.ld_unit_zero (S := S5000x64) hz, View.ld_unit_zero (S := S1x64) hz]

/-- A later point, second output: the carried row plus the column sums of the block's squares. -/
theorem out_B_2 (c : Dev nD) (i : grid1.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole) (hc : ¬cond1_0 i) (x : Vec Ideal S5000x64 .f32) (xo1 xo2 : Vec Ideal S1x64 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  rw [View.canon_unit_zero hz]
  simp only [View.readAt_eq_ld, h1.read_unread, h2.read_unread, h3.read_unread, View.ld_unit_zero (S := S5000x64) hz, View.ld_unit_zero (S := S1x64) hz]

/-- THE FIRST POINT: the body stores the zero row, reads it back, and leaves the zero row plus the block's column sums. -/
theorem out_A_1 (c : Dev nD) (i : grid1.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole) (hc : cond1_0 i) (x : Vec Ideal S5000x64 .f32) :
    out1_A_1 c i a1 h1 a2 h2 a3 h3 hc x = k1_pay4 x zeroRow := by
  unfold out1_A_1
  rw [View.read_writes_eq_canon _ _ _ (cover1_A_1 c i a1 h1 a2 h2 a3 h3 hc x)]
  unfold kernelRun1_A
  dsimp only
  sl_unfold_words
  rw [View.canon_cons_unit_zero (S := S1x64) hz, View.readCov_unit_zero (S := S1x64) _ hz]
  unfold k1_pay1
  simp only [View.readAt_eq_ld, h1.read_unread, View.ld_unit_zero (S := S5000x64) hz, View.ld_unit_zero (S := S1x64) hz] <;> rfl

/-- The first point, second output: the zero row plus the column sums of the block's squares. -/
theorem out_A_2 (c : Dev nD) (i : grid1.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole) (hc : cond1_0 i) (x : Vec Ideal S5000x64 .f32) :
    out1_A_2 c i a1 h1 a2 h2 a3 h3 hc x = k1_pay5 x zeroRow := by
  unfold out1_A_2
  rw [View.read_writes_eq_canon _ _ _ (cover1_A_2 c i a1 h1 a2 h2 a3 h3 hc x)]
  unfold kernelRun1_A
  dsimp only
  sl_unfold_words
  rw [View.canon_cons_unit_zero (S := S1x64) hz, View.readCov_unit_zero (S := S1x64) _ hz]
  unfold k1_pay2
  simp only [View.readAt_eq_ld, h1.read_unread, View.ld_unit_zero (S := S5000x64) hz, View.ld_unit_zero (S := S1x64) hz] <;> rfl

/-! ## The running sums, by induction on the point -/

/-- The two carried rows after point `n`: from the zero rows, each point adds its block's column sums (of the entries, of
    their squares). -/
def sums (c : Dev nD) : (n : ℕ) → n < cfg1.N → Vec Ideal S1x64 .f32 × Vec Ideal S1x64 .f32
  | 0, h => (k1_pay4 (iblk1 V c 0 ⟨0, h⟩) zeroRow, k1_pay5 (iblk1 V c 0 ⟨0, h⟩) zeroRow)
  | n + 1, h => (k1_pay4 (iblk1 V c 0 ⟨n + 1, h⟩) (sums c n (Nat.lt_of_succ_lt h)).1,
                 k1_pay5 (iblk1 V c 0 ⟨n + 1, h⟩) (sums c n (Nat.lt_of_succ_lt h)).2)

/-- What the outputs' buffers hold after point `n` IS the running sums. -/
theorem outsAt_eq (c : Dev nD) : ∀ (n : ℕ) (h : n < cfg1.N), outsAt1 V c n h = sums V c n h
  | 0, h => by
    rw [outsAt1_A V c ⟨0, h⟩ rfl, out_A_1, out_A_2]
    rfl
  | n + 1, h => by
    have hN : cfg1.N = 20 := N_1
    have hB : ¬(⟨n + 1, h⟩ : Fin cfg1.N).val % 20 = 0 := by dsimp only; omega
    rw [outsAt1_B V c ⟨n + 1, h⟩ hB, out_B_1, out_B_2]
    show (k1_pay4 _ (outsAt1 V c n _).1, k1_pay5 _ (outsAt1 V c n _).2) = _
    rw [outsAt_eq c n]
    rfl

/-! ## The sums, column by column -/

/-- Where the input window's block sits at point `t`: block row `t`. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- Column q of the input array as a function of the row's number (zero past the last row). -/
def col (A : S100000x64.Idx → Elt Ideal .f32) (q : Fin 64) (p : ℕ) : EReal := if h : p < 100000 then A (ix2 ⟨p, h⟩ q) else 0

/-- The input block at point `t` reads row `5000 t + r` of the array. -/
theorem iblk_at (c : Dev nD) (t : Fin cfg1.N) (r : Fin 5000) (q : Fin 64) :
    iblk1 V c 0 t (ix2 r q) = col (V c main_v49) q (t.val * 5000 + r.val) := by
  have hN : cfg1.N = 20 := N_1
  have ht : t.val < 20 := hN ▸ t.isLt
  have hlt : t.val * 5000 + r.val < 100000 := by have := r.isLt; omega
  obtain ⟨e0, e1, -⟩ := idx_facts t
  unfold col
  rw [dif_pos hlt]
  show V c main_v49 (((cfg1.win 0).blk t).view.emb (ix2 r q)) = _
  refine congrArg (V c main_v49) (funext fun a => Fin.ext ?_)
  match a with
  | ⟨0, _⟩ => show win1_0.index t (0 : Fin 2) * 5000 + 1 * r.val = t.val * 5000 + r.val; omega
  | ⟨1, _⟩ => show win1_0.index t (1 : Fin 2) * 64 + 1 * q.val = q.val; omega

/-- After point `n` the two rows hold, at column q, the sums over the first n+1 blocks of the column's entries and of their
    squares. -/
theorem sums_at (c : Dev nD) (q : Fin 64) : ∀ (n : ℕ) (h : n < cfg1.N),
    (sums V c n h).1 (ix2 (0 : Fin 1) q) = ∑ t ∈ Finset.range (n + 1), ∑ r : Fin 5000, col (V c main_v49) q (t * 5000 + r.val)
    ∧ (sums V c n h).2 (ix2 (0 : Fin 1) q)
        = ∑ t ∈ Finset.range (n + 1), ∑ r : Fin 5000, col (V c main_v49) q (t * 5000 + r.val) * col (V c main_v49) q (t * 5000 + r.val)
  | 0, h => by
    have z : (zeroRow : Vec Ideal S1x64 .f32) (ix2 (0 : Fin 1) q) = 0 := Ideal.ofBits_zero_f32
    constructor
    · show k1_pay4 _ zeroRow (ix2 (0 : Fin 1) q) = _
      rw [pay4_at, z, zero_add, Finset.sum_range_one]
      exact Finset.sum_congr rfl fun r _ => iblk_at V c ⟨0, h⟩ r q
    · show k1_pay5 _ zeroRow (ix2 (0 : Fin 1) q) = _
      rw [pay5_at, z, zero_add, Finset.sum_range_one]
      exact Finset.sum_congr rfl fun r _ => by rw [iblk_at V c ⟨0, h⟩ r q]
  | n + 1, h => by
    obtain ⟨ih1, ih2⟩ := sums_at c q n (Nat.lt_of_succ_lt h)
    constructor
    · show k1_pay4 _ (sums V c n _).1 (ix2 (0 : Fin 1) q) = _
      rw [pay4_at, ih1, Finset.sum_range_succ _ (n + 1)]
      exact congrArg (_ + ·) (Finset.sum_congr rfl fun r _ => iblk_at V c ⟨n + 1, h⟩ r q)
    · show k1_pay5 _ (sums V c n _).2 (ix2 (0 : Fin 1) q) = _
      rw [pay5_at, ih2, Finset.sum_range_succ _ (n + 1)]
      exact congrArg (_ + ·) (Finset.sum_congr rfl fun r _ => by rw [iblk_at V c ⟨n + 1, h⟩ r q])

/-- Twenty blocks of 5000 consecutive rows are all 100000 rows. -/
theorem all_rows (g : ℕ → EReal) : ∑ t ∈ Finset.range 20, ∑ r : Fin 5000, g (t * 5000 + r.val) = ∑ p : Fin 100000, g p.val := by
  rw [LibSumBlocks.sum_fin_nat_blocks 20 5000 rfl g, ← Fin.sum_univ_eq_sum_range (fun t => ∑ r : Fin 5000, g (t * 5000 + r.val)) 20]

/-- The column sums over all rows, and of the squares, as [1, 64] rows. -/
abbrev colSums (A : S100000x64.Idx → Elt Ideal .f32) : S1x64.Idx → Elt Ideal .f32 := fun i => ∑ p : Fin 100000, A (ix2 p (i 1))
abbrev colSqSums (A : S100000x64.Idx → Elt Ideal .f32) : S1x64.Idx → Elt Ideal .f32 := fun i => ∑ p : Fin 100000, A (ix2 p (i 1)) * A (ix2 p (i 1))

theorem lastPoint : (19 : ℕ) < cfg1.N := by rw [show cfg1.N = 20 from N_1]; decide

/-- After the last point the carried rows are the column sums over all rows. -/
theorem sums_last (c : Dev nD) : (sums V c 19 lastPoint).1 = colSums (V c main_v49) ∧ (sums V c 19 lastPoint).2 = colSqSums (V c main_v49) := by
  constructor
  · funext i
    obtain ⟨u, q, rfl⟩ : ∃ (u : Fin 1) (q : Fin 64), i = ix2 u q := ⟨i 0, i 1, eq_ix2 i⟩
    obtain rfl : u = 0 := Subsingleton.elim _ _
    rw [(sums_at V c q 19 lastPoint).1, all_rows]
    exact Finset.sum_congr rfl fun p _ => dif_pos p.isLt
  · funext i
    obtain ⟨u, q, rfl⟩ : ∃ (u : Fin 1) (q : Fin 64), i = ix2 u q := ⟨i 0, i 1, eq_ix2 i⟩
    obtain rfl : u = 0 := Subsingleton.elim _ _
    rw [(sums_at V c q 19 lastPoint).2, all_rows (fun p => col (V c main_v49) q p * col (V c main_v49) q p)]
    exact Finset.sum_congr rfl fun p _ => by unfold col; rw [dif_pos p.isLt]

/-! ## The result arrays -/

/-- The one write-back of output `w`, after the last point, writes its carried row: the [1, 64] block at zero offsets is the array. -/
theorem flushed1_eq (c : Dev nD) (t : Fin cfg1.N) (hf : (cfg1.win 1).flush t = true) :
    (dat1 V c).flushed 1 t = ((cfg1.win 1).blk t).view.read (Elt Ideal) (colSums (V c main_v49)) := by
  have hN : cfg1.N = 20 := N_1
  have h19 : t.val = 19 := by have := (flush1_1 t).mp hf; have := t.isLt; omega
  obtain rfl : t = ⟨19, lastPoint⟩ := Fin.ext h19
  show (cfg1.win 1).cut (grid1.coords ⟨19, lastPoint⟩) ((dat1 V c).after 1 ⟨19, lastPoint⟩) = _
  rw [after1_1, outsAt_eq, (sums_last V c).1]
  have hz' : (fun a => win1_1.index ⟨19, lastPoint⟩ a * main_v50_0.ty.shape.size a) = fun _ => 0 := funext fun a => by fin_cases a <;> decide +kernel
  exact (Memref.read_access_unit_zero (Elt Ideal) main_v50_0 hz' (fun a => by rw [congrFun hz' a]; simp) (colSums (V c main_v49))).symm

theorem flushed2_eq (c : Dev nD) (t : Fin cfg1.N) (hf : (cfg1.win 2).flush t = true) :
    (dat1 V c).flushed 2 t = ((cfg1.win 2).blk t).view.read (Elt Ideal) (colSqSums (V c main_v49)) := by
  have hN : cfg1.N = 20 := N_1
  have h19 : t.val = 19 := by have := (flush1_2 t).mp hf; have := t.isLt; omega
  obtain rfl : t = ⟨19, lastPoint⟩ := Fin.ext h19
  show (cfg1.win 2).cut (grid1.coords ⟨19, lastPoint⟩) ((dat1 V c).after 2 ⟨19, lastPoint⟩) = _
  rw [after1_2, outsAt_eq, (sums_last V c).2]
  have hz' : (fun a => win1_2.index ⟨19, lastPoint⟩ a * main_v50_1.ty.shape.size a) = fun _ => 0 := funext fun a => by fin_cases a <;> decide +kernel
  exact (Memref.read_access_unit_zero (Elt Ideal) main_v50_1 hz' (fun a => by rw [congrFun hz' a]; simp) (colSqSums (V c main_v49))).symm

/-- Every index of a [1, 64] result lies in the last point's block. -/
theorem covered1 (i : S1x64.Idx) : ∃ t : Fin cfg1.N, (cfg1.win 1).flush t = true ∧ i ∈ ((cfg1.win 1).blk t).view.set := by
  refine ⟨⟨19, lastPoint⟩, (flush1_1 _).mpr rfl, ?_⟩
  show i ∈ ((View.whole main_v50_0).slice (win1_1.rect ⟨19, lastPoint⟩)).set
  rw [View.set_slice_whole, Rect.mem_set_unit]
  intro a
  have h0 : (i 0 : Nat) < 1 := (i 0).isLt
  have h1 : (i 1 : Nat) < 64 := (i 1).isLt
  match a with
  | ⟨0, _⟩ => show win1_1.index ⟨19, lastPoint⟩ 0 * win1_1.size 0 ≤ (i 0 : Nat) ∧ (i 0 : Nat) < win1_1.index ⟨19, lastPoint⟩ 0 * win1_1.size 0 + win1_1.xsize (grid1.coords ⟨19, lastPoint⟩) 0
              rw [show win1_1.index ⟨19, lastPoint⟩ 0 * win1_1.size 0 = 0 from by decide +kernel, show win1_1.xsize (grid1.coords ⟨19, lastPoint⟩) 0 = 1 from by decide +kernel]; omega
  | ⟨1, _⟩ => show win1_1.index ⟨19, lastPoint⟩ 1 * win1_1.size 1 ≤ (i 1 : Nat) ∧ (i 1 : Nat) < win1_1.index ⟨19, lastPoint⟩ 1 * win1_1.size 1 + win1_1.xsize (grid1.coords ⟨19, lastPoint⟩) 1
              rw [show win1_1.index ⟨19, lastPoint⟩ 1 * win1_1.size 1 = 0 from by decide +kernel, show win1_1.xsize (grid1.coords ⟨19, lastPoint⟩) 1 = 64 from by decide +kernel]; omega

theorem covered2 (i : S1x64.Idx) : ∃ t : Fin cfg1.N, (cfg1.win 2).flush t = true ∧ i ∈ ((cfg1.win 2).blk t).view.set := by
  refine ⟨⟨19, lastPoint⟩, (flush1_2 _).mpr rfl, ?_⟩
  show i ∈ ((View.whole main_v50_1).slice (win1_2.rect ⟨19, lastPoint⟩)).set
  rw [View.set_slice_whole, Rect.mem_set_unit]
  intro a
  have h0 : (i 0 : Nat) < 1 := (i 0).isLt
  have h1 : (i 1 : Nat) < 64 := (i 1).isLt
  match a with
  | ⟨0, _⟩ => show win1_2.index ⟨19, lastPoint⟩ 0 * win1_2.size 0 ≤ (i 0 : Nat) ∧ (i 0 : Nat) < win1_2.index ⟨19, lastPoint⟩ 0 * win1_2.size 0 + win1_2.xsize (grid1.coords ⟨19, lastPoint⟩) 0
              rw [show win1_2.index ⟨19, lastPoint⟩ 0 * win1_2.size 0 = 0 from by decide +kernel, show win1_2.xsize (grid1.coords ⟨19, lastPoint⟩) 0 = 1 from by decide +kernel]; omega
  | ⟨1, _⟩ => show win1_2.index ⟨19, lastPoint⟩ 1 * win1_2.size 1 ≤ (i 1 : Nat) ∧ (i 1 : Nat) < win1_2.index ⟨19, lastPoint⟩ 1 * win1_2.size 1 + win1_2.xsize (grid1.coords ⟨19, lastPoint⟩) 1
              rw [show win1_2.index ⟨19, lastPoint⟩ 1 * win1_2.size 1 = 0 from by decide +kernel, show win1_2.xsize (grid1.coords ⟨19, lastPoint⟩) 1 = 64 from by decide +kernel]; omega

/-- THE FIRST RESULT after the call: the column sums of the input array over all rows. -/
theorem final1 (c : Dev nD) : (dat1 V c).arrAt 1 cfg1.N = colSums (V c main_v49) :=
  (dat1 V c).arrAt_eq_of_cover 1 _ (flushed1_eq V c) covered1

/-- THE SECOND RESULT after the call: the column sums of the squares. -/
theorem final2 (c : Dev nD) : (dat1 V c).arrAt 2 cfg1.N = colSqSums (V c main_v49) :=
  (dat1 V c).arrAt_eq_of_cover 2 _ (flushed2_eq V c) covered2

end Cert.KernelIdeal.ColumnSums

end
-- ==== Proof.EntryFunctions.lean ====
/-
  The two entrywise functions of a batch-normalised layer, on the extended reals. A batch normalisation sends an entry h, with its
  column's mean μ, variance v, scale g and shift β, to  g·(h − μ)·(v + ε)^(−1/2) + β  — the products taken in that order —, where ε is
  the single-precision value nearest 10⁻⁵. The rectifier with a learnt slope a keeps a non-negative value and multiplies a negative one
  by a. Both programs apply exactly these two functions, entry by entry; naming them once lets the two sides be compared at a glance.
-/
import Idealize.ShloMosaic.PureOps.Ideal

noncomputable section

namespace Cert.Entry

open Idealize.ShloMosaic

/-- Batch normalisation of one entry. -/
def bn (h μ v g β : EReal) : EReal := g * (h - μ) * Ideal.rsqrt (v + Ideal.ofBits .f32 0x3727C5AC#32) + β

/-- The rectifier with slope `a` on one entry. -/
def rect (a y : EReal) : EReal := Scalar.select (Ideal.cmp .oge y (Ideal.ofBits .f32 0x00000000#32)) y (a * y)

end Cert.Entry

end
-- ==== Proof.NormRectify.lean ====
/-
  The batch-normalisation-and-rectifier pallas_call: the [100000, 64] array of aggregated features is visited in 20 blocks of 5000
  rows; at each block the body reads the block, the four [1, 64] rows (mean, variance, scale, shift) and the [1, 1] slope, and
  writes the normalised, rectified block back. An entry of the result depends on the same entry of the blocked input(s) and on column q
  of the rows only, so the 20 written blocks are the restrictions of ONE whole-array function: after the call the result array is
  that function of the arrays the call found.
-/
import proofs.«151287_j81509889343954_1_alg».proof.Proof.Gen.KernelIdeal.Frame
import proofs.«151287_j81509889343954_1_alg».proof.Proof.EntryFunctions
import Idealize.ShloMosaic.Lib.Pipeline.Value
import Idealize.ShloMosaic.Lib.ValueIdx
import Idealize.ShloMosaic.Lib.ValueLayout

set_option maxRecDepth 16384

noncomputable section

namespace Cert.KernelIdeal.NormRectify

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The normalised and rectified layer as one function of the arrays: entry (p, q) from the feature's entry (p, q), the four
    [1, 64] rows at column q, and the slope. -/
abbrev layer (h : S100000x64.Idx → Elt Ideal .f32) (μ v g β : S1x64.Idx → Elt Ideal .f32) (a : S1x1.Idx → Elt Ideal .f32) : S100000x64.Idx → Elt Ideal .f32 :=
  fun i => Cert.Entry.rect (a (ix2 (0 : Fin 1) (0 : Fin 1)))
    (Cert.Entry.bn (h i) (μ (ix2 (0 : Fin 1) (i 1))) (v (ix2 (0 : Fin 1) (i 1))) (g (ix2 (0 : Fin 1) (i 1))) (β (ix2 (0 : Fin 1) (i 1))))

/-- A [1, 1] block repeated over a [5000, 64] block reads its one entry everywhere. -/
theorem splat11_at (a : FVec Ideal S1x1 .f32) (r : Fin 5000) (l : Fin 64) :
    broadcastTo S5000x64 a broadcasts_S1x1_S5000x64 (ix2 r l) = a (ix2 (0 : Fin 1) (0 : Fin 1)) :=
  broadcastTo_apply a broadcasts_S1x1_S5000x64 (ix2 r l) (ix2 (0 : Fin 1) (0 : Fin 1)) (fun ax => by
    match ax with
    | ⟨0, _⟩ => show 0 = if (1 : Nat) = 1 then 0 else _; rw [if_pos rfl]
    | ⟨1, _⟩ => show 0 = if (1 : Nat) = 1 then 0 else _; rw [if_pos rfl])

/-- The normalised value at entry (r, l) of the block, before the rectifier. -/
theorem bn_at (x : Vec Ideal S5000x64 .f32) (v g μ β : Vec Ideal S1x64 .f32) (r : Fin 5000) (l : Fin 64) :
    addf (mulf (mulf (broadcastTo S5000x64 g broadcasts_S1x64_S5000x64) (subf x (broadcastTo S5000x64 μ broadcasts_S1x64_S5000x64)))
        (broadcastTo S5000x64 (rsqrt (addf v (broadcast S1x64 (Scalar.ofBits (F := Ideal) .f32 0x3727C5AC#32)))) broadcasts_S1x64_S5000x64))
      (broadcastTo S5000x64 β broadcasts_S1x64_S5000x64) (ix2 r l)
      = Cert.Entry.bn (x (ix2 r l)) (μ (ix2 (0 : Fin 1) l)) (v (ix2 (0 : Fin 1) l)) (g (ix2 (0 : Fin 1) l)) (β (ix2 (0 : Fin 1) l)) := by
  show broadcastTo S5000x64 g broadcasts_S1x64_S5000x64 (ix2 r l) * (x (ix2 r l) - broadcastTo S5000x64 μ broadcasts_S1x64_S5000x64 (ix2 r l))
        * broadcastTo S5000x64 (rsqrt (addf v (broadcast S1x64 (Scalar.ofBits (F := Ideal) .f32 0x3727C5AC#32)))) broadcasts_S1x64_S5000x64 (ix2 r l)
        + broadcastTo S5000x64 β broadcasts_S1x64_S5000x64 (ix2 r l) = _
  rw [broadcastTo_1b_ab_apply g, broadcastTo_1b_ab_apply μ, broadcastTo_1b_ab_apply β,
    broadcastTo_1b_ab_apply (rsqrt (addf v (broadcast S1x64 (Scalar.ofBits (F := Ideal) .f32 0x3727C5AC#32))))]
  rfl

/-- The body's stored value at entry (r, l) of the block. -/
theorem pay_at (x : Vec Ideal S5000x64 .f32) (v g μ β : Vec Ideal S1x64 .f32) (a : Vec Ideal S1x1 .f32) (r : Fin 5000) (l : Fin 64) :
    k2_pay1 x v g μ β a (ix2 r l) = Cert.Entry.rect (a (ix2 (0 : Fin 1) (0 : Fin 1)))
      (Cert.Entry.bn (x (ix2 r l)) (μ (ix2 (0 : Fin 1) l)) (v (ix2 (0 : Fin 1) l)) (g (ix2 (0 : Fin 1) l)) (β (ix2 (0 : Fin 1) l))) := by
  unfold k2_pay1
  simp only [shapeCast_self]
  rw [select_apply, cmpf_apply, mulf_apply, bn_at, splat11_at]
  rfl

/-- Where each window's block sits at grid point `t`: the row-blocked windows at block row `t`, the rows at their one block. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

set_option maxHeartbeats 1600000 in
/-- WHAT POINT `t` WRITES BACK: block `t` of the layer's function of the arrays as the call finds them. -/
theorem flushed_eq (c : Dev nD) (t : Fin cfg2.N) :
    (dat2 V c).flushed 6 t = ((cfg2.win 6).blk t).view.read (Elt Ideal)
      (layer (V c main_v49) (V c main_v52) (V c main_v56) (V c main_v57) (V c main_v58) (V c main_v59)) := by
  show (cfg2.win 6).cut (grid2.coords t) ((dat2 V c).after 6 t) = _
  rw [after2_6]
  unfold out2_6
  rw [View.canon_unit_zero hz]
  simp only [View.ld_unit_zero (S := S5000x64) hz, View.ld_unit_zero (S := S1x64) hz, View.ld_unit_zero (S := S1x1) hz]
  obtain ⟨e0, e1, e2, e3, e4, e5, e6, e7, e8, e9, e10, e11, e12, e13⟩ := idx_facts t
  funext j
  obtain ⟨r, l, rfl⟩ : ∃ (r : Fin 5000) (l : Fin 64), j = ix2 r l := ⟨j 0, j 1, eq_ix2 j⟩
  refine (pay_at (iblk2 V c 0 t) (iblk2 V c 2 t) (iblk2 V c 3 t) (iblk2 V c 1 t) (iblk2 V c 4 t) (iblk2 V c 5 t) r l).trans ?_
  have h0 : ((cfg2.win 0).blk t).view.emb (ix2 r l) = ((cfg2.win 6).blk t).view.emb (ix2 r l) := by
    funext a; apply Fin.ext
    match a with
    | ⟨0, _⟩ => show win2_0.index t (0 : Fin 2) * 5000 + 1 * r.val = win2_6.index t (0 : Fin 2) * 5000 + 1 * r.val; omega
    | ⟨1, _⟩ => show win2_0.index t (1 : Fin 2) * 64 + 1 * l.val = win2_6.index t (1 : Fin 2) * 64 + 1 * l.val; omega
  have h1 : ((cfg2.win 1).blk t).view.emb (ix2 (0 : Fin 1) l) = ix2 (0 : Fin 1) ((((cfg2.win 6).blk t).view.emb (ix2 r l)) 1) := by
    funext a; apply Fin.ext
    match a with
    | ⟨0, _⟩ => show win2_1.index t (0 : Fin 2) * 1 + 1 * 0 = 0; omega
    | ⟨1, _⟩ => show win2_1.index t (1 : Fin 2) * 64 + 1 * l.val = win2_6.index t (1 : Fin 2) * 64 + 1 * l.val; omega
  have h2 : ((cfg2.win 2).blk t).view.emb (ix2 (0 : Fin 1) l) = ix2 (0 : Fin 1) ((((cfg2.win 6).blk t).view.emb (ix2 r l)) 1) := by
    funext a; apply Fin.ext
    match a with
    | ⟨0, _⟩ => show win2_2.index t (0 : Fin 2) * 1 + 1 * 0 = 0; omega
    | ⟨1, _⟩ => show win2_2.index t (1 : Fin 2) * 64 + 1 * l.val = win2_6.index t (1 : Fin 2) * 64 + 1 * l.val; omega
  have h3 : ((cfg2.win 3).blk t).view.emb (ix2 (0 : Fin 1) l) = ix2 (0 : Fin 1) ((((cfg2.win 6).blk t).view.emb (ix2 r l)) 1) := by
    funext a; apply Fin.ext
    match a with
    | ⟨0, _⟩ => show win2_3.index t (0 : Fin 2) * 1 + 1 * 0 = 0; omega
    | ⟨1, _⟩ => show win2_3.index t (1 : Fin 2) * 64 + 1 * l.val = win2_6.index t (1 : Fin 2) * 64 + 1 * l.val; omega
  have h4 : ((cfg2.win 4).blk t).view.emb (ix2 (0 : Fin 1) l) = ix2 (0 : Fin 1) ((((cfg2.win 6).blk t).view.emb (ix2 r l)) 1) := by
    funext a; apply Fin.ext
    match a with
    | ⟨0, _⟩ => show win2_4.index t (0 : Fin 2) * 1 + 1 * 0 = 0; omega
    | ⟨1, _⟩ => show win2_4.index t (1 : Fin 2) * 64 + 1 * l.val = win2_6.index t (1 : Fin 2) * 64 + 1 * l.val; omega
  have h5 : ((cfg2.win 5).blk t).view.emb (ix2 (0 : Fin 1) (0 : Fin 1)) = ix2 (0 : Fin 1) (0 : Fin 1) := by
    funext a; apply Fin.ext
    match a with
    | ⟨0, _⟩ => show win2_5.index t (0 : Fin 2) * 1 + 1 * 0 = 0; omega
    | ⟨1, _⟩ => show win2_5.index t (1 : Fin 2) * 1 + 1 * 0 = 0; omega
  show Cert.Entry.rect (V c main_v59 (((cfg2.win 5).blk t).view.emb (ix2 (0 : Fin 1) (0 : Fin 1))))
      (Cert.Entry.bn (V c main_v49 (((cfg2.win 0).blk t).view.emb (ix2 r l))) (V c main_v52 (((cfg2.win 1).blk t).view.emb (ix2 (0 : Fin 1) l)))
        (V c main_v56 (((cfg2.win 2).blk t).view.emb (ix2 (0 : Fin 1) l))) (V c main_v57 (((cfg2.win 3).blk t).view.emb (ix2 (0 : Fin 1) l)))
        (V c main_v58 (((cfg2.win 4).blk t).view.emb (ix2 (0 : Fin 1) l))))
    = Cert.Entry.rect (V c main_v59 (ix2 (0 : Fin 1) (0 : Fin 1)))
      (Cert.Entry.bn (V c main_v49 (((cfg2.win 6).blk t).view.emb (ix2 r l))) (V c main_v52 (ix2 (0 : Fin 1) ((((cfg2.win 6).blk t).view.emb (ix2 r l)) 1)))
        (V c main_v56 (ix2 (0 : Fin 1) ((((cfg2.win 6).blk t).view.emb (ix2 r l)) 1))) (V c main_v57 (ix2 (0 : Fin 1) ((((cfg2.win 6).blk t).view.emb (ix2 r l)) 1)))
        (V c main_v58 (ix2 (0 : Fin 1) ((((cfg2.win 6).blk t).view.emb (ix2 r l)) 1))))
  rw [h0, h1, h2, h3, h4, h5]; rfl

/-- An index of the result is in point `t`'s block iff each coordinate is in the block's range on its axis. -/
theorem mem_blk (t : Fin cfg2.N) (i : S100000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v60).slice (win2_6.rect t)).set ↔ _
  rw [View.set_slice_whole, Rect.mem_set_unit]
  exact Iff.rfl

/-- THE RESULT after the call: the layer's function of the arrays the call found — row `p` lies in the block of point `p / 5000`. -/
theorem final (c : Dev nD) : (dat2 V c).arrAt 6 cfg2.N
    = layer (V c main_v49) (V c main_v52) (V c main_v56) (V c main_v57) (V c main_v58) (V c main_v59) :=
  (dat2 V c).arrAt_eq_of_cover 6 _ (fun t _ => flushed_eq V c t) fun i => by
    have hi0 : (i 0).val < 100000 := (i 0).isLt
    have hi1 : (i 1).val < 64 := (i 1).isLt
    have hN : cfg2.N = 20 := N_2
    refine ⟨⟨(i 0).val / 5000, by rw [hN]; omega⟩, flush2_6 _, ?_⟩
    rw [mem_blk]
    obtain ⟨e0, e1, e2, e3, e4, e5, e6, e7, e8, e9, e10, e11, e12, e13⟩ := idx_facts ⟨(i 0).val / 5000, by rw [hN]; omega⟩
    intro a
    match a with
    | ⟨0, _⟩ => show win2_6.index _ (0 : Fin 2) * 5000 ≤ (i 0).val ∧ (i 0).val < win2_6.index _ (0 : Fin 2) * 5000 + 5000; rw [e12]; show (i 0).val / 5000 * 5000 ≤ _ ∧ _ < (i 0).val / 5000 * 5000 + 5000; omega
    | ⟨1, _⟩ => show win2_6.index _ (1 : Fin 2) * 64 ≤ (i 1).val ∧ (i 1).val < win2_6.index _ (1 : Fin 2) * 64 + 64; rw [e13]; omega

end Cert.KernelIdeal.NormRectify

end
-- ==== Proof.BlockProduct2.lean ====
/-
  The fourth pallas_call: the activated features (100000 rows of 64) are visited in 20 blocks of 5000 rows; at each block the body
  forms the block's product with the weight matrix `W2` (64×32) and writes the 5000-row block back. A row of the product depends on
  the same row of the input only, so the 20 written blocks are the restrictions of one whole-array function: after the call the
  result array is the matrix product of the input array with W2. (At exact arithmetic the change of float format before the product
  is the identity, and a product into a zero accumulator is the plain sum over the contracted axis.)
-/
import proofs.«151287_j81509889343954_1_alg».proof.Proof.Gen.KernelIdeal.Frame
import proofs.«151287_j81509889343954_1_alg».proof.Proof.LibMatProduct
import Idealize.ShloMosaic.Lib.Pipeline.Value
import Idealize.ShloMosaic.Lib.ValueIdx

set_option maxRecDepth 16384

noncomputable section

namespace Cert.KernelIdeal.BlockProduct2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The product and the sum of two extended reals (entries read out of buffers are extended reals). -/
abbrev mulE (a b : EReal) : EReal := a * b
abbrev addE (a b : EReal) : EReal := a + b

/-- h·W2, entry (p, q) the sum over the 64 features of h (p, k) · W2 (k, q). -/
abbrev prod (h : S100000x64.Idx → Elt Ideal .f32) (w : S64x32.Idx → Elt Ideal .f32) : S100000x32.Idx → Elt Ideal .f32 :=
  Cert.Dense.mm (m := 100000) (K := 64) (n := 32) h w

/-- Where each window's block sits at grid point `t`. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The body's product at entry (r, l) of the block. -/
theorem pay_at (x0 : Vec Ideal S5000x64 .f32) (x1 : Vec Ideal S64x32 .f32) (r : Fin 5000) (l : Fin 32) :
    k3_pay1 x0 x1 (ix2 r l) = ∑ k : Fin 64, x0 (ix2 r k) * x1 (ix2 k l) := by
  unfold k3_pay1
  rw [shapeCast_self]
  exact Cert.Dense.matmul_zero_apply (m := 5000) (K := 64) (n := 32) dot_S5000x64_S64x32_S5000x32_1_0_0_1_n_n rfl rfl rfl rfl rfl rfl _ _ r l

/-- WHAT POINT `t` WRITES BACK: block `t` of the product of the arrays as the call finds them. -/
theorem flushed_eq (c : Dev nD) (t : Fin cfg3.N) :
    (dat3 V c).flushed 2 t = ((cfg3.win 2).blk t).view.read (Elt Ideal) (prod (V c main_v60) (V c main_arg7)) := by
  show (cfg3.win 2).cut (grid3.coords t) ((dat3 V c).after 2 t) = _
  rw [after3_2]
  unfold out3_2
  rw [View.canon_unit_zero hz]
  simp only [View.ld_unit_zero (S := S5000x64) hz, View.ld_unit_zero (S := S64x32) hz]
  obtain ⟨e0, e1, e2, e3, e4, e5⟩ := idx_facts t
  funext j
  obtain ⟨r, l, rfl⟩ : ∃ (r : Fin 5000) (l : Fin 32), j = ix2 r l := ⟨j 0, j 1, eq_ix2 j⟩
  refine (pay_at _ _ r l).trans ?_
  show _ = ∑ k : Fin 64, mulE (V c main_v60 (ix2 ((((cfg3.win 2).blk t).view.emb (ix2 r l)) 0) k)) (V c main_arg7 (ix2 k ((((cfg3.win 2).blk t).view.emb (ix2 r l)) 1)))
  refine Finset.sum_congr rfl fun k _ => ?_
  have hx : ((cfg3.win 0).blk t).view.emb (ix2 r k) = ix2 ((((cfg3.win 2).blk t).view.emb (ix2 r l)) 0) k := by
    funext a; apply Fin.ext
    match a with
    | ⟨0, _⟩ => show win3_0.index t (0 : Fin 2) * 5000 + 1 * r.val = win3_2.index t (0 : Fin 2) * 5000 + 1 * r.val; omega
    | ⟨1, _⟩ => show win3_0.index t (1 : Fin 2) * 64 + 1 * k.val = k.val; omega
  have hw : ((cfg3.win 1).blk t).view.emb (ix2 k l) = ix2 k ((((cfg3.win 2).blk t).view.emb (ix2 r l)) 1) := by
    funext a; apply Fin.ext
    match a with
    | ⟨0, _⟩ => show win3_1.index t (0 : Fin 2) * 64 + 1 * k.val = k.val; omega
    | ⟨1, _⟩ => show win3_1.index t (1 : Fin 2) * 32 + 1 * l.val = win3_2.index t (1 : Fin 2) * 32 + 1 * l.val; omega
  show mulE (V c main_v60 (((cfg3.win 0).blk t).view.emb (ix2 r k))) (V c main_arg7 (((cfg3.win 1).blk t).view.emb (ix2 k l))) = _
  rw [hx, hw]; rfl

/-- An index of the result is in point `t`'s block iff each coordinate is in the block's range on its axis. -/
theorem mem_blk (t : Fin cfg3.N) (i : S100000x32.Idx) :
    i ∈ ((cfg3.win 2).blk t).view.set ↔ ∀ a : Fin 2, win3_2.index t a * S5000x32.size a ≤ (i a).val ∧ (i a).val < win3_2.index t a * S5000x32.size a + S5000x32.size a := by
  show i ∈ ((View.whole main_v61).slice (win3_2.rect t)).set ↔ _
  rw [View.set_slice_whole, Rect.mem_set_unit]
  exact Iff.rfl

/-- THE RESULT after the call: the product — row `p` lies in the block of point `p / 5000`. -/
theorem final (c : Dev nD) : (dat3 V c).arrAt 2 cfg3.N = prod (V c main_v60) (V c main_arg7) :=
  (dat3 V c).arrAt_eq_of_cover 2 _ (fun t _ => flushed_eq V c t) fun i => by
    have hi0 : (i 0).val < 100000 := (i 0).isLt
    have hi1 : (i 1).val < 32 := (i 1).isLt
    have hN : cfg3.N = 20 := N_3
    refine ⟨⟨(i 0).val / 5000, by rw [hN]; omega⟩, flush3_2 _, ?_⟩
    rw [mem_blk]
    obtain ⟨e0, e1, e2, e3, e4, e5⟩ := idx_facts ⟨(i 0).val / 5000, by rw [hN]; omega⟩
    intro a
    match a with
    | ⟨0, _⟩ => show win3_2.index _ (0 : Fin 2) * 5000 ≤ (i 0).val ∧ (i 0).val < win3_2.index _ (0 : Fin 2) * 5000 + 5000; rw [e4]; show (i 0).val / 5000 * 5000 ≤ _ ∧ _ < (i 0).val / 5000 * 5000 + 5000; omega
    | ⟨1, _⟩ => show win3_2.index _ (1 : Fin 2) * 32 ≤ (i 1).val ∧ (i 1).val < win3_2.index _ (1 : Fin 2) * 32 + 32; rw [e5]; omega

end Cert.KernelIdeal.BlockProduct2

end
-- ==== Proof.ColumnSums2.lean ====
/-
  A statistics pallas_call: the [100000, 32] array of aggregated features is visited in 20 blocks of 5000 rows, and two [1, 32]
  outputs whose block never moves are carried from grid point to grid point: the first point stores zero rows and then, like every
  later point, adds to the first output the block's column sums and to the second the column sums of the block's squares. The outputs
  are written back after the last point only. So what the two result arrays end holding is, column by column, the sum over all
  100000 rows of the entries, and of their squares: the running sums after point n are sums over the first n+1 blocks (by induction
  on the point), and 20 blocks of 5000 consecutive rows are all the rows (a re-indexing of a finite sum, valid in any commutative
  monoid, so on the extended reals with no finiteness needed).
-/
import proofs.«151287_j81509889343954_1_alg».proof.Proof.Gen.KernelIdeal.Frame
import proofs.«151287_j81509889343954_1_alg».proof.Proof.LibSumBlocks
import Idealize.ShloMosaic.Lib.Pipeline.Value
import Idealize.ShloMosaic.Lib.ValueIdx
import Idealize.ShloMosaic.Lib.Tactic
import Idealize.ShloMosaic.PureOps.Ideal.Laws

set_option maxRecDepth 16384

noncomputable section

namespace Cert.KernelIdeal.ColumnSums2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The zero row the first point stores. -/
abbrev zeroRow : Vec Ideal S1x32 .f32 := broadcast S1x32 (Scalar.ofBits (F := Ideal) .f32 0x00000000#32)

/-- A length-32 vector laid out as a [1, 32] row reads, at (0, q), the vector's entry q. -/
theorem rowCast_at (v : FVec Ideal S32 .f32) (q : Fin 32) :
    shapeCast S1x32 v shapeCasts_S32_S1x32 (ix2 (0 : Fin 1) q) = v (ix1 q) :=
  shapeCast_apply v shapeCasts_S32_S1x32 _ _ (by
    rw [Shape.rowMajor_val_two]
    show (Shape.rowMajor S32 (ix1 q)).val = 0 * 32 + q.val
    rw [Shape.rowMajor_val_one]; simp)

/-- The column sum of a 5000-row block at column q. -/
theorem colSum_at (x : FVec Ideal S5000x32 .f32) (hacc : (0x00000000#32 : BitVec 32) = 0x00000000#32) (q : Fin 32) :
    multiReduction .add [0] S32 x 0x00000000#32 reduces_S5000x32_S32 (.inl rfl) hacc (ix1 q) = ∑ r : Fin 5000, x (ix2 r q) := by
  refine (Ideal.multiReduction_add_single x 0x00000000#32 reduces_S5000x32_S32 (.inl rfl) hacc (ix1 q)).trans ?_
  refine Finset.sum_congr rfl fun r _ => congrArg x (funext fun a => Fin.ext ?_)
  match a with
  | ⟨0, _⟩ => rfl
  | ⟨1, _⟩ => rfl

/-- The first output's new contents: the carried row plus the block's column sums. -/
theorem pay4_at (x : Vec Ideal S5000x32 .f32) (acc : Vec Ideal S1x32 .f32) (q : Fin 32) :
    k4_pay4 x acc (ix2 (0 : Fin 1) q) = acc (ix2 (0 : Fin 1) q) + ∑ r : Fin 5000, x (ix2 r q) := by
  unfold k4_pay4 k4_pay3
  show shapeCast S1x32 acc shapeCasts_S1x32_S1x32 (ix2 (0 : Fin 1) q) + shapeCast S1x32 _ shapeCasts_S32_S1x32 (ix2 (0 : Fin 1) q) = _
  rw [shapeCast_self, rowCast_at]
  refine congrArg (_ + ·) ?_
  refine (colSum_at _ rfl q).trans ?_
  rw [shapeCast_self]

/-- The second output's new contents: the carried row plus the column sums of the block's squares. -/
theorem pay5_at (x : Vec Ideal S5000x32 .f32) (acc : Vec Ideal S1x32 .f32) (q : Fin 32) :
    k4_pay5 x acc (ix2 (0 : Fin 1) q) = acc (ix2 (0 : Fin 1) q) + ∑ r : Fin 5000, x (ix2 r q) * x (ix2 r q) := by
  unfold k4_pay5 k4_pay3
  show shapeCast S1x32 acc shapeCasts_S1x32_S1x32 (ix2 (0 : Fin 1) q) + shapeCast S1x32 _ shapeCasts_S32_S1x32 (ix2 (0 : Fin 1) q) = _
  rw [shapeCast_self, rowCast_at]
  refine congrArg (_ + ·) ?_
  refine (colSum_at _ rfl q).trans ?_
  rw [shapeCast_self]
  rfl

/-! ## What one grid point leaves in the two carried rows -/

/-- A LATER POINT (1 … 19): the first output's buffer, holding the carried row `xo1`, is left at the carried row plus the
    block's column sums — the body's one covering store. -/
theorem out_B_1 (c : Dev nD) (i : grid4.Coords) (a1 : Memref sig .tc .vmem S5000x32 .f32) (h1 : a1.IsWhole)
    (a2 : Memref sig .tc .vmem S1x32 .f32) (h2 : a2.IsWhole) (a3 : Memref sig .tc .vmem S1x32 .f32) (h3 : a3.IsWhole) (hc : ¬cond4_0 i) (x : Vec Ideal S5000x32 .f32) (xo1 xo2 : Vec Ideal S1x32 .f32) :
    out4_B_1 c i a1 h1 a2 h2 a3 h3 hc x xo1 xo2 = k4_pay4 x xo1 := by
  unfold out4_B_1
  rw [View.read_writes_eq_canon _ _ _ (cover4_B_1 c i a1 h1 a2 h2 a3 h3 hc x xo1 xo2)]
  unfold kernelRun4_B
  dsimp only
  rw [View.canon_unit_zero hz]
  simp only [View.readAt_eq_ld, h1.read_unread, h2.read_unread, h3.read_unread, View.ld_unit_zero (S := S5000x32) hz, View.ld_unit_zero (S := S1x32) hz]

/-- A later point, second output: the carried row plus the column sums of the block's squares. -/
theorem out_B_2 (c : Dev nD) (i : grid4.Coords) (a1 : Memref sig .tc .vmem S5000x32 .f32) (h1 : a1.IsWhole)
    (a2 : Memref sig .tc .vmem S1x32 .f32) (h2 : a2.IsWhole) (a3 : Memref sig .tc .vmem S1x32 .f32) (h3 : a3.IsWhole) (hc : ¬cond4_0 i) (x : Vec Ideal S5000x32 .f32) (xo1 xo2 : Vec Ideal S1x32 .f32) :
    out4_B_2 c i a1 h1 a2 h2 a3 h3 hc x xo1 xo2 = k4_pay5 x xo2 := by
  unfold out4_B_2
  rw [View.read_writes_eq_canon _ _ _ (cover4_B_2 c i a1 h1 a2 h2 a3 h3 hc x xo1 xo2)]
  unfold kernelRun4_B
  dsimp only
  rw [View.canon_unit_zero hz]
  simp only [View.readAt_eq_ld, h1.read_unread, h2.read_unread, h3.read_unread, View.ld_unit_zero (S := S5000x32) hz, View.ld_unit_zero (S := S1x32) hz]

/-- THE FIRST POINT: the body stores the zero row, reads it back, and leaves the zero row plus the block's column sums. -/
theorem out_A_1 (c : Dev nD) (i : grid4.Coords) (a1 : Memref sig .tc .vmem S5000x32 .f32) (h1 : a1.IsWhole)
    (a2 : Memref sig .tc .vmem S1x32 .f32) (h2 : a2.IsWhole) (a3 : Memref sig .tc .vmem S1x32 .f32) (h3 : a3.IsWhole) (hc : cond4_0 i) (x : Vec Ideal S5000x32 .f32) :
    out4_A_1 c i a1 h1 a2 h2 a3 h3 hc x = k4_pay4 x zeroRow := by
  unfold out4_A_1
  rw [View.read_writes_eq_canon _ _ _ (cover4_A_1 c i a1 h1 a2 h2 a3 h3 hc x)]
  unfold kernelRun4_A
  dsimp only
  sl_unfold_words
  rw [View.canon_cons_unit_zero (S := S1x32) hz, View.readCov_unit_zero (S := S1x32) _ hz]
  unfold k4_pay1
  simp only [View.readAt_eq_ld, h1.read_unread, View.ld_unit_zero (S := S5000x32) hz, View.ld_unit_zero (S := S1x32) hz] <;> rfl

/-- The first point, second output: the zero row plus the column sums of the block's squares. -/
theorem out_A_2 (c : Dev nD) (i : grid4.Coords) (a1 : Memref sig .tc .vmem S5000x32 .f32) (h1 : a1.IsWhole)
    (a2 : Memref sig .tc .vmem S1x32 .f32) (h2 : a2.IsWhole) (a3 : Memref sig .tc .vmem S1x32 .f32) (h3 : a3.IsWhole) (hc : cond4_0 i) (x : Vec Ideal S5000x32 .f32) :
    out4_A_2 c i a1 h1 a2 h2 a3 h3 hc x = k4_pay5 x zeroRow := by
  unfold out4_A_2
  rw [View.read_writes_eq_canon _ _ _ (cover4_A_2 c i a1 h1 a2 h2 a3 h3 hc x)]
  unfold kernelRun4_A
  dsimp only
  sl_unfold_words
  rw [View.canon_cons_unit_zero (S := S1x32) hz, View.readCov_unit_zero (S := S1x32) _ hz]
  unfold k4_pay2
  simp only [View.readAt_eq_ld, h1.read_unread, View.ld_unit_zero (S := S5000x32) hz, View.ld_unit_zero (S := S1x32) hz] <;> rfl

/-! ## The running sums, by induction on the point -/

/-- The two carried rows after point `n`: from the zero rows, each point adds its block's column sums (of the entries, of
    their squares). -/
def sums (c : Dev nD) : (n : ℕ) → n < cfg4.N → Vec Ideal S1x32 .f32 × Vec Ideal S1x32 .f32
  | 0, h => (k4_pay4 (iblk4 V c 0 ⟨0, h⟩) zeroRow, k4_pay5 (iblk4 V c 0 ⟨0, h⟩) zeroRow)
  | n + 1, h => (k4_pay4 (iblk4 V c 0 ⟨n + 1, h⟩) (sums c n (Nat.lt_of_succ_lt h)).1,
                 k4_pay5 (iblk4 V c 0 ⟨n + 1, h⟩) (sums c n (Nat.lt_of_succ_lt h)).2)

/-- What the outputs' buffers hold after point `n` IS the running sums. -/
theorem outsAt_eq (c : Dev nD) : ∀ (n : ℕ) (h : n < cfg4.N), outsAt4 V c n h = sums V c n h
  | 0, h => by
    rw [outsAt4_A V c ⟨0, h⟩ rfl, out_A_1, out_A_2]
    rfl
  | n + 1, h => by
    have hN : cfg4.N = 20 := N_4
    have hB : ¬(⟨n + 1, h⟩ : Fin cfg4.N).val % 20 = 0 := by dsimp only; omega
    rw [outsAt4_B V c ⟨n + 1, h⟩ hB, out_B_1, out_B_2]
    show (k4_pay4 _ (outsAt4 V c n _).1, k4_pay5 _ (outsAt4 V c n _).2) = _
    rw [outsAt_eq c n]
    rfl

/-! ## The sums, column by column -/

/-- Where the input window's block sits at point `t`: block row `t`. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0 :=
  (by decide +kernel : ∀ t : Fin grid4.N, _)

/-- Column q of the input array as a function of the row's number (zero past the last row). -/
def col (A : S100000x32.Idx → Elt Ideal .f32) (q : Fin 32) (p : ℕ) : EReal := if h : p < 100000 then A (ix2 ⟨p, h⟩ q) else 0

/-- The input block at point `t` reads row `5000 t + r` of the array. -/
theorem iblk_at (c : Dev nD) (t : Fin cfg4.N) (r : Fin 5000) (q : Fin 32) :
    iblk4 V c 0 t (ix2 r q) = col (V c main_v77) q (t.val * 5000 + r.val) := by
  have hN : cfg4.N = 20 := N_4
  have ht : t.val < 20 := hN ▸ t.isLt
  have hlt : t.val * 5000 + r.val < 100000 := by have := r.isLt; omega
  obtain ⟨e0, e1, -⟩ := idx_facts t
  unfold col
  rw [dif_pos hlt]
  show V c main_v77 (((cfg4.win 0).blk t).view.emb (ix2 r q)) = _
  refine congrArg (V c main_v77) (funext fun a => Fin.ext ?_)
  match a with
  | ⟨0, _⟩ => show win4_0.index t (0 : Fin 2) * 5000 + 1 * r.val = t.val * 5000 + r.val; omega
  | ⟨1, _⟩ => show win4_0.index t (1 : Fin 2) * 32 + 1 * q.val = q.val; omega

/-- After point `n` the two rows hold, at column q, the sums over the first n+1 blocks of the column's entries and of their
    squares. -/
theorem sums_at (c : Dev nD) (q : Fin 32) : ∀ (n : ℕ) (h : n < cfg4.N),
    (sums V c n h).1 (ix2 (0 : Fin 1) q) = ∑ t ∈ Finset.range (n + 1), ∑ r : Fin 5000, col (V c main_v77) q (t * 5000 + r.val)
    ∧ (sums V c n h).2 (ix2 (0 : Fin 1) q)
        = ∑ t ∈ Finset.range (n + 1), ∑ r : Fin 5000, col (V c main_v77) q (t * 5000 + r.val) * col (V c main_v77) q (t * 5000 + r.val)
  | 0, h => by
    have z : (zeroRow : Vec Ideal S1x32 .f32) (ix2 (0 : Fin 1) q) = 0 := Ideal.ofBits_zero_f32
    constructor
    · show k4_pay4 _ zeroRow (ix2 (0 : Fin 1) q) = _
      rw [pay4_at, z, zero_add, Finset.sum_range_one]
      exact Finset.sum_congr rfl fun r _ => iblk_at V c ⟨0, h⟩ r q
    · show k4_pay5 _ zeroRow (ix2 (0 : Fin 1) q) = _
      rw [pay5_at, z, zero_add, Finset.sum_range_one]
      exact Finset.sum_congr rfl fun r _ => by rw [iblk_at V c ⟨0, h⟩ r q]
  | n + 1, h => by
    obtain ⟨ih1, ih2⟩ := sums_at c q n (Nat.lt_of_succ_lt h)
    constructor
    · show k4_pay4 _ (sums V c n _).1 (ix2 (0 : Fin 1) q) = _
      rw [pay4_at, ih1, Finset.sum_range_succ _ (n + 1)]
      exact congrArg (_ + ·) (Finset.sum_congr rfl fun r _ => iblk_at V c ⟨n + 1, h⟩ r q)
    · show k4_pay5 _ (sums V c n _).2 (ix2 (0 : Fin 1) q) = _
      rw [pay5_at, ih2, Finset.sum_range_succ _ (n + 1)]
      exact congrArg (_ + ·) (Finset.sum_congr rfl fun r _ => by rw [iblk_at V c ⟨n + 1, h⟩ r q])

/-- Twenty blocks of 5000 consecutive rows are all 100000 rows. -/
theorem all_rows (g : ℕ → EReal) : ∑ t ∈ Finset.range 20, ∑ r : Fin 5000, g (t * 5000 + r.val) = ∑ p : Fin 100000, g p.val := by
  rw [LibSumBlocks.sum_fin_nat_blocks 20 5000 rfl g, ← Fin.sum_univ_eq_sum_range (fun t => ∑ r : Fin 5000, g (t * 5000 + r.val)) 20]

/-- The column sums over all rows, and of the squares, as [1, 32] rows. -/
abbrev colSums (A : S100000x32.Idx → Elt Ideal .f32) : S1x32.Idx → Elt Ideal .f32 := fun i => ∑ p : Fin 100000, A (ix2 p (i 1))
abbrev colSqSums (A : S100000x32.Idx → Elt Ideal .f32) : S1x32.Idx → Elt Ideal .f32 := fun i => ∑ p : Fin 100000, A (ix2 p (i 1)) * A (ix2 p (i 1))

theorem lastPoint : (19 : ℕ) < cfg4.N := by rw [show cfg4.N = 20 from N_4]; decide

/-- After the last point the carried rows are the column sums over all rows. -/
theorem sums_last (c : Dev nD) : (sums V c 19 lastPoint).1 = colSums (V c main_v77) ∧ (sums V c 19 lastPoint).2 = colSqSums (V c main_v77) := by
  constructor
  · funext i
    obtain ⟨u, q, rfl⟩ : ∃ (u : Fin 1) (q : Fin 32), i = ix2 u q := ⟨i 0, i 1, eq_ix2 i⟩
    obtain rfl : u = 0 := Subsingleton.elim _ _
    rw [(sums_at V c q 19 lastPoint).1, all_rows]
    exact Finset.sum_congr rfl fun p _ => dif_pos p.isLt
  · funext i
    obtain ⟨u, q, rfl⟩ : ∃ (u : Fin 1) (q : Fin 32), i = ix2 u q := ⟨i 0, i 1, eq_ix2 i⟩
    obtain rfl : u = 0 := Subsingleton.elim _ _
    rw [(sums_at V c q 19 lastPoint).2, all_rows (fun p => col (V c main_v77) q p * col (V c main_v77) q p)]
    exact Finset.sum_congr rfl fun p _ => by unfold col; rw [dif_pos p.isLt]

/-! ## The result arrays -/

/-- The one write-back of output `w`, after the last point, writes its carried row: the [1, 32] block at zero offsets is the array. -/
theorem flushed1_eq (c : Dev nD) (t : Fin cfg4.N) (hf : (cfg4.win 1).flush t = true) :
    (dat4 V c).flushed 1 t = ((cfg4.win 1).blk t).view.read (Elt Ideal) (colSums (V c main_v77)) := by
  have hN : cfg4.N = 20 := N_4
  have h19 : t.val = 19 := by have := (flush4_1 t).mp hf; have := t.isLt; omega
  obtain rfl : t = ⟨19, lastPoint⟩ := Fin.ext h19
  show (cfg4.win 1).cut (grid4.coords ⟨19, lastPoint⟩) ((dat4 V c).after 1 ⟨19, lastPoint⟩) = _
  rw [after4_1, outsAt_eq, (sums_last V c).1]
  have hz' : (fun a => win4_1.index ⟨19, lastPoint⟩ a * main_v78_0.ty.shape.size a) = fun _ => 0 := funext fun a => by fin_cases a <;> decide +kernel
  exact (Memref.read_access_unit_zero (Elt Ideal) main_v78_0 hz' (fun a => by rw [congrFun hz' a]; simp) (colSums (V c main_v77))).symm

theorem flushed2_eq (c : Dev nD) (t : Fin cfg4.N) (hf : (cfg4.win 2).flush t = true) :
    (dat4 V c).flushed 2 t = ((cfg4.win 2).blk t).view.read (Elt Ideal) (colSqSums (V c main_v77)) := by
  have hN : cfg4.N = 20 := N_4
  have h19 : t.val = 19 := by have := (flush4_2 t).mp hf; have := t.isLt; omega
  obtain rfl : t = ⟨19, lastPoint⟩ := Fin.ext h19
  show (cfg4.win 2).cut (grid4.coords ⟨19, lastPoint⟩) ((dat4 V c).after 2 ⟨19, lastPoint⟩) = _
  rw [after4_2, outsAt_eq, (sums_last V c).2]
  have hz' : (fun a => win4_2.index ⟨19, lastPoint⟩ a * main_v78_1.ty.shape.size a) = fun _ => 0 := funext fun a => by fin_cases a <;> decide +kernel
  exact (Memref.read_access_unit_zero (Elt Ideal) main_v78_1 hz' (fun a => by rw [congrFun hz' a]; simp) (colSqSums (V c main_v77))).symm

/-- Every index of a [1, 32] result lies in the last point's block. -/
theorem covered1 (i : S1x32.Idx) : ∃ t : Fin cfg4.N, (cfg4.win 1).flush t = true ∧ i ∈ ((cfg4.win 1).blk t).view.set := by
  refine ⟨⟨19, lastPoint⟩, (flush4_1 _).mpr rfl, ?_⟩
  show i ∈ ((View.whole main_v78_0).slice (win4_1.rect ⟨19, lastPoint⟩)).set
  rw [View.set_slice_whole, Rect.mem_set_unit]
  intro a
  have h0 : (i 0 : Nat) < 1 := (i 0).isLt
  have h1 : (i 1 : Nat) < 32 := (i 1).isLt
  match a with
  | ⟨0, _⟩ => show win4_1.index ⟨19, lastPoint⟩ 0 * win4_1.size 0 ≤ (i 0 : Nat) ∧ (i 0 : Nat) < win4_1.index ⟨19, lastPoint⟩ 0 * win4_1.size 0 + win4_1.xsize (grid4.coords ⟨19, lastPoint⟩) 0
              rw [show win4_1.index ⟨19, lastPoint⟩ 0 * win4_1.size 0 = 0 from by decide +kernel, show win4_1.xsize (grid4.coords ⟨19, lastPoint⟩) 0 = 1 from by decide +kernel]; omega
  | ⟨1, _⟩ => show win4_1.index ⟨19, lastPoint⟩ 1 * win4_1.size 1 ≤ (i 1 : Nat) ∧ (i 1 : Nat) < win4_1.index ⟨19, lastPoint⟩ 1 * win4_1.size 1 + win4_1.xsize (grid4.coords ⟨19, lastPoint⟩) 1
              rw [show win4_1.index ⟨19, lastPoint⟩ 1 * win4_1.size 1 = 0 from by decide +kernel, show win4_1.xsize (grid4.coords ⟨19, lastPoint⟩) 1 = 32 from by decide +kernel]; omega

theorem covered2 (i : S1x32.Idx) : ∃ t : Fin cfg4.N, (cfg4.win 2).flush t = true ∧ i ∈ ((cfg4.win 2).blk t).view.set := by
  refine ⟨⟨19, lastPoint⟩, (flush4_2 _).mpr rfl, ?_⟩
  show i ∈ ((View.whole main_v78_1).slice (win4_2.rect ⟨19, lastPoint⟩)).set
  rw [View.set_slice_whole, Rect.mem_set_unit]
  intro a
  have h0 : (i 0 : Nat) < 1 := (i 0).isLt
  have h1 : (i 1 : Nat) < 32 := (i 1).isLt
  match a with
  | ⟨0, _⟩ => show win4_2.index ⟨19, lastPoint⟩ 0 * win4_2.size 0 ≤ (i 0 : Nat) ∧ (i 0 : Nat) < win4_2.index ⟨19, lastPoint⟩ 0 * win4_2.size 0 + win4_2.xsize (grid4.coords ⟨19, lastPoint⟩) 0
              rw [show win4_2.index ⟨19, lastPoint⟩ 0 * win4_2.size 0 = 0 from by decide +kernel, show win4_2.xsize (grid4.coords ⟨19, lastPoint⟩) 0 = 1 from by decide +kernel]; omega
  | ⟨1, _⟩ => show win4_2.index ⟨19, lastPoint⟩ 1 * win4_2.size 1 ≤ (i 1 : Nat) ∧ (i 1 : Nat) < win4_2.index ⟨19, lastPoint⟩ 1 * win4_2.size 1 + win4_2.xsize (grid4.coords ⟨19, lastPoint⟩) 1
              rw [show win4_2.index ⟨19, lastPoint⟩ 1 * win4_2.size 1 = 0 from by decide +kernel, show win4_2.xsize (grid4.coords ⟨19, lastPoint⟩) 1 = 32 from by decide +kernel]; omega

/-- THE FIRST RESULT after the call: the column sums of the input array over all rows. -/
theorem final1 (c : Dev nD) : (dat4 V c).arrAt 1 cfg4.N = colSums (V c main_v77) :=
  (dat4 V c).arrAt_eq_of_cover 1 _ (flushed1_eq V c) covered1

/-- THE SECOND RESULT after the call: the column sums of the squares. -/
theorem final2 (c : Dev nD) : (dat4 V c).arrAt 2 cfg4.N = colSqSums (V c main_v77) :=
  (dat4 V c).arrAt_eq_of_cover 2 _ (flushed2_eq V c) covered2

end Cert.KernelIdeal.ColumnSums2

end
-- ==== Proof.NormResidual.lean ====
/-
  The final pallas_call: batch normalisation plus the residual. The [100000, 32] array of aggregated features and the residual
  array are visited in 20 blocks of 5000 rows; at each block the body reads the two blocks and the four [1, 32] rows (mean,
  variance, scale, shift) and writes the normalised block plus the residual block back. An entry of the result depends on the same entry of the blocked input(s) and on column q
  of the rows only, so the 20 written blocks are the restrictions of ONE whole-array function: after the call the result array is
  that function of the arrays the call found.
-/
import proofs.«151287_j81509889343954_1_alg».proof.Proof.Gen.KernelIdeal.Frame
import proofs.«151287_j81509889343954_1_alg».proof.Proof.EntryFunctions
import Idealize.ShloMosaic.Lib.Pipeline.Value
import Idealize.ShloMosaic.Lib.ValueIdx
import Idealize.ShloMosaic.Lib.ValueLayout

set_option maxRecDepth 16384

noncomputable section

namespace Cert.KernelIdeal.NormResidual

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The normalised layer plus the residual as one function of the arrays: entry (p, q) from the feature's entry (p, q), the four
    [1, 32] rows at column q, and the residual's entry (p, q). -/
abbrev layer (h : S100000x32.Idx → Elt Ideal .f32) (μ v g β : S1x32.Idx → Elt Ideal .f32) (res : S100000x32.Idx → Elt Ideal .f32) : S100000x32.Idx → Elt Ideal .f32 :=
  fun i => Cert.Entry.bn (h i) (μ (ix2 (0 : Fin 1) (i 1))) (v (ix2 (0 : Fin 1) (i 1))) (g (ix2 (0 : Fin 1) (i 1))) (β (ix2 (0 : Fin 1) (i 1))) + res i

/-- The body's stored value at entry (r, l) of the block. -/
theorem pay_at (x : Vec Ideal S5000x32 .f32) (v g μ β : Vec Ideal S1x32 .f32) (res : Vec Ideal S5000x32 .f32) (r : Fin 5000) (l : Fin 32) :
    k5_pay1 x v g μ β res (ix2 r l)
      = Cert.Entry.bn (x (ix2 r l)) (μ (ix2 (0 : Fin 1) l)) (v (ix2 (0 : Fin 1) l)) (g (ix2 (0 : Fin 1) l)) (β (ix2 (0 : Fin 1) l)) + res (ix2 r l) := by
  unfold k5_pay1
  simp only [shapeCast_self]
  show (broadcastTo S5000x32 g broadcasts_S1x32_S5000x32 (ix2 r l) * (x (ix2 r l) - broadcastTo S5000x32 μ broadcasts_S1x32_S5000x32 (ix2 r l))
        * broadcastTo S5000x32 (rsqrt (addf v (broadcast S1x32 (Scalar.ofBits (F := Ideal) .f32 0x3727C5AC#32)))) broadcasts_S1x32_S5000x32 (ix2 r l)
        + broadcastTo S5000x32 β broadcasts_S1x32_S5000x32 (ix2 r l)) + res (ix2 r l) = _
  rw [broadcastTo_1b_ab_apply g, broadcastTo_1b_ab_apply μ, broadcastTo_1b_ab_apply β,
    broadcastTo_1b_ab_apply (rsqrt (addf v (broadcast S1x32 (Scalar.ofBits (F := Ideal) .f32 0x3727C5AC#32))))]
  rfl

/-- Where each window's block sits at grid point `t`: the row-blocked windows at block row `t`, the rows at their one block. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0
    ∧ win5_6.index t (0 : Fin 2) = t.val ∧ win5_6.index t (1 : Fin 2) = 0 :=
  (by decide +kernel : ∀ t : Fin grid5.N, _)

set_option maxHeartbeats 1600000 in
/-- WHAT POINT `t` WRITES BACK: block `t` of the layer's function of the arrays as the call finds them. -/
theorem flushed_eq (c : Dev nD) (t : Fin cfg5.N) :
    (dat5 V c).flushed 6 t = ((cfg5.win 6).blk t).view.read (Elt Ideal)
      (layer (V c main_v77) (V c main_v80) (V c main_v84) (V c main_v85) (V c main_v86) (V c main_v33_1)) := by
  show (cfg5.win 6).cut (grid5.coords t) ((dat5 V c).after 6 t) = _
  rw [after5_6]
  unfold out5_6
  rw [View.canon_unit_zero hz]
  simp only [View.ld_unit_zero (S := S5000x32) hz, View.ld_unit_zero (S := S1x32) hz]
  obtain ⟨e0, e1, e2, e3, e4, e5, e6, e7, e8, e9, e10, e11, e12, e13⟩ := idx_facts t
  funext j
  obtain ⟨r, l, rfl⟩ : ∃ (r : Fin 5000) (l : Fin 32), j = ix2 r l := ⟨j 0, j 1, eq_ix2 j⟩
  refine (pay_at (iblk5 V c 0 t) (iblk5 V c 2 t) (iblk5 V c 3 t) (iblk5 V c 1 t) (iblk5 V c 4 t) (iblk5 V c 5 t) r l).trans ?_
  have h0 : ((cfg5.win 0).blk t).view.emb (ix2 r l) = ((cfg5.win 6).blk t).view.emb (ix2 r l) := by
    funext a; apply Fin.ext
    match a with
    | ⟨0, _⟩ => show win5_0.index t (0 : Fin 2) * 5000 + 1 * r.val = win5_6.index t (0 : Fin 2) * 5000 + 1 * r.val; omega
    | ⟨1, _⟩ => show win5_0.index t (1 : Fin 2) * 32 + 1 * l.val = win5_6.index t (1 : Fin 2) * 32 + 1 * l.val; omega
  have h1 : ((cfg5.win 1).blk t).view.emb (ix2 (0 : Fin 1) l) = ix2 (0 : Fin 1) ((((cfg5.win 6).blk t).view.emb (ix2 r l)) 1) := by
    funext a; apply Fin.ext
    match a with
    | ⟨0, _⟩ => show win5_1.index t (0 : Fin 2) * 1 + 1 * 0 = 0; omega
    | ⟨1, _⟩ => show win5_1.index t (1 : Fin 2) * 32 + 1 * l.val = win5_6.index t (1 : Fin 2) * 32 + 1 * l.val; omega
  have h2 : ((cfg5.win 2).blk t).view.emb (ix2 (0 : Fin 1) l) = ix2 (0 : Fin 1) ((((cfg5.win 6).blk t).view.emb (ix2 r l)) 1) := by
    funext a; apply Fin.ext
    match a with
    | ⟨0, _⟩ => show win5_2.index t (0 : Fin 2) * 1 + 1 * 0 = 0; omega
    | ⟨1, _⟩ => show win5_2.index t (1 : Fin 2) * 32 + 1 * l.val = win5_6.index t (1 : Fin 2) * 32 + 1 * l.val; omega
  have h3 : ((cfg5.win 3).blk t).view.emb (ix2 (0 : Fin 1) l) = ix2 (0 : Fin 1) ((((cfg5.win 6).blk t).view.emb (ix2 r l)) 1) := by
    funext a; apply Fin.ext
    match a with
    | ⟨0, _⟩ => show win5_3.index t (0 : Fin 2) * 1 + 1 * 0 = 0; omega
    | ⟨1, _⟩ => show win5_3.index t (1 : Fin 2) * 32 + 1 * l.val = win5_6.index t (1 : Fin 2) * 32 + 1 * l.val; omega
  have h4 : ((cfg5.win 4).blk t).view.emb (ix2 (0 : Fin 1) l) = ix2 (0 : Fin 1) ((((cfg5.win 6).blk t).view.emb (ix2 r l)) 1) := by
    funext a; apply Fin.ext
    match a with
    | ⟨0, _⟩ => show win5_4.index t (0 : Fin 2) * 1 + 1 * 0 = 0; omega
    | ⟨1, _⟩ => show win5_4.index t (1 : Fin 2) * 32 + 1 * l.val = win5_6.index t (1 : Fin 2) * 32 + 1 * l.val; omega
  have h5 : ((cfg5.win 5).blk t).view.emb (ix2 r l) = ((cfg5.win 6).blk t).view.emb (ix2 r l) := by
    funext a; apply Fin.ext
    match a with
    | ⟨0, _⟩ => show win5_5.index t (0 : Fin 2) * 5000 + 1 * r.val = win5_6.index t (0 : Fin 2) * 5000 + 1 * r.val; omega
    | ⟨1, _⟩ => show win5_5.index t (1 : Fin 2) * 32 + 1 * l.val = win5_6.index t (1 : Fin 2) * 32 + 1 * l.val; omega
  show Cert.Entry.bn (V c main_v77 (((cfg5.win 0).blk t).view.emb (ix2 r l))) (V c main_v80 (((cfg5.win 1).blk t).view.emb (ix2 (0 : Fin 1) l)))
        (V c main_v84 (((cfg5.win 2).blk t).view.emb (ix2 (0 : Fin 1) l))) (V c main_v85 (((cfg5.win 3).blk t).view.emb (ix2 (0 : Fin 1) l)))
        (V c main_v86 (((cfg5.win 4).blk t).view.emb (ix2 (0 : Fin 1) l))) + V c main_v33_1 (((cfg5.win 5).blk t).view.emb (ix2 r l))
    = Cert.Entry.bn (V c main_v77 (((cfg5.win 6).blk t).view.emb (ix2 r l))) (V c main_v80 (ix2 (0 : Fin 1) ((((cfg5.win 6).blk t).view.emb (ix2 r l)) 1)))
        (V c main_v84 (ix2 (0 : Fin 1) ((((cfg5.win 6).blk t).view.emb (ix2 r l)) 1))) (V c main_v85 (ix2 (0 : Fin 1) ((((cfg5.win 6).blk t).view.emb (ix2 r l)) 1)))
        (V c main_v86 (ix2 (0 : Fin 1) ((((cfg5.win 6).blk t).view.emb (ix2 r l)) 1))) + V c main_v33_1 (((cfg5.win 6).blk t).view.emb (ix2 r l))
  rw [h0, h1, h2, h3, h4, h5]; rfl

/-- An index of the result is in point `t`'s block iff each coordinate is in the block's range on its axis. -/
theorem mem_blk (t : Fin cfg5.N) (i : S100000x32.Idx) :
    i ∈ ((cfg5.win 6).blk t).view.set ↔ ∀ a : Fin 2, win5_6.index t a * S5000x32.size a ≤ (i a).val ∧ (i a).val < win5_6.index t a * S5000x32.size a + S5000x32.size a := by
  show i ∈ ((View.whole main_v87).slice (win5_6.rect t)).set ↔ _
  rw [View.set_slice_whole, Rect.mem_set_unit]
  exact Iff.rfl

/-- THE RESULT after the call: the layer's function of the arrays the call found — row `p` lies in the block of point `p / 5000`. -/
theorem final (c : Dev nD) : (dat5 V c).arrAt 6 cfg5.N
    = layer (V c main_v77) (V c main_v80) (V c main_v84) (V c main_v85) (V c main_v86) (V c main_v33_1) :=
  (dat5 V c).arrAt_eq_of_cover 6 _ (fun t _ => flushed_eq V c t) fun i => by
    have hi0 : (i 0).val < 100000 := (i 0).isLt
    have hi1 : (i 1).val < 32 := (i 1).isLt
    have hN : cfg5.N = 20 := N_5
    refine ⟨⟨(i 0).val / 5000, by rw [hN]; omega⟩, flush5_6 _, ?_⟩
    rw [mem_blk]
    obtain ⟨e0, e1, e2, e3, e4, e5, e6, e7, e8, e9, e10, e11, e12, e13⟩ := idx_facts ⟨(i 0).val / 5000, by rw [hN]; omega⟩
    intro a
    match a with
    | ⟨0, _⟩ => show win5_6.index _ (0 : Fin 2) * 5000 ≤ (i 0).val ∧ (i 0).val < win5_6.index _ (0 : Fin 2) * 5000 + 5000; rw [e12]; show (i 0).val / 5000 * 5000 ≤ _ ∧ _ < (i 0).val / 5000 * 5000 + 5000; omega
    | ⟨1, _⟩ => show win5_6.index _ (1 : Fin 2) * 32 ≤ (i 1).val ∧ (i 1).val < win5_6.index _ (1 : Fin 2) * 32 + 32; rw [e13]; omega

end Cert.KernelIdeal.NormResidual

end
-- ==== Proof.KernelChain.lean ====
/-
  Between two segment boundaries of the kernel's @main most buffers do not change: a host stretch writes only its operations' own
  result buffers, and a pallas_call writes only its result arrays (an input array is read through its window and ends as it was
  found). So a value computed at one boundary can be read at a later one. This module records those steps for the buffers the later
  segments read, and states each pallas_call's result arrays, at the boundary after it, as that call's whole-array function of the
  arrays at the boundary before it.
-/
import proofs.«151287_j81509889343954_1_alg».proof.Proof.Gen.KernelIdeal.Frame
import proofs.«151287_j81509889343954_1_alg».proof.Proof.BlockProducts
import proofs.«151287_j81509889343954_1_alg».proof.Proof.ColumnSums
import proofs.«151287_j81509889343954_1_alg».proof.Proof.NormRectify
import proofs.«151287_j81509889343954_1_alg».proof.Proof.BlockProduct2
import proofs.«151287_j81509889343954_1_alg».proof.Proof.ColumnSums2
import proofs.«151287_j81509889343954_1_alg».proof.Proof.NormResidual
import Idealize.ShloMosaic.Lib.StableHlo.Run
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- A buffer that no operation of a host stretch writes keeps its contents across the stretch. -/
macro "host_keeps" o:ident : tactic => `(tactic| exact StableHlo.after_of_forall_not_mem _ _ (List.forall_iff_forall_mem.mp (by
    simp only [$o:ident, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## Buffers carried unchanged from one boundary to a later one -/

theorem keep_arg0_0_3 (c : Dev nD) : W3 m ρ c (Proc.devRef .tc main_arg0) = W0 m ρ c (Proc.devRef .tc main_arg0) :=
  calc W3 m ρ c (Proc.devRef .tc main_arg0)
    _ = W2 m ρ c (Proc.devRef .tc main_arg0) := (by host_keeps hostOps0_2)
    _ = W1 m ρ c (Proc.devRef .tc main_arg0) := (by host_keeps hostOps0_1)
    _ = W0 m ρ c (Proc.devRef .tc main_arg0) := (by host_keeps hostOps0)

theorem keep_arg3_0_3 (c : Dev nD) : W3 m ρ c (Proc.devRef .tc main_arg3) = W0 m ρ c (Proc.devRef .tc main_arg3) :=
  calc W3 m ρ c (Proc.devRef .tc main_arg3)
    _ = W2 m ρ c (Proc.devRef .tc main_arg3) := (by host_keeps hostOps0_2)
    _ = W1 m ρ c (Proc.devRef .tc main_arg3) := (by host_keeps hostOps0_1)
    _ = W0 m ρ c (Proc.devRef .tc main_arg3) := (by host_keeps hostOps0)

theorem keep_arg12_0_3 (c : Dev nD) : W3 m ρ c (Proc.devRef .tc main_arg12) = W0 m ρ c (Proc.devRef .tc main_arg12) :=
  calc W3 m ρ c (Proc.devRef .tc main_arg12)
    _ = W2 m ρ c (Proc.devRef .tc main_arg12) := (by host_keeps hostOps0_2)
    _ = W1 m ρ c (Proc.devRef .tc main_arg12) := (by host_keeps hostOps0_1)
    _ = W0 m ρ c (Proc.devRef .tc main_arg12) := (by host_keeps hostOps0)

theorem keep_arg13_0_2 (c : Dev nD) : W2 m ρ c (Proc.devRef .tc main_arg13) = W0 m ρ c (Proc.devRef .tc main_arg13) :=
  calc W2 m ρ c (Proc.devRef .tc main_arg13)
    _ = W1 m ρ c (Proc.devRef .tc main_arg13) := (by host_keeps hostOps0_1)
    _ = W0 m ρ c (Proc.devRef .tc main_arg13) := (by host_keeps hostOps0)

theorem keep_arg4_0_4 (c : Dev nD) : W4 m ρ c (Proc.devRef .tc main_arg4) = W0 m ρ c (Proc.devRef .tc main_arg4) :=
  calc W4 m ρ c (Proc.devRef .tc main_arg4)
    _ = W3 m ρ c (Proc.devRef .tc main_arg4) := (W4_of_ne m ρ c main_arg4 (by decide))
    _ = W2 m ρ c (Proc.devRef .tc main_arg4) := (by host_keeps hostOps0_2)
    _ = W1 m ρ c (Proc.devRef .tc main_arg4) := (by host_keeps hostOps0_1)
    _ = W0 m ρ c (Proc.devRef .tc main_arg4) := (by host_keeps hostOps0)

theorem keep_arg5_0_6 (c : Dev nD) : W6 m ρ c (Proc.devRef .tc main_arg5) = W0 m ρ c (Proc.devRef .tc main_arg5) :=
  calc W6 m ρ c (Proc.devRef .tc main_arg5)
    _ = W5 m ρ c (Proc.devRef .tc main_arg5) := (W6_of_ne m ρ c main_arg5 (by decide))
    _ = W4 m ρ c (Proc.devRef .tc main_arg5) := (by host_keeps hostOps1)
    _ = W3 m ρ c (Proc.devRef .tc main_arg5) := (W4_of_ne m ρ c main_arg5 (by decide))
    _ = W2 m ρ c (Proc.devRef .tc main_arg5) := (by host_keeps hostOps0_2)
    _ = W1 m ρ c (Proc.devRef .tc main_arg5) := (by host_keeps hostOps0_1)
    _ = W0 m ρ c (Proc.devRef .tc main_arg5) := (by host_keeps hostOps0)

theorem keep_arg6_0_6 (c : Dev nD) : W6 m ρ c (Proc.devRef .tc main_arg6) = W0 m ρ c (Proc.devRef .tc main_arg6) :=
  calc W6 m ρ c (Proc.devRef .tc main_arg6)
    _ = W5 m ρ c (Proc.devRef .tc main_arg6) := (W6_of_ne m ρ c main_arg6 (by decide))
    _ = W4 m ρ c (Proc.devRef .tc main_arg6) := (by host_keeps hostOps1)
    _ = W3 m ρ c (Proc.devRef .tc main_arg6) := (W4_of_ne m ρ c main_arg6 (by decide))
    _ = W2 m ρ c (Proc.devRef .tc main_arg6) := (by host_keeps hostOps0_2)
    _ = W1 m ρ c (Proc.devRef .tc main_arg6) := (by host_keeps hostOps0_1)
    _ = W0 m ρ c (Proc.devRef .tc main_arg6) := (by host_keeps hostOps0)

theorem keep_arg11_0_6 (c : Dev nD) : W6 m ρ c (Proc.devRef .tc main_arg11) = W0 m ρ c (Proc.devRef .tc main_arg11) :=
  calc W6 m ρ c (Proc.devRef .tc main_arg11)
    _ = W5 m ρ c (Proc.devRef .tc main_arg11) := (W6_of_ne m ρ c main_arg11 (by decide))
    _ = W4 m ρ c (Proc.devRef .tc main_arg11) := (by host_keeps hostOps1)
    _ = W3 m ρ c (Proc.devRef .tc main_arg11) := (W4_of_ne m ρ c main_arg11 (by decide))
    _ = W2 m ρ c (Proc.devRef .tc main_arg11) := (by host_keeps hostOps0_2)
    _ = W1 m ρ c (Proc.devRef .tc main_arg11) := (by host_keeps hostOps0_1)
    _ = W0 m ρ c (Proc.devRef .tc main_arg11) := (by host_keeps hostOps0)

theorem keep_arg7_0_8 (c : Dev nD) : W8 m ρ c (Proc.devRef .tc main_arg7) = W0 m ρ c (Proc.devRef .tc main_arg7) :=
  calc W8 m ρ c (Proc.devRef .tc main_arg7)
    _ = W7 m ρ c (Proc.devRef .tc main_arg7) := (W8_of_ne m ρ c main_arg7 (by decide))
    _ = W6 m ρ c (Proc.devRef .tc main_arg7) := (by host_keeps hostOps2)
    _ = W5 m ρ c (Proc.devRef .tc main_arg7) := (W6_of_ne m ρ c main_arg7 (by decide))
    _ = W4 m ρ c (Proc.devRef .tc main_arg7) := (by host_keeps hostOps1)
    _ = W3 m ρ c (Proc.devRef .tc main_arg7) := (W4_of_ne m ρ c main_arg7 (by decide))
    _ = W2 m ρ c (Proc.devRef .tc main_arg7) := (by host_keeps hostOps0_2)
    _ = W1 m ρ c (Proc.devRef .tc main_arg7) := (by host_keeps hostOps0_1)
    _ = W0 m ρ c (Proc.devRef .tc main_arg7) := (by host_keeps hostOps0)

theorem keep_arg8_0_9 (c : Dev nD) : W9 m ρ c (Proc.devRef .tc main_arg8) = W0 m ρ c (Proc.devRef .tc main_arg8) :=
  calc W9 m ρ c (Proc.devRef .tc main_arg8)
    _ = W8 m ρ c (Proc.devRef .tc main_arg8) := (W9_of_ne m ρ c main_arg8 (by decide))
    _ = W7 m ρ c (Proc.devRef .tc main_arg8) := (W8_of_ne m ρ c main_arg8 (by decide))
    _ = W6 m ρ c (Proc.devRef .tc main_arg8) := (by host_keeps hostOps2)
    _ = W5 m ρ c (Proc.devRef .tc main_arg8) := (W6_of_ne m ρ c main_arg8 (by decide))
    _ = W4 m ρ c (Proc.devRef .tc main_arg8) := (by host_keeps hostOps1)
    _ = W3 m ρ c (Proc.devRef .tc main_arg8) := (W4_of_ne m ρ c main_arg8 (by decide))
    _ = W2 m ρ c (Proc.devRef .tc main_arg8) := (by host_keeps hostOps0_2)
    _ = W1 m ρ c (Proc.devRef .tc main_arg8) := (by host_keeps hostOps0_1)
    _ = W0 m ρ c (Proc.devRef .tc main_arg8) := (by host_keeps hostOps0)

theorem keep_arg9_0_11 (c : Dev nD) : W11 m ρ c (Proc.devRef .tc main_arg9) = W0 m ρ c (Proc.devRef .tc main_arg9) :=
  calc W11 m ρ c (Proc.devRef .tc main_arg9)
    _ = W10 m ρ c (Proc.devRef .tc main_arg9) := (W11_of_ne m ρ c main_arg9 (by decide))
    _ = W9 m ρ c (Proc.devRef .tc main_arg9) := (by host_keeps hostOps4)
    _ = W8 m ρ c (Proc.devRef .tc main_arg9) := (W9_of_ne m ρ c main_arg9 (by decide))
    _ = W7 m ρ c (Proc.devRef .tc main_arg9) := (W8_of_ne m ρ c main_arg9 (by decide))
    _ = W6 m ρ c (Proc.devRef .tc main_arg9) := (by host_keeps hostOps2)
    _ = W5 m ρ c (Proc.devRef .tc main_arg9) := (W6_of_ne m ρ c main_arg9 (by decide))
    _ = W4 m ρ c (Proc.devRef .tc main_arg9) := (by host_keeps hostOps1)
    _ = W3 m ρ c (Proc.devRef .tc main_arg9) := (W4_of_ne m ρ c main_arg9 (by decide))
    _ = W2 m ρ c (Proc.devRef .tc main_arg9) := (by host_keeps hostOps0_2)
    _ = W1 m ρ c (Proc.devRef .tc main_arg9) := (by host_keeps hostOps0_1)
    _ = W0 m ρ c (Proc.devRef .tc main_arg9) := (by host_keeps hostOps0)

theorem keep_arg10_0_11 (c : Dev nD) : W11 m ρ c (Proc.devRef .tc main_arg10) = W0 m ρ c (Proc.devRef .tc main_arg10) :=
  calc W11 m ρ c (Proc.devRef .tc main_arg10)
    _ = W10 m ρ c (Proc.devRef .tc main_arg10) := (W11_of_ne m ρ c main_arg10 (by decide))
    _ = W9 m ρ c (Proc.devRef .tc main_arg10) := (by host_keeps hostOps4)
    _ = W8 m ρ c (Proc.devRef .tc main_arg10) := (W9_of_ne m ρ c main_arg10 (by decide))
    _ = W7 m ρ c (Proc.devRef .tc main_arg10) := (W8_of_ne m ρ c main_arg10 (by decide))
    _ = W6 m ρ c (Proc.devRef .tc main_arg10) := (by host_keeps hostOps2)
    _ = W5 m ρ c (Proc.devRef .tc main_arg10) := (W6_of_ne m ρ c main_arg10 (by decide))
    _ = W4 m ρ c (Proc.devRef .tc main_arg10) := (by host_keeps hostOps1)
    _ = W3 m ρ c (Proc.devRef .tc main_arg10) := (W4_of_ne m ρ c main_arg10 (by decide))
    _ = W2 m ρ c (Proc.devRef .tc main_arg10) := (by host_keeps hostOps0_2)
    _ = W1 m ρ c (Proc.devRef .tc main_arg10) := (by host_keeps hostOps0_1)
    _ = W0 m ρ c (Proc.devRef .tc main_arg10) := (by host_keeps hostOps0)

theorem keep_v5_3_4 (c : Dev nD) : W4 m ρ c (Proc.devRef .tc main_v5) = W3 m ρ c (Proc.devRef .tc main_v5) :=
  calc W4 m ρ c (Proc.devRef .tc main_v5)
    _ = W3 m ρ c (Proc.devRef .tc main_v5) := (W4_of_ne m ρ c main_v5 (by decide))

theorem keep_v6_3_4 (c : Dev nD) : W4 m ρ c (Proc.devRef .tc main_v6) = W3 m ρ c (Proc.devRef .tc main_v6) :=
  calc W4 m ρ c (Proc.devRef .tc main_v6)
    _ = W3 m ρ c (Proc.devRef .tc main_v6) := (W4_of_ne m ρ c main_v6 (by decide))

theorem keep_v31_3_4 (c : Dev nD) : W4 m ρ c (Proc.devRef .tc main_v31) = W3 m ρ c (Proc.devRef .tc main_v31) :=
  calc W4 m ρ c (Proc.devRef .tc main_v31)
    _ = W3 m ρ c (Proc.devRef .tc main_v31) := (W4_of_ne m ρ c main_v31 (by decide))

theorem keep_v5_4_9 (c : Dev nD) : W9 m ρ c (Proc.devRef .tc main_v5) = W4 m ρ c (Proc.devRef .tc main_v5) :=
  calc W9 m ρ c (Proc.devRef .tc main_v5)
    _ = W8 m ρ c (Proc.devRef .tc main_v5) := (W9_of_ne m ρ c main_v5 (by decide))
    _ = W7 m ρ c (Proc.devRef .tc main_v5) := (W8_of_ne m ρ c main_v5 (by decide))
    _ = W6 m ρ c (Proc.devRef .tc main_v5) := (by host_keeps hostOps2)
    _ = W5 m ρ c (Proc.devRef .tc main_v5) := (W6_of_ne m ρ c main_v5 (by decide))
    _ = W4 m ρ c (Proc.devRef .tc main_v5) := (by host_keeps hostOps1)

theorem keep_v6_4_9 (c : Dev nD) : W9 m ρ c (Proc.devRef .tc main_v6) = W4 m ρ c (Proc.devRef .tc main_v6) :=
  calc W9 m ρ c (Proc.devRef .tc main_v6)
    _ = W8 m ρ c (Proc.devRef .tc main_v6) := (W9_of_ne m ρ c main_v6 (by decide))
    _ = W7 m ρ c (Proc.devRef .tc main_v6) := (W8_of_ne m ρ c main_v6 (by decide))
    _ = W6 m ρ c (Proc.devRef .tc main_v6) := (by host_keeps hostOps2)
    _ = W5 m ρ c (Proc.devRef .tc main_v6) := (W6_of_ne m ρ c main_v6 (by decide))
    _ = W4 m ρ c (Proc.devRef .tc main_v6) := (by host_keeps hostOps1)

theorem keep_v31_4_9 (c : Dev nD) : W9 m ρ c (Proc.devRef .tc main_v31) = W4 m ρ c (Proc.devRef .tc main_v31) :=
  calc W9 m ρ c (Proc.devRef .tc main_v31)
    _ = W8 m ρ c (Proc.devRef .tc main_v31) := (W9_of_ne m ρ c main_v31 (by decide))
    _ = W7 m ρ c (Proc.devRef .tc main_v31) := (W8_of_ne m ρ c main_v31 (by decide))
    _ = W6 m ρ c (Proc.devRef .tc main_v31) := (by host_keeps hostOps2)
    _ = W5 m ρ c (Proc.devRef .tc main_v31) := (W6_of_ne m ρ c main_v31 (by decide))
    _ = W4 m ρ c (Proc.devRef .tc main_v31) := (by host_keeps hostOps1)

theorem keep_v49_5_7 (c : Dev nD) : W7 m ρ c (Proc.devRef .tc main_v49) = W5 m ρ c (Proc.devRef .tc main_v49) :=
  calc W7 m ρ c (Proc.devRef .tc main_v49)
    _ = W6 m ρ c (Proc.devRef .tc main_v49) := (by host_keeps hostOps2)
    _ = W5 m ρ c (Proc.devRef .tc main_v49) := ((W6_arr m ρ c 0).trans (((dat1 (V5 m ρ) c).arrAt_in 0 rfl _).trans (A_eq1 (V5 m ρ) c 0)))

theorem keep_v77_10_12 (c : Dev nD) : W12 m ρ c (Proc.devRef .tc main_v77) = W10 m ρ c (Proc.devRef .tc main_v77) :=
  calc W12 m ρ c (Proc.devRef .tc main_v77)
    _ = W11 m ρ c (Proc.devRef .tc main_v77) := (by host_keeps hostOps5)
    _ = W10 m ρ c (Proc.devRef .tc main_v77) := ((W11_arr m ρ c 0).trans (((dat4 (V10 m ρ) c).arrAt_in 0 rfl _).trans (A_eq4 (V10 m ρ) c 0)))

theorem keep_v33_1_4_12 (c : Dev nD) : W12 m ρ c (Proc.devRef .tc main_v33_1) = W4 m ρ c (Proc.devRef .tc main_v33_1) :=
  calc W12 m ρ c (Proc.devRef .tc main_v33_1)
    _ = W11 m ρ c (Proc.devRef .tc main_v33_1) := (by host_keeps hostOps5)
    _ = W10 m ρ c (Proc.devRef .tc main_v33_1) := (W11_of_ne m ρ c main_v33_1 (by decide))
    _ = W9 m ρ c (Proc.devRef .tc main_v33_1) := (by host_keeps hostOps4)
    _ = W8 m ρ c (Proc.devRef .tc main_v33_1) := (W9_of_ne m ρ c main_v33_1 (by decide))
    _ = W7 m ρ c (Proc.devRef .tc main_v33_1) := (W8_of_ne m ρ c main_v33_1 (by decide))
    _ = W6 m ρ c (Proc.devRef .tc main_v33_1) := (by host_keeps hostOps2)
    _ = W5 m ρ c (Proc.devRef .tc main_v33_1) := (W6_of_ne m ρ c main_v33_1 (by decide))
    _ = W4 m ρ c (Proc.devRef .tc main_v33_1) := (by host_keeps hostOps1)

/-! ## Each pallas_call's result arrays at the boundary after it -/

/-- After the first call: the two products of the node features. -/
theorem prod1_at (c : Dev nD) : W4 m ρ c (Proc.devRef .tc main_v33_0)
    = BlockProducts.prod1 (W3 m ρ c (Proc.devRef .tc main_arg0)) (W3 m ρ c (Proc.devRef .tc main_arg3)) :=
  (W4_arr m ρ c 4).trans (BlockProducts.final4 (V3 m ρ) c)
theorem prod2_at (c : Dev nD) : W4 m ρ c (Proc.devRef .tc main_v33_1)
    = BlockProducts.prod2 (W3 m ρ c (Proc.devRef .tc main_arg0)) (W3 m ρ c (Proc.devRef .tc main_arg12)) (W3 m ρ c (Proc.devRef .tc main_v32)) :=
  (W4_arr m ρ c 5).trans (BlockProducts.final5 (V3 m ρ) c)

/-- After the first statistics call: the column sums of the first aggregated features, and of their squares. -/
theorem sums1_at (c : Dev nD) : W6 m ρ c (Proc.devRef .tc main_v50_0) = ColumnSums.colSums (W5 m ρ c (Proc.devRef .tc main_v49)) :=
  (W6_arr m ρ c 1).trans (ColumnSums.final1 (V5 m ρ) c)
theorem sqsums1_at (c : Dev nD) : W6 m ρ c (Proc.devRef .tc main_v50_1) = ColumnSums.colSqSums (W5 m ρ c (Proc.devRef .tc main_v49)) :=
  (W6_arr m ρ c 2).trans (ColumnSums.final2 (V5 m ρ) c)

/-- After the first normalisation call: the normalised, rectified layer. -/
theorem layer1_at (c : Dev nD) : W8 m ρ c (Proc.devRef .tc main_v60)
    = NormRectify.layer (W7 m ρ c (Proc.devRef .tc main_v49)) (W7 m ρ c (Proc.devRef .tc main_v52)) (W7 m ρ c (Proc.devRef .tc main_v56))
        (W7 m ρ c (Proc.devRef .tc main_v57)) (W7 m ρ c (Proc.devRef .tc main_v58)) (W7 m ρ c (Proc.devRef .tc main_v59)) :=
  (W8_arr m ρ c 6).trans (NormRectify.final (V7 m ρ) c)

/-- After the second product call. -/
theorem prod3_at (c : Dev nD) : W9 m ρ c (Proc.devRef .tc main_v61)
    = BlockProduct2.prod (W8 m ρ c (Proc.devRef .tc main_v60)) (W8 m ρ c (Proc.devRef .tc main_arg7)) :=
  (W9_arr m ρ c 2).trans (BlockProduct2.final (V8 m ρ) c)

/-- After the second statistics call. -/
theorem sums2_at (c : Dev nD) : W11 m ρ c (Proc.devRef .tc main_v78_0) = ColumnSums2.colSums (W10 m ρ c (Proc.devRef .tc main_v77)) :=
  (W11_arr m ρ c 1).trans (ColumnSums2.final1 (V10 m ρ) c)
theorem sqsums2_at (c : Dev nD) : W11 m ρ c (Proc.devRef .tc main_v78_1) = ColumnSums2.colSqSums (W10 m ρ c (Proc.devRef .tc main_v77)) :=
  (W11_arr m ρ c 2).trans (ColumnSums2.final2 (V10 m ρ) c)

/-- After the last call: the normalised second layer plus the residual — the program's result. -/
theorem layer2_at (c : Dev nD) : W13 m ρ c (Proc.devRef .tc main_v87)
    = NormResidual.layer (W12 m ρ c (Proc.devRef .tc main_v77)) (W12 m ρ c (Proc.devRef .tc main_v80)) (W12 m ρ c (Proc.devRef .tc main_v84))
        (W12 m ρ c (Proc.devRef .tc main_v85)) (W12 m ρ c (Proc.devRef .tc main_v86)) (W12 m ρ c (Proc.devRef .tc main_v33_1)) :=
  (W13_arr m ρ c 6).trans (NormResidual.final (V12 m ρ) c)

end Cert.KernelIdeal.Chain

end
-- ==== Proof.HostRows.lean ====
/-
  The two short host stretches that turn the statistics calls' column sums into a mean row and a variance row, and lay the scale,
  shift and slope vectors out as rows, each read at an entry. With S and Q the [1, F] rows of column sums (of the entries, of their
  squares) at the boundary before the stretch, and N the single-precision constant 100000 the stretch divides by: the mean row is
  S / N, the variance row is Q / N − (S / N)·(S / N), and a length-F vector reshaped to a [1, F] row (or a length-1 vector to [1, 1])
  has the vector's entries.
-/
import proofs.«151287_j81509889343954_1_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.KernelIdeal.HostRows

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg) (c : Dev nD)

/-- The constant both stretches divide by. -/
abbrev cN : EReal := Ideal.ofBits .f32 0x47C35000#32

/-- A length-b vector reshaped to a [1, b] row reads, at (0, q), the vector's entry q. -/
theorem rowCast_at {b : ℕ} (v : (⟨1, ![b]⟩ : Shape).Idx → EReal) (h : (⟨1, ![b]⟩ : Shape).ShapeCasts ⟨2, ![1, b]⟩) (q : Fin b) :
    shapeCast ⟨2, ![1, b]⟩ v h (ix2 (0 : Fin 1) q) = v (ix1 q) :=
  shapeCast_apply v h _ _ (by
    rw [Shape.rowMajor_val_one, Shape.rowMajor_val_two]
    show q.val = 0 * b + q.val
    omega)

/-! ## After the first statistics call -/

theorem mean1_at (q : Fin 64) : W7 m ρ c (Proc.devRef .tc main_v52) (ix2 (0 : Fin 1) q)
    = Ideal.div (W6 m ρ c (Proc.devRef .tc main_v50_0) (ix2 (0 : Fin 1) q)) cN := by
  show StableHlo.after hostOps2 (W6 m ρ c) (Proc.devRef .tc main_v52) (ix2 (0 : Fin 1) q) = _
  after_results
  rfl

theorem var1_at (q : Fin 64) : W7 m ρ c (Proc.devRef .tc main_v56) (ix2 (0 : Fin 1) q)
    = Ideal.div (W6 m ρ c (Proc.devRef .tc main_v50_1) (ix2 (0 : Fin 1) q)) cN
      - Ideal.div (W6 m ρ c (Proc.devRef .tc main_v50_0) (ix2 (0 : Fin 1) q)) cN * Ideal.div (W6 m ρ c (Proc.devRef .tc main_v50_0) (ix2 (0 : Fin 1) q)) cN := by
  show StableHlo.after hostOps2 (W6 m ρ c) (Proc.devRef .tc main_v56) (ix2 (0 : Fin 1) q) = _
  after_results
  rfl

theorem scale1_at (q : Fin 64) : W7 m ρ c (Proc.devRef .tc main_v57) (ix2 (0 : Fin 1) q) = W6 m ρ c (Proc.devRef .tc main_arg5) (ix1 q) := by
  show StableHlo.after hostOps2 (W6 m ρ c) (Proc.devRef .tc main_v57) (ix2 (0 : Fin 1) q) = _
  after_results
  exact rowCast_at _ _ q

theorem shift1_at (q : Fin 64) : W7 m ρ c (Proc.devRef .tc main_v58) (ix2 (0 : Fin 1) q) = W6 m ρ c (Proc.devRef .tc main_arg6) (ix1 q) := by
  show StableHlo.after hostOps2 (W6 m ρ c) (Proc.devRef .tc main_v58) (ix2 (0 : Fin 1) q) = _
  after_results
  exact rowCast_at _ _ q

theorem slope_at : W7 m ρ c (Proc.devRef .tc main_v59) (ix2 (0 : Fin 1) (0 : Fin 1)) = W6 m ρ c (Proc.devRef .tc main_arg11) (ix1 (0 : Fin 1)) := by
  show StableHlo.after hostOps2 (W6 m ρ c) (Proc.devRef .tc main_v59) (ix2 (0 : Fin 1) (0 : Fin 1)) = _
  after_results
  exact rowCast_at _ _ (0 : Fin 1)

/-! ## After the second statistics call -/

theorem mean2_at (q : Fin 32) : W12 m ρ c (Proc.devRef .tc main_v80) (ix2 (0 : Fin 1) q)
    = Ideal.div (W11 m ρ c (Proc.devRef .tc main_v78_0) (ix2 (0 : Fin 1) q)) cN := by
  show StableHlo.after hostOps5 (W11 m ρ c) (Proc.devRef .tc main_v80) (ix2 (0 : Fin 1) q) = _
  after_results
  rfl

theorem var2_at (q : Fin 32) : W12 m ρ c (Proc.devRef .tc main_v84) (ix2 (0 : Fin 1) q)
    = Ideal.div (W11 m ρ c (Proc.devRef .tc main_v78_1) (ix2 (0 : Fin 1) q)) cN
      - Ideal.div (W11 m ρ c (Proc.devRef .tc main_v78_0) (ix2 (0 : Fin 1) q)) cN * Ideal.div (W11 m ρ c (Proc.devRef .tc main_v78_0) (ix2 (0 : Fin 1) q)) cN := by
  show StableHlo.after hostOps5 (W11 m ρ c) (Proc.devRef .tc main_v84) (ix2 (0 : Fin 1) q) = _
  after_results
  rfl

theorem scale2_at (q : Fin 32) : W12 m ρ c (Proc.devRef .tc main_v85) (ix2 (0 : Fin 1) q) = W11 m ρ c (Proc.devRef .tc main_arg9) (ix1 q) := by
  show StableHlo.after hostOps5 (W11 m ρ c) (Proc.devRef .tc main_v85) (ix2 (0 : Fin 1) q) = _
  after_results
  exact rowCast_at _ _ q

theorem shift2_at (q : Fin 32) : W12 m ρ c (Proc.devRef .tc main_v86) (ix2 (0 : Fin 1) q) = W11 m ρ c (Proc.devRef .tc main_arg10) (ix1 q) := by
  show StableHlo.after hostOps5 (W11 m ρ c) (Proc.devRef .tc main_v86) (ix2 (0 : Fin 1) q) = _
  after_results
  exact rowCast_at _ _ q

end Cert.KernelIdeal.HostRows

end
-- ==== Proof.LibRealEntries.lean ====
import Idealize.ShloMosaic.PureOps.Ideal
import Idealize.ShloMosaic.PureOps.Ideal.Laws
import Idealize.ShloMosaic.PureOps.Contract
import Idealize.ShloMosaic.PureOps.ShapeOps
import Idealize.ShloMosaic.PureOps.Vector
import Mathlib.Tactic

/-!
# Real entries are preserved by the host operations

An extended real is *real* when it is the coercion of a real number, that is, neither `⊤` nor
`⊥`. This file shows that the arithmetic of the extended reals keeps real values real (sums,
differences, products, finite sums, quotients by a nonzero real, reciprocal square roots of a
positive real), and lifts this, entry by entry, to vectors: each host operation whose result
entries are entries of its operands (re-indexings: gather, broadcast, reshape, concatenation,
slicing, selection), or sums and products of them (scatter-add, reduction, contraction,
entrywise arithmetic), sends vectors with real entries to a vector with real entries.
-/

noncomputable section

namespace Cert.Lib.RealEntries

open Idealize.ShloMosaic
open scoped BigOperators

/-- An extended real is real: the coercion of a real number. -/
def IsR (x : EReal) : Prop := ∃ r : ℝ, x = (r : EReal)

/-- Every entry of a vector of extended reals is real. -/
def AllR {S : Shape} (v : S.Idx → EReal) : Prop := ∀ i, IsR (v i)

/-! ### Scalars -/

theorem isR_coe (r : ℝ) : IsR (r : EReal) := ⟨r, rfl⟩

theorem isR_zero : IsR 0 := ⟨0, EReal.coe_zero.symm⟩

theorem isR_one : IsR 1 := ⟨1, EReal.coe_one.symm⟩

/-- A real value is neither infinity. -/
theorem IsR.ne_top {x : EReal} (hx : IsR x) : x ≠ ⊤ := by
  obtain ⟨a, rfl⟩ := hx; exact EReal.coe_ne_top a

theorem IsR.ne_bot {x : EReal} (hx : IsR x) : x ≠ ⊥ := by
  obtain ⟨a, rfl⟩ := hx; exact EReal.coe_ne_bot a

/-- An extended real that is neither infinity is real. -/
theorem isR_of_ne {x : EReal} (ht : x ≠ ⊤) (hb : x ≠ ⊥) : IsR x :=
  ⟨x.toReal, (EReal.coe_toReal ht hb).symm⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.neg {x : EReal} (hx : IsR x) : IsR (-x) := by
  obtain ⟨a, rfl⟩ := hx; exact ⟨-a, (EReal.coe_neg a).symm⟩

/-- A finite sum of real values is real. -/
theorem isR_sum {ι : Type*} (s : Finset ι) (f : ι → EReal) (h : ∀ i ∈ s, IsR (f i)) :
    IsR (∑ i ∈ s, f i) := by
  classical
  induction s using Finset.induction_on with
  | empty => rw [Finset.sum_empty]; exact isR_zero
  | insert a s ha ih =>
    rw [Finset.sum_insert ha]
    exact (h a (Finset.mem_insert_self a s)).add (ih (fun i hi => h i (Finset.mem_insert_of_mem hi)))

/-- A real value divided by a nonzero real number is real. -/
theorem isR_div {x : EReal} (hx : IsR x) {y : ℝ} (hy : y ≠ 0) : IsR (Ideal.div x (y : EReal)) := by
  rw [Ideal.div_coe hy]; exact hx.mul (isR_coe _)

/-- The reciprocal square root of a positive real number is real. -/
theorem isR_rsqrt {r : ℝ} (hr : 0 < r) : IsR (Ideal.rsqrt (r : EReal)) := by
  rw [Ideal.rsqrt_coe, if_neg (not_lt.2 hr.le), if_neg hr.ne']; exact isR_coe _

/-- A choice between two real values is real. -/
theorem isR_ite {c : Prop} [Decidable c] {x y : EReal} (hx : IsR x) (hy : IsR y) :
    IsR (if c then x else y) := by
  split
  · exact hx
  · exact hy

/-! ### Words -/

/-- The single-precision word `0x47C35000` denotes `100000 = (2²³ + 4411392) · 2⁻⁷`. -/
theorem ofBits_47C35000 : Ideal.ofBits .f32 0x47C35000#32 = ((100000 : ℝ) : EReal) := by
  simp [Ideal.ofBits, Ideal.ieee]
  rw [← EReal.coe_mul]
  norm_num

/-- The single-precision word `0x3F800000` denotes `1 = 2²³ · 2⁻²³`. -/
theorem ofBits_3F800000 : Ideal.ofBits .f32 0x3F800000#32 = 1 := by
  simp [Ideal.ofBits, Ideal.ieee]
  rw [← EReal.coe_mul, ← EReal.coe_one]
  norm_num

/-- The single-precision word `0x3727C5AC` denotes a positive real number,
    `(2²³ + 2606508) · 2⁻⁴⁰`. -/
theorem ofBits_3727C5AC : ∃ e : ℝ, 0 < e ∧ Ideal.ofBits .f32 0x3727C5AC#32 = (e : EReal) := by
  refine ⟨10995116 * (2 ^ 40)⁻¹, by positivity, ?_⟩
  simp [Ideal.ofBits, Ideal.ieee]

/-- The words above, and the zero word, denote real numbers. -/
theorem isR_ofBits_00000000 : IsR (Ideal.ofBits .f32 0x00000000#32) := by
  rw [Ideal.ofBits_zero_f32]; exact isR_zero

theorem isR_ofBits_47C35000 : IsR (Ideal.ofBits .f32 0x47C35000#32) := ⟨_, ofBits_47C35000⟩

theorem isR_ofBits_3F800000 : IsR (Ideal.ofBits .f32 0x3F800000#32) := by
  rw [ofBits_3F800000]; exact isR_one

theorem isR_ofBits_3727C5AC : IsR (Ideal.ofBits .f32 0x3727C5AC#32) := by
  obtain ⟨e, _, h⟩ := ofBits_3727C5AC; exact ⟨e, h⟩

/-! ### Vectors

Each statement is at the extended-real instance, for arbitrary shapes and dimension records. -/

/-- `gather` re-indexes its operand: every result entry is an operand entry. -/
theorem allR_gather {s si t : Shape} {w : Nat} (d : GatherDims s si t) (x : s.Idx → EReal)
    (idx : IVec si w) (hx : AllR x) : AllR (Host.gather d x idx) :=
  fun j => hx (d.operandIdx j idx)

/-- `scatter-add`: every result entry is an operand entry plus a finite sum of update entries. -/
theorem allR_scatterAdd {s si u : Shape} {φ : FTy} {w : Nat} (d : ScatterDims s si u)
    (x : FVec Ideal s φ) (idx : IVec si w) (upd : FVec Ideal u φ) (hx : AllR x) (hu : AllR upd) :
    AllR (Host.scatterAdd (F := Ideal) d x idx upd) := by
  intro i
  show IsR (x i + ∑ j ∈ Finset.univ.filter (fun j => d.resultIdx? j idx = some i), upd j)
  exact (hx i).add (isR_sum _ _ (fun j _ => hu j))

/-- The host sum over axes: every result entry is the initial value plus a finite sum of operand
    entries. -/
theorem allR_reduceAdd {s t u : Shape} {φ : FTy} {axes : List (Fin s.rank)} (x : FVec Ideal s φ)
    (init : u.Idx → Ideal φ) (h : s.ReducesTo axes t) (hu : 0 < u.numel) (hx : AllR x)
    (hi : IsR (init (Shape.Idx.first hu))) : AllR (Host.reduceAdd (F := Ideal) x init h hu) := by
  intro j
  show IsR (init (Shape.Idx.first hu) + ∑ i ∈ Finset.univ.filter (fun i => h.drop i = j), x i)
  exact hi.add (isR_sum _ _ (fun i _ => hx i))

/-- The host sum over axes, with every entry of the initial value real. -/
theorem allR_reduceAdd' {s t u : Shape} {φ : FTy} {axes : List (Fin s.rank)} (x : FVec Ideal s φ)
    (init : u.Idx → Ideal φ) (h : s.ReducesTo axes t) (hu : 0 < u.numel) (hx : AllR x)
    (hi : AllR init) : AllR (Host.reduceAdd (F := Ideal) x init h hu) :=
  allR_reduceAdd x init h hu hx (hi _)

/-- The host contraction: every result entry is a finite sum of products of operand entries. -/
theorem allR_dotGeneral {sl sr so : Shape} {φ₁ φ₂ : FTy} (D : DotDims sl sr so)
    (prec : Option ContractPrecision) (x : FVec Ideal sl φ₁) (w : FVec Ideal sr φ₂)
    (hx : AllR x) (hw : AllR w) : AllR (Host.dotGeneral (F := Ideal) D prec x w) := by
  intro j
  show IsR (FloatOps.dotGeneral D prec .single x w j)
  rw [Ideal.dotGeneral_apply]
  exact isR_sum _ _ (fun k _ => (hx _).mul (hw _))

theorem allR_mulf {S : Shape} {φ : FTy} (x y : FVec Ideal S φ) (hx : AllR x) (hy : AllR y) :
    AllR (mulf (F := Ideal) x y) :=
  fun i => (hx i).mul (hy i)

theorem allR_addf {S : Shape} {φ : FTy} (x y : FVec Ideal S φ) (hx : AllR x) (hy : AllR y) :
    AllR (addf (F := Ideal) x y) :=
  fun i => (hx i).add (hy i)

theorem allR_subf {S : Shape} {φ : FTy} (x y : FVec Ideal S φ) (hx : AllR x) (hy : AllR y) :
    AllR (subf (F := Ideal) x y) :=
  fun i => (hx i).sub (hy i)

theorem allR_negf {S : Shape} {φ : FTy} (x : FVec Ideal S φ) (hx : AllR x) :
    AllR (negf (F := Ideal) x) :=
  fun i => (hx i).neg

/-- A selection between two vectors with real entries has real entries, whatever the mask. -/
theorem allR_select {S : Shape} (c : IVec S 1) (x y : S.Idx → EReal) (hx : AllR x) (hy : AllR y) :
    AllR (select c x y) := by
  intro i
  show IsR (if c i = 1 then x i else y i)
  exact isR_ite (hx i) (hy i)

/-- `broadcast_in_dim` re-indexes its operand. -/
theorem allR_broadcastInDim {s : Shape} (t : Shape) (dims : Fin s.rank → Fin t.rank)
    (h : s.BroadcastsInDim t dims) (x : s.Idx → EReal) (hx : AllR x) :
    AllR (broadcastInDim t dims h x) :=
  fun _ => hx _

/-- A broadcast of a vector along leading axes re-indexes its operand. -/
theorem allR_broadcastTo {s : Shape} (t : Shape) (x : s.Idx → EReal) (h : s.Broadcasts t)
    (hx : AllR x) : AllR (broadcastTo t x h) :=
  fun _ => hx _

/-- A broadcast of a real scalar has real entries. -/
theorem allR_broadcast (t : Shape) (x : EReal) (hx : IsR x) : AllR (broadcast t x) :=
  fun _ => hx

/-- A reshape re-indexes its operand. -/
theorem allR_shapeCast {s : Shape} (t : Shape) (x : s.Idx → EReal) (h : s.ShapeCasts t)
    (hx : AllR x) : AllR (shapeCast t x h) :=
  fun _ => hx _

/-- A slice re-indexes its operand. -/
theorem allR_extractStridedSlice {s : Shape} (t : Shape) (off : Fin s.rank → Nat)
    (x : s.Idx → EReal) (h : s.Slices off t) (hx : AllR x) :
    AllR (extractStridedSlice t off x h) :=
  fun _ => hx _

/-- A strided slice re-indexes its operand. -/
theorem allR_hostSlice {s : Shape} (t : Shape) (start strides : Fin s.rank → Nat)
    (x : s.Idx → EReal) (h : s.SlicesBy start strides t) (hx : AllR x) :
    AllR (Host.slice t start strides x h) :=
  fun _ => hx _

/-- A transposition re-indexes its operand. -/
theorem allR_transpose {s : Shape} (t : Shape) (perm : List (Fin s.rank)) (x : s.Idx → EReal)
    (h : s.Transposes perm t) (hx : AllR x) : AllR (transpose t perm x h) :=
  fun _ => hx _

/-- A concatenation of vectors with real entries has real entries: every result entry is an
    entry of one of the pieces. -/
theorem allR_concatenate_list (t : Shape) (a : Fin t.rank)
    (xs : List ((s : Shape) × (s.Idx → EReal))) (h : Shape.Concatenates (xs.map (·.1)) t a)
    (hxs : ∀ p ∈ xs, AllR p.2) : AllR (concatenate t a xs h) := by
  intro j
  unfold concatenate
  exact hxs _ (List.getElem_mem _) _

/-- A concatenation of two vectors with real entries has real entries. -/
theorem allR_concatenate {s₁ s₂ : Shape} (t : Shape) (a : Fin t.rank) (x₁ : s₁.Idx → EReal)
    (x₂ : s₂.Idx → EReal)
    (h : Shape.Concatenates
      (([⟨s₁, x₁⟩, ⟨s₂, x₂⟩] : List ((s : Shape) × (s.Idx → EReal))).map (·.1)) t a)
    (h₁ : AllR x₁) (h₂ : AllR x₂) :
    AllR (concatenate t a [⟨s₁, x₁⟩, ⟨s₂, x₂⟩] h) := by
  apply allR_concatenate_list
  intro p hp
  simp only [List.mem_cons, List.not_mem_nil, or_false] at hp
  rcases hp with rfl | rfl
  · exact h₁
  · exact h₂

/-- The entrywise host quotient of a vector with real entries by a vector whose entries are
    nonzero real numbers has real entries. -/
theorem allR_hostDivf {S : Shape} {φ : FTy} (x y : FVec Ideal S φ) (hx : AllR x)
    (hy : ∀ i, ∃ r : ℝ, r ≠ 0 ∧ y i = (r : EReal)) : AllR (Host.divf (F := Ideal) x y) := by
  intro i
  obtain ⟨r, hr, hyi⟩ := hy i
  show IsR (Ideal.div (x i) (y i))
  rw [hyi]
  exact isR_div (hx i) hr

/-- The entrywise quotient, likewise. -/
theorem allR_divf {S : Shape} {φ : FTy} (x y : FVec Ideal S φ) (hx : AllR x)
    (hy : ∀ i, ∃ r : ℝ, r ≠ 0 ∧ y i = (r : EReal)) : AllR (divf (F := Ideal) x y) := by
  intro i
  obtain ⟨r, hr, hyi⟩ := hy i
  show IsR (Ideal.div (x i) (y i))
  rw [hyi]
  exact isR_div (hx i) hr

/-- The entrywise host reciprocal square root of a vector whose entries are positive real
    numbers has real entries. -/
theorem allR_hostRsqrt {S : Shape} {φ : FTy} (x : FVec Ideal S φ)
    (hx : ∀ i, ∃ r : ℝ, 0 < r ∧ x i = (r : EReal)) : AllR (Host.rsqrt (F := Ideal) x) := by
  intro i
  obtain ⟨r, hr, hxi⟩ := hx i
  show IsR (Ideal.rsqrt (x i))
  rw [hxi]
  exact isR_rsqrt hr

/-- The entrywise reciprocal square root, likewise. -/
theorem allR_rsqrt {S : Shape} {φ : FTy} (x : FVec Ideal S φ)
    (hx : ∀ i, ∃ r : ℝ, 0 < r ∧ x i = (r : EReal)) : AllR (rsqrt (F := Ideal) x) := by
  intro i
  obtain ⟨r, hr, hxi⟩ := hx i
  show IsR (Ideal.rsqrt (x i))
  rw [hxi]
  exact isR_rsqrt hr

/-- A constant vector whose word denotes a real number has real entries. -/
theorem allR_constant (S : Shape) (φ : FTy) (w : BitVec φ.bits) (h : IsR (Ideal.ofBits φ w)) :
    AllR (constant (F := Ideal) S φ w) :=
  fun _ => h

end Cert.Lib.RealEntries

end
-- ==== Proof.LibBatchMoments.lean ====
import Idealize.ShloMosaic.PureOps.Ideal
import Mathlib.Tactic

/-!
# Batch moments on the extended reals

For a finite family of real numbers `r : Fin n → ℝ` with `n = N ≠ 0`, the mean of the squared
deviations from the mean equals the mean of the squares minus the square of the mean:

  `(∑ (r p - μ)²) / N = (∑ (r p)²) / N - μ²`,   `μ = (∑ r p) / N`.

The identity is stated on the extended reals, with the division `Ideal.div`; since every entry is
the coercion of a real number and the divisor is a nonzero real, every intermediate value is the
coercion of a real number, and the identity is the one of real arithmetic. On the extended reals at
large the two sides differ (an infinite entry makes one side `⊥` and the other not), so the
hypothesis that the entries are real cannot be dropped.
-/

noncomputable section

namespace Cert.Lib.BatchMoments

open Idealize.ShloMosaic
open scoped BigOperators

/-- A finite sum of coercions of real numbers is the coercion of the real sum. -/
theorem coe_finset_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The quotient of a real number by a nonzero real number, taken on the extended reals, is the
    coercion of the real quotient. -/
theorem div_coe_coe (x : ℝ) {y : ℝ} (hy : y ≠ 0) :
    Ideal.div (x : EReal) (y : EReal) = ((x / y : ℝ) : EReal) := by
  rw [Ideal.div_coe hy, ← EReal.coe_mul, mul_one_div]

/-- The mean of a real family, taken on the extended reals, is the coercion of the real mean. -/
theorem mean_coe {n : ℕ} {N : ℝ} (hN : N ≠ 0) (r : Fin n → ℝ) :
    Ideal.div (∑ p, ((r p : ℝ) : EReal)) (N : EReal) = (((∑ p, r p) / N : ℝ) : EReal) := by
  rw [coe_finset_sum, div_coe_coe _ hN]

/-- The identity on the real numbers: with `m = (∑ r p) / N` and `n = N ≠ 0`,
    `(∑ (r p - m)²) / N = (∑ (r p)²) / N - m²`. Expanding the square,
    `∑ (r p - m)² = ∑ (r p)² - 2 m ∑ r p + N m²` and `∑ r p = N m`. -/
theorem real_mean_sq_dev {n : ℕ} {N : ℝ} (hN : N ≠ 0) (hn : (n : ℝ) = N) (r : Fin n → ℝ) :
    (∑ p, (r p - (∑ q, r q) / N) * (r p - (∑ q, r q) / N)) / N
      = (∑ p, r p * r p) / N - ((∑ q, r q) / N) * ((∑ q, r q) / N) := by
  have h1 : ∀ m : ℝ, ∑ p, (r p - m) * (r p - m)
      = (∑ p, r p * r p) - 2 * m * (∑ p, r p) + N * (m * m) := by
    intro m
    have h2 : ∀ p, (r p - m) * (r p - m) = r p * r p - 2 * m * r p + m * m := fun p => by ring
    simp only [h2]
    rw [Finset.sum_add_distrib, Finset.sum_sub_distrib, ← Finset.mul_sum, Finset.sum_const,
      Finset.card_univ, Fintype.card_fin, nsmul_eq_mul, hn]
  rw [h1]
  field_simp
  ring

/-- The sum of the squared deviations of real entries from a real centre, on the extended reals,
    is the coercion of the real sum of squared deviations. -/
theorem sum_sq_dev_coe {n : ℕ} (r : Fin n → ℝ) (m : ℝ) :
    (∑ p, (((r p : ℝ) : EReal) - (m : EReal)) * (((r p : ℝ) : EReal) - (m : EReal)))
      = ((∑ p, (r p - m) * (r p - m) : ℝ) : EReal) := by
  rw [← coe_finset_sum]
  refine Finset.sum_congr rfl (fun p _ => ?_)
  rw [← EReal.coe_sub, ← EReal.coe_mul]

/-- The sum of the squares of real entries, on the extended reals, is the coercion of the real
    sum of squares. -/
theorem sum_sq_coe {n : ℕ} (r : Fin n → ℝ) :
    (∑ p, ((r p : ℝ) : EReal) * ((r p : ℝ) : EReal)) = ((∑ p, r p * r p : ℝ) : EReal) := by
  rw [← coe_finset_sum]
  refine Finset.sum_congr rfl (fun p _ => ?_)
  rw [← EReal.coe_mul]

/-- **Variance identity**, with the mean named: for real entries `r p`, a nonzero real count
    `N = n` and `μ = (∑ r p) / N`, the mean squared deviation from `μ` is the mean of the squares
    minus `μ²`, on the extended reals. -/
theorem mean_sq_dev_eq' {n : ℕ} {N : ℝ} (hN : N ≠ 0) (hn : (n : ℝ) = N) (r : Fin n → ℝ)
    (μ : EReal) (hμ : μ = Ideal.div (∑ p, ((r p : ℝ) : EReal)) (N : EReal)) :
    Ideal.div (∑ p, (((r p : ℝ) : EReal) - μ) * (((r p : ℝ) : EReal) - μ)) (N : EReal)
      = Ideal.div (∑ p, ((r p : ℝ) : EReal) * ((r p : ℝ) : EReal)) (N : EReal) - μ * μ := by
  rw [hμ, mean_coe hN, sum_sq_dev_coe, sum_sq_coe, div_coe_coe _ hN, div_coe_coe _ hN,
    ← EReal.coe_mul, ← EReal.coe_sub, real_mean_sq_dev hN hn]

/-- **Variance identity**: for real entries `r p` and a nonzero real count `N = n`, with
    `μ = (∑ r p) / N`: `(∑ (r p - μ)²) / N = (∑ (r p)²) / N - μ²` on the extended reals. -/
theorem mean_sq_dev_eq {n : ℕ} {N : ℝ} (hN : N ≠ 0) (hn : (n : ℝ) = N) (r : Fin n → ℝ) :
    Ideal.div (∑ p, (((r p : ℝ) : EReal) - Ideal.div (∑ q, ((r q : ℝ) : EReal)) (N : EReal))
        * (((r p : ℝ) : EReal) - Ideal.div (∑ q, ((r q : ℝ) : EReal)) (N : EReal))) (N : EReal)
      = Ideal.div (∑ p, ((r p : ℝ) : EReal) * ((r p : ℝ) : EReal)) (N : EReal)
        - Ideal.div (∑ q, ((r q : ℝ) : EReal)) (N : EReal)
          * Ideal.div (∑ q, ((r q : ℝ) : EReal)) (N : EReal) :=
  mean_sq_dev_eq' hN hn r _ rfl

/-- The mean squared deviation of real entries from their mean is a nonnegative real number
    (mean named): a sum of squares divided by a positive count. -/
theorem mean_sq_dev_nonneg' {n : ℕ} {N : ℝ} (hN : 0 < N) (r : Fin n → ℝ)
    (μ : EReal) (hμ : μ = Ideal.div (∑ p, ((r p : ℝ) : EReal)) (N : EReal)) :
    ∃ v : ℝ, 0 ≤ v ∧
      Ideal.div (∑ p, (((r p : ℝ) : EReal) - μ) * (((r p : ℝ) : EReal) - μ)) (N : EReal)
        = (v : EReal) := by
  refine ⟨(∑ p, (r p - (∑ q, r q) / N) * (r p - (∑ q, r q) / N)) / N, ?_, ?_⟩
  · exact div_nonneg (Finset.sum_nonneg (fun p _ => mul_self_nonneg _)) hN.le
  · rw [hμ, mean_coe hN.ne', sum_sq_dev_coe, div_coe_coe _ hN.ne']

/-- The mean squared deviation of real entries from their mean is a nonnegative real number. -/
theorem mean_sq_dev_nonneg {n : ℕ} {N : ℝ} (hN : 0 < N) (r : Fin n → ℝ) :
    ∃ v : ℝ, 0 ≤ v ∧
      Ideal.div (∑ p, (((r p : ℝ) : EReal) - Ideal.div (∑ q, ((r q : ℝ) : EReal)) (N : EReal))
          * (((r p : ℝ) : EReal) - Ideal.div (∑ q, ((r q : ℝ) : EReal)) (N : EReal))) (N : EReal)
        = (v : EReal) :=
  mean_sq_dev_nonneg' hN r _ rfl

/-- The moments in the two spellings that occur: the entries are extended reals known to be real,
    and a sum may carry a leading `0 +` (the initial value of a reduction). For such entries and a
    positive real count `N = n`: the mean with and without the leading zero agree; the mean of the
    squares minus the square of the mean is the mean of the squared deviations from the mean; the
    mean is a real number; and the mean of the squared deviations is a nonnegative real number. -/
theorem moments_bridge {n : ℕ} {N : ℝ} (hN : 0 < N) (hn : (n : ℝ) = N) (f : Fin n → EReal)
    (hf : ∀ p, ∃ r : ℝ, f p = (r : EReal)) :
    Ideal.div (∑ p, f p) (N : EReal) = Ideal.div (0 + ∑ p, f p) (N : EReal)
    ∧ Ideal.div (∑ p, f p * f p) (N : EReal)
          - Ideal.div (∑ p, f p) (N : EReal) * Ideal.div (∑ p, f p) (N : EReal)
        = Ideal.div (0 + ∑ p, (f p - Ideal.div (0 + ∑ q, f q) (N : EReal))
            * (f p - Ideal.div (0 + ∑ q, f q) (N : EReal))) (N : EReal)
    ∧ (∃ μ : ℝ, Ideal.div (0 + ∑ p, f p) (N : EReal) = (μ : EReal))
    ∧ (∃ v : ℝ, 0 ≤ v ∧
        Ideal.div (0 + ∑ p, (f p - Ideal.div (0 + ∑ q, f q) (N : EReal))
            * (f p - Ideal.div (0 + ∑ q, f q) (N : EReal))) (N : EReal) = (v : EReal)) := by
  choose r hr using hf
  obtain rfl : f = fun p => ((r p : ℝ) : EReal) := funext hr
  simp only [zero_add]
  exact ⟨trivial, (mean_sq_dev_eq hN.ne' hn r).symm, ⟨_, mean_coe hN.ne' r⟩,
    mean_sq_dev_nonneg hN r⟩

end Cert.Lib.BatchMoments

end
-- ==== Proof.RefStages.lean ====
import proofs.«151287_j81509889343954_1_alg».proof.Proof.RefReadP
import proofs.«151287_j81509889343954_1_alg».proof.Proof.LibRealEntries
import proofs.«151287_j81509889343954_1_alg».proof.Proof.LibBatchMoments
import Idealize.ShloMosaic.Lib.ValueIdx
import Mathlib.Tactic

/-!
# The reference's stages: batch statistics at a column, and real entries

The reference is a two-layer graph convolution with batch normalisation. For each layer, with
`H` the layer's aggregated features (rows: nodes, columns: channels), this file reads the batch
mean and the batch variance of a column as the program computes them —

  `mean q = (0 + ∑ₚ H p q) / N`,   `var q = (0 + ∑ₚ (H p q - mean q)²) / N`,   `N = 100000`

(the leading `0` is the initial value of the reduction) — and shows that, when every entry of
every float argument is a real number, so is every entry of `H`, of the normalised and rectified
activations, and of the second layer's features, and that `var q + ε` is a positive real number.
The one step that is not a sum, product or re-indexing of real values is the inverse square root
of the node degrees, guarded by a selection: where the degree is positive its inverse square root
is real, and elsewhere the selection takes `0`.
-/

noncomputable section

namespace Cert.RefStages

open Cert.ReferenceIdeal Cert.ReferenceIdeal.Gen Cert.ReferenceIdeal.ReadP Idealize.ShloMosaic
  Idealize.ShloMosaic.ValueIdx Cert.Lib.RealEntries
open scoped BigOperators

variable (x0 : (⟨S100000x256, .f32⟩ : BufTy).Contents (Elt Ideal))
  (x1 : (⟨S2x1600000, .i32⟩ : BufTy).Contents (Elt Ideal))
  (x2 : (⟨S1600000, .f32⟩ : BufTy).Contents (Elt Ideal))
  (x3 : (⟨S256x64, .f32⟩ : BufTy).Contents (Elt Ideal))
  (x4 x5 x6 : (⟨S64, .f32⟩ : BufTy).Contents (Elt Ideal))
  (x7 : (⟨S64x32, .f32⟩ : BufTy).Contents (Elt Ideal))
  (x8 : (⟨S32, .f32⟩ : BufTy).Contents (Elt Ideal))
  (x11 : (⟨S1, .f32⟩ : BufTy).Contents (Elt Ideal))

/-! ### Layer 1: the batch statistics read at a column -/

/-- The index the column sum reads at summation position `k` of column `q` is `(k, q)`. -/
theorem idx_v53 (q : Fin 64) (k : Fin 100000) : idx_main_v53 (ix1 q) k = ix2 k q := by
  funext a
  match a with
  | ⟨0, _⟩ => rfl
  | ⟨1, _⟩ => rfl

theorem idx_v60 (q : Fin 64) (k : Fin 100000) : idx_main_v60 (ix1 q) k = ix2 k q := by
  funext a
  match a with
  | ⟨0, _⟩ => rfl
  | ⟨1, _⟩ => rfl

/-- The mean broadcast back over the rows is read, at `(p, q)`, at column `q`. -/
theorem idx_v56_v57 (p : Fin 100000) (q : Fin 64) :
    idx_main_v56 (idx_main_v57 (ix2 p q)) = ix1 q := by
  funext a
  match a with
  | ⟨0, _⟩ => rfl

/-- The batch mean of column `q`: the sum of the column, from the initial value `0`, divided by
    the row count. -/
theorem mean1_at (q : Fin 64) :
    val_main_v55 (F := Ideal) x0 x1 x2 x3 x4 (ix1 q)
      = Ideal.div (0 + ∑ p : Fin 100000, val_main_v52 (F := Ideal) x0 x1 x2 x3 x4 (ix2 p q)) ((100000 : ℝ) : EReal) := by
  rewrite [val_main_v55_apply, val_main_v53_apply, val_main_v54_apply]
  show Ideal.div (Ideal.ofBits .f32 0x00000000#32
      + ∑ k : Fin 100000, val_main_v52 (F := Ideal) x0 x1 x2 x3 x4 (idx_main_v53 (ix1 q) k))
    (Ideal.ofBits .f32 0x47C35000#32) = _
  rewrite [Ideal.ofBits_zero_f32, ofBits_47C35000]
  exact congrArg (fun s : EReal => Ideal.div (0 + s) ((100000 : ℝ) : EReal))
    (Finset.sum_congr rfl (fun k _ => congrArg (val_main_v52 (F := Ideal) x0 x1 x2 x3 x4) (idx_v53 q k)))

/-- The deviation from the batch mean at `(p, q)`. -/
theorem dev1_at (p : Fin 100000) (q : Fin 64) :
    val_main_v58 (F := Ideal) x0 x1 x2 x3 x4 (ix2 p q)
      = val_main_v52 (F := Ideal) x0 x1 x2 x3 x4 (ix2 p q)
        - Ideal.div (0 + ∑ p' : Fin 100000, val_main_v52 (F := Ideal) x0 x1 x2 x3 x4 (ix2 p' q)) ((100000 : ℝ) : EReal) := by
  rewrite [val_main_v58_apply, val_main_v57_apply, val_main_v56_apply,
    idx_v56_v57, mean1_at]
  rfl

/-- The squared deviation read where the column sum of squares reads it. -/
theorem sq1_at (p : Fin 100000) (q : Fin 64) :
    val_main_v59 (F := Ideal) x0 x1 x2 x3 x4 (idx_main_v60 (ix1 q) p)
      = (val_main_v52 (F := Ideal) x0 x1 x2 x3 x4 (ix2 p q)
          - Ideal.div (0 + ∑ p' : Fin 100000, val_main_v52 (F := Ideal) x0 x1 x2 x3 x4 (ix2 p' q)) ((100000 : ℝ) : EReal))
        * (val_main_v52 (F := Ideal) x0 x1 x2 x3 x4 (ix2 p q)
          - Ideal.div (0 + ∑ p' : Fin 100000, val_main_v52 (F := Ideal) x0 x1 x2 x3 x4 (ix2 p' q)) ((100000 : ℝ) : EReal)) := by
  rewrite [idx_v60, val_main_v59_apply, dev1_at]
  rfl

/-- The batch variance of column `q`: the sum of the squared deviations from the batch mean, from
    the initial value `0`, divided by the row count. -/
theorem var1_at (q : Fin 64) :
    val_main_v62 (F := Ideal) x0 x1 x2 x3 x4 (ix1 q)
      = Ideal.div (0 + ∑ p : Fin 100000,
          (val_main_v52 (F := Ideal) x0 x1 x2 x3 x4 (ix2 p q)
            - Ideal.div (0 + ∑ p' : Fin 100000, val_main_v52 (F := Ideal) x0 x1 x2 x3 x4 (ix2 p' q)) ((100000 : ℝ) : EReal))
          * (val_main_v52 (F := Ideal) x0 x1 x2 x3 x4 (ix2 p q)
            - Ideal.div (0 + ∑ p' : Fin 100000, val_main_v52 (F := Ideal) x0 x1 x2 x3 x4 (ix2 p' q)) ((100000 : ℝ) : EReal)))
        ((100000 : ℝ) : EReal) := by
  rewrite [val_main_v62_apply, val_main_v60_apply, val_main_v61_apply]
  show Ideal.div (Ideal.ofBits .f32 0x00000000#32
      + ∑ k : Fin 100000, val_main_v59 (F := Ideal) x0 x1 x2 x3 x4 (idx_main_v60 (ix1 q) k))
    (Ideal.ofBits .f32 0x47C35000#32) = _
  rewrite [Ideal.ofBits_zero_f32, ofBits_47C35000]
  exact congrArg (fun s : EReal => Ideal.div (0 + s) ((100000 : ℝ) : EReal))
    (Finset.sum_congr rfl (fun k _ => sq1_at x0 x1 x2 x3 x4 k q))

/-! ### Layer 2: the batch statistics read at a column -/

/-- The index the column sum reads at summation position `k` of column `q` is `(k, q)`. -/
theorem idx_v101 (q : Fin 32) (k : Fin 100000) : idx_main_v101 (ix1 q) k = ix2 k q := by
  funext a
  match a with
  | ⟨0, _⟩ => rfl
  | ⟨1, _⟩ => rfl

theorem idx_v108 (q : Fin 32) (k : Fin 100000) : idx_main_v108 (ix1 q) k = ix2 k q := by
  funext a
  match a with
  | ⟨0, _⟩ => rfl
  | ⟨1, _⟩ => rfl

/-- The mean broadcast back over the rows is read, at `(p, q)`, at column `q`. -/
theorem idx_v104_v105 (p : Fin 100000) (q : Fin 32) :
    idx_main_v104 (idx_main_v105 (ix2 p q)) = ix1 q := by
  funext a
  match a with
  | ⟨0, _⟩ => rfl

/-- The batch mean of column `q`: the sum of the column, from the initial value `0`, divided by
    the row count. -/
theorem mean2_at (q : Fin 32) :
    val_main_v103 (F := Ideal) x0 x1 x2 x3 x4 x5 x6 x7 x8 x11 (ix1 q)
      = Ideal.div (0 + ∑ p : Fin 100000, val_main_v100 (F := Ideal) x0 x1 x2 x3 x4 x5 x6 x7 x8 x11 (ix2 p q)) ((100000 : ℝ) : EReal) := by
  rewrite [val_main_v103_apply, val_main_v101_apply, val_main_v102_apply]
  show Ideal.div (Ideal.ofBits .f32 0x00000000#32
      + ∑ k : Fin 100000, val_main_v100 (F := Ideal) x0 x1 x2 x3 x4 x5 x6 x7 x8 x11 (idx_main_v101 (ix1 q) k))
    (Ideal.ofBits .f32 0x47C35000#32) = _
  rewrite [Ideal.ofBits_zero_f32, ofBits_47C35000]
  exact congrArg (fun s : EReal => Ideal.div (0 + s) ((100000 : ℝ) : EReal))
    (Finset.sum_congr rfl (fun k _ => congrArg (val_main_v100 (F := Ideal) x0 x1 x2 x3 x4 x5 x6 x7 x8 x11) (idx_v101 q k)))

/-- The deviation from the batch mean at `(p, q)`. -/
theorem dev2_at (p : Fin 100000) (q : Fin 32) :
    val_main_v106 (F := Ideal) x0 x1 x2 x3 x4 x5 x6 x7 x8 x11 (ix2 p q)
      = val_main_v100 (F := Ideal) x0 x1 x2 x3 x4 x5 x6 x7 x8 x11 (ix2 p q)
        - Ideal.div (0 + ∑ p' : Fin 100000, val_main_v100 (F := Ideal) x0 x1 x2 x3 x4 x5 x6 x7 x8 x11 (ix2 p' q)) ((100000 : ℝ) : EReal) := by
  rewrite [val_main_v106_apply, val_main_v105_apply, val_main_v104_apply,
    idx_v104_v105, mean2_at]
  rfl

/-- The squared deviation read where the column sum of squares reads it. -/
theorem sq2_at (p : Fin 100000) (q : Fin 32) :
    val_main_v107 (F := Ideal) x0 x1 x2 x3 x4 x5 x6 x7 x8 x11 (idx_main_v108 (ix1 q) p)
      = (val_main_v100 (F := Ideal) x0 x1 x2 x3 x4 x5 x6 x7 x8 x11 (ix2 p q)
          - Ideal.div (0 + ∑ p' : Fin 100000, val_main_v100 (F := Ideal) x0 x1 x2 x3 x4 x5 x6 x7 x8 x11 (ix2 p' q)) ((100000 : ℝ) : EReal))
        * (val_main_v100 (F := Ideal) x0 x1 x2 x3 x4 x5 x6 x7 x8 x11 (ix2 p q)
          - Ideal.div (0 + ∑ p' : Fin 100000, val_main_v100 (F := Ideal) x0 x1 x2 x3 x4 x5 x6 x7 x8 x11 (ix2 p' q)) ((100000 : ℝ) : EReal)) := by
  rewrite [idx_v108, val_main_v107_apply, dev2_at]
  rfl

/-- The batch variance of column `q`: the sum of the squared deviations from the batch mean, from
    the initial value `0`, divided by the row count. -/
theorem var2_at (q : Fin 32) :
    val_main_v110 (F := Ideal) x0 x1 x2 x3 x4 x5 x6 x7 x8 x11 (ix1 q)
      = Ideal.div (0 + ∑ p : Fin 100000,
          (val_main_v100 (F := Ideal) x0 x1 x2 x3 x4 x5 x6 x7 x8 x11 (ix2 p q)
            - Ideal.div (0 + ∑ p' : Fin 100000, val_main_v100 (F := Ideal) x0 x1 x2 x3 x4 x5 x6 x7 x8 x11 (ix2 p' q)) ((100000 : ℝ) : EReal))
          * (val_main_v100 (F := Ideal) x0 x1 x2 x3 x4 x5 x6 x7 x8 x11 (ix2 p q)
            - Ideal.div (0 + ∑ p' : Fin 100000, val_main_v100 (F := Ideal) x0 x1 x2 x3 x4 x5 x6 x7 x8 x11 (ix2 p' q)) ((100000 : ℝ) : EReal)))
        ((100000 : ℝ) : EReal) := by
  rewrite [val_main_v110_apply, val_main_v108_apply, val_main_v109_apply]
  show Ideal.div (Ideal.ofBits .f32 0x00000000#32
      + ∑ k : Fin 100000, val_main_v107 (F := Ideal) x0 x1 x2 x3 x4 x5 x6 x7 x8 x11 (idx_main_v108 (ix1 q) k))
    (Ideal.ofBits .f32 0x47C35000#32) = _
  rewrite [Ideal.ofBits_zero_f32, ofBits_47C35000]
  exact congrArg (fun s : EReal => Ideal.div (0 + s) ((100000 : ℝ) : EReal))
    (Finset.sum_congr rfl (fun k _ => sq2_at x0 x1 x2 x3 x4 x5 x6 x7 x8 x11 k q))

/-! ### Real entries -/

/-- The all-ones vector. -/
theorem real_v7 :
    AllR (val_main_v7 (F := Ideal)) := by
  unfold val_main_v7 val_main_cst
  exact allR_broadcastInDim _ _ _ _ (allR_constant _ _ _ isR_ofBits_3F800000)

/-- The edge weights followed by the self-loop weights. -/
theorem real_v8 (h2 : AllR x2) :
    AllR (val_main_v8 (F := Ideal) x2) := by
  unfold val_main_v8
  exact allR_concatenate _ _ _ _ _ h2 (real_v7)

/-- The zero vector the degrees accumulate into. -/
theorem real_v9 :
    AllR (val_main_v9 (F := Ideal)) := by
  unfold val_main_v9 val_main_cst_0
  exact allR_broadcastInDim _ _ _ _ (allR_constant _ _ _ isR_ofBits_00000000)

/-- The node degrees: weights accumulated at the target nodes. -/
theorem real_v11 (h2 : AllR x2) :
    AllR (val_main_v11 (F := Ideal) x1 x2) := by
  unfold val_main_v11
  exact allR_scatterAdd _ _ _ _ (real_v9) (real_v8 x2 h2)

/-- For a real `x`, the value "the inverse square root of `x` where `x > 0`, and `0` elsewhere" is
    real: where `x > 0` the inverse square root is real, and elsewhere (where the inverse square
    root would be `⊤` or `⊥`) the selection takes `0`. -/
theorem isR_rsqrt_where_pos {x : EReal} (hx : IsR x) :
    IsR (Scalar.select (Ideal.cmp .ogt x 0) (Ideal.rsqrt x) 0) := by
  obtain ⟨r, rfl⟩ := hx
  unfold Scalar.select
  by_cases h : 0 < r
  · exact isR_ite (isR_rsqrt h) isR_zero
  · have hn : ¬ ((0 : EReal) < (r : EReal)) := by rw [EReal.coe_pos]; exact h
    have hc : ¬ (Ideal.cmp .ogt (r : EReal) 0 = 1) := by simp [Ideal.cmp, hn]
    rw [if_neg hc]; exact isR_zero

/-- The inverse square roots of the node degrees, `0` where the degree is not positive. -/
theorem real_v15 (h2 : AllR x2) :
    AllR (val_main_v15 (F := Ideal) x1 x2) := by
  intro i
  have h := isR_rsqrt_where_pos (real_v11 x1 x2 h2 i)
  rewrite [val_main_v15_apply, val_main_v13_apply, val_main_v14_apply, val_main_v12_apply,
    val_main_call0_v1_apply, val_main_call0_v0_apply, val_main_cst_1_apply, val_main_cst_2_apply,
    Ideal.ofBits_def, Ideal.ofBits_zero_f32, Ideal.cmpf_def, Ideal.hostUnary_rsqrt_def]
  exact h

theorem real_v22 (h2 : AllR x2) :
    AllR (val_main_v22 (F := Ideal) x1 x2) := by
  unfold val_main_v22
  exact allR_gather _ _ _ (real_v15 x1 x2 h2)

theorem real_v23 (h2 : AllR x2) :
    AllR (val_main_v23 (F := Ideal) x1 x2) := by
  unfold val_main_v23
  exact allR_mulf _ _ (real_v22 x1 x2 h2) (real_v8 x2 h2)

theorem real_v30 (h2 : AllR x2) :
    AllR (val_main_v30 (F := Ideal) x1 x2) := by
  unfold val_main_v30
  exact allR_gather _ _ _ (real_v15 x1 x2 h2)

/-- The normalised edge weights. -/
theorem real_v31 (h2 : AllR x2) :
    AllR (val_main_v31 (F := Ideal) x1 x2) := by
  unfold val_main_v31
  exact allR_mulf _ _ (real_v23 x1 x2 h2) (real_v30 x1 x2 h2)

/-- The first layer's linear map. -/
theorem real_v36 (h0 : AllR x0) (h3 : AllR x3) :
    AllR (val_main_v36 (F := Ideal) x0 x3) := by
  unfold val_main_v36
  exact allR_dotGeneral _ _ _ _ h0 h3

theorem real_v43 (h0 : AllR x0) (h3 : AllR x3) :
    AllR (val_main_v43 (F := Ideal) x0 x1 x3) := by
  unfold val_main_v43
  exact allR_gather _ _ _ (real_v36 x0 x3 h0 h3)

theorem real_v44 (h2 : AllR x2) :
    AllR (val_main_v44 (F := Ideal) x1 x2) := by
  unfold val_main_v44
  exact allR_broadcastInDim _ _ _ _ (real_v31 x1 x2 h2)

theorem real_v45 (h2 : AllR x2) :
    AllR (val_main_v45 (F := Ideal) x1 x2) := by
  unfold val_main_v45
  exact allR_broadcastInDim _ _ _ _ (real_v44 x1 x2 h2)

/-- The first layer's messages. -/
theorem real_v46 (h0 : AllR x0) (h2 : AllR x2) (h3 : AllR x3) :
    AllR (val_main_v46 (F := Ideal) x0 x1 x2 x3) := by
  unfold val_main_v46
  exact allR_mulf _ _ (real_v43 x0 x1 x3 h0 h3) (real_v45 x1 x2 h2)

theorem real_v47 :
    AllR (val_main_v47 (F := Ideal)) := by
  unfold val_main_v47 val_main_cst_8
  exact allR_broadcastInDim _ _ _ _ (allR_constant _ _ _ isR_ofBits_00000000)

/-- The first layer's aggregation. -/
theorem real_v49 (h0 : AllR x0) (h2 : AllR x2) (h3 : AllR x3) :
    AllR (val_main_v49 (F := Ideal) x0 x1 x2 x3) := by
  unfold val_main_v49
  exact allR_scatterAdd _ _ _ _ (real_v47) (real_v46 x0 x1 x2 x3 h0 h2 h3)

theorem real_v50 (h4 : AllR x4) :
    AllR (val_main_v50 (F := Ideal) x4) := by
  unfold val_main_v50
  exact allR_broadcastInDim _ _ _ _ h4

theorem real_v51 (h4 : AllR x4) :
    AllR (val_main_v51 (F := Ideal) x4) := by
  unfold val_main_v51
  exact allR_broadcastInDim _ _ _ _ (real_v50 x4 h4)

/-- The first layer's aggregated features have real entries. -/
theorem real_H1 (h0 : AllR x0) (h2 : AllR x2) (h3 : AllR x3) (h4 : AllR x4) :
    AllR (val_main_v52 (F := Ideal) x0 x1 x2 x3 x4) := by
  unfold val_main_v52
  exact allR_addf _ _ (real_v49 x0 x1 x2 x3 h0 h2 h3) (real_v51 x4 h4)

/-- The first layer's batch means are real. -/
theorem real_v55 (h0 : AllR x0) (h2 : AllR x2) (h3 : AllR x3) (h4 : AllR x4) :
    AllR (val_main_v55 (F := Ideal) x0 x1 x2 x3 x4) := by
  intro i
  obtain ⟨q, rfl⟩ : ∃ q, i = ix1 q := ⟨i 0, eq_ix1 i⟩
  obtain ⟨_, _, ⟨μ, hμ⟩, _⟩ := Cert.Lib.BatchMoments.moments_bridge (n := 100000) (N := 100000)
    (by norm_num) (by norm_num) (fun p : Fin 100000 => val_main_v52 (F := Ideal) x0 x1 x2 x3 x4 (ix2 p q))
    (fun p => real_H1 x0 x1 x2 x3 x4 h0 h2 h3 h4 (ix2 p q))
  exact ⟨μ, (mean1_at x0 x1 x2 x3 x4 q).trans hμ⟩

/-- The first layer's batch variance plus `ε` is a positive real number at every column: the
    variance is a nonnegative real number and `ε` a positive one. -/
theorem var1_pos (h0 : AllR x0) (h2 : AllR x2) (h3 : AllR x3) (h4 : AllR x4) (q : Fin 64) :
    ∃ s : ℝ, 0 < s ∧ val_main_v70 (F := Ideal) x0 x1 x2 x3 x4 (ix1 q) = (s : EReal) := by
  obtain ⟨e, he, hw⟩ := ofBits_3727C5AC
  obtain ⟨_, _, _, v, hv, hvar⟩ := Cert.Lib.BatchMoments.moments_bridge (n := 100000) (N := 100000)
    (by norm_num) (by norm_num) (fun p : Fin 100000 => val_main_v52 (F := Ideal) x0 x1 x2 x3 x4 (ix2 p q))
    (fun p => real_H1 x0 x1 x2 x3 x4 h0 h2 h3 h4 (ix2 p q))
  have hvar' : val_main_v62 (F := Ideal) x0 x1 x2 x3 x4 (ix1 q) = (v : EReal) :=
    (var1_at x0 x1 x2 x3 x4 q).trans hvar
  refine ⟨v + e, by linarith, ?_⟩
  rewrite [val_main_v70_apply, hvar', val_main_v69_apply]
  show (v : EReal) + Ideal.ofBits .f32 0x3727C5AC#32 = _
  rewrite [hw, ← EReal.coe_add]
  rfl

theorem real_v63 (h0 : AllR x0) (h2 : AllR x2) (h3 : AllR x3) (h4 : AllR x4) :
    AllR (val_main_v63 (F := Ideal) x0 x1 x2 x3 x4) := by
  unfold val_main_v63
  exact allR_broadcastInDim _ _ _ _ (real_v55 x0 x1 x2 x3 x4 h0 h2 h3 h4)

theorem real_v64 (h0 : AllR x0) (h2 : AllR x2) (h3 : AllR x3) (h4 : AllR x4) :
    AllR (val_main_v64 (F := Ideal) x0 x1 x2 x3 x4) := by
  unfold val_main_v64
  exact allR_broadcastInDim _ _ _ _ (real_v63 x0 x1 x2 x3 x4 h0 h2 h3 h4)

/-- The centred features. -/
theorem real_v65 (h0 : AllR x0) (h2 : AllR x2) (h3 : AllR x3) (h4 : AllR x4) :
    AllR (val_main_v65 (F := Ideal) x0 x1 x2 x3 x4) := by
  unfold val_main_v65
  exact allR_subf _ _ (real_H1 x0 x1 x2 x3 x4 h0 h2 h3 h4) (real_v64 x0 x1 x2 x3 x4 h0 h2 h3 h4)

theorem real_v66 (h5 : AllR x5) :
    AllR (val_main_v66 (F := Ideal) x5) := by
  unfold val_main_v66
  exact allR_broadcastInDim _ _ _ _ h5

theorem real_v67 (h5 : AllR x5) :
    AllR (val_main_v67 (F := Ideal) x5) := by
  unfold val_main_v67
  exact allR_broadcastInDim _ _ _ _ (real_v66 x5 h5)

theorem real_v68 (h0 : AllR x0) (h2 : AllR x2) (h3 : AllR x3) (h4 : AllR x4) (h5 : AllR x5) :
    AllR (val_main_v68 (F := Ideal) x0 x1 x2 x3 x4 x5) := by
  unfold val_main_v68
  exact allR_mulf _ _ (real_v67 x5 h5) (real_v65 x0 x1 x2 x3 x4 h0 h2 h3 h4)

/-- The inverse square roots of the first layer's batch variances plus `ε` are real. -/
theorem real_v71 (h0 : AllR x0) (h2 : AllR x2) (h3 : AllR x3) (h4 : AllR x4) :
    AllR (val_main_v71 (F := Ideal) x0 x1 x2 x3 x4) := by
  unfold val_main_v71
  refine allR_hostRsqrt _ (fun i => ?_)
  obtain ⟨q, rfl⟩ : ∃ q, i = ix1 q := ⟨i 0, eq_ix1 i⟩
  exact var1_pos x0 x1 x2 x3 x4 h0 h2 h3 h4 q

theorem real_v72 (h0 : AllR x0) (h2 : AllR x2) (h3 : AllR x3) (h4 : AllR x4) :
    AllR (val_main_v72 (F := Ideal) x0 x1 x2 x3 x4) := by
  unfold val_main_v72
  exact allR_broadcastInDim _ _ _ _ (real_v71 x0 x1 x2 x3 x4 h0 h2 h3 h4)

theorem real_v73 (h0 : AllR x0) (h2 : AllR x2) (h3 : AllR x3) (h4 : AllR x4) :
    AllR (val_main_v73 (F := Ideal) x0 x1 x2 x3 x4) := by
  unfold val_main_v73
  exact allR_broadcastInDim _ _ _ _ (real_v72 x0 x1 x2 x3 x4 h0 h2 h3 h4)

/-- The normalised features, scaled. -/
theorem real_v74 (h0 : AllR x0) (h2 : AllR x2) (h3 : AllR x3) (h4 : AllR x4) (h5 : AllR x5) :
    AllR (val_main_v74 (F := Ideal) x0 x1 x2 x3 x4 x5) := by
  unfold val_main_v74
  exact allR_mulf _ _ (real_v68 x0 x1 x2 x3 x4 x5 h0 h2 h3 h4 h5) (real_v73 x0 x1 x2 x3 x4 h0 h2 h3 h4)

theorem real_v75 (h6 : AllR x6) :
    AllR (val_main_v75 (F := Ideal) x6) := by
  unfold val_main_v75
  exact allR_broadcastInDim _ _ _ _ h6

theorem real_v76 (h6 : AllR x6) :
    AllR (val_main_v76 (F := Ideal) x6) := by
  unfold val_main_v76
  exact allR_broadcastInDim _ _ _ _ (real_v75 x6 h6)

/-- The batch-normalised features. -/
theorem real_v77 (h0 : AllR x0) (h2 : AllR x2) (h3 : AllR x3) (h4 : AllR x4) (h5 : AllR x5) (h6 : AllR x6) :
    AllR (val_main_v77 (F := Ideal) x0 x1 x2 x3 x4 x5 x6) := by
  unfold val_main_v77
  exact allR_addf _ _ (real_v74 x0 x1 x2 x3 x4 x5 h0 h2 h3 h4 h5) (real_v76 x6 h6)

theorem real_v80 (h11 : AllR x11) :
    AllR (val_main_v80 (F := Ideal) x11) := by
  unfold val_main_v80
  exact allR_shapeCast _ _ _ h11

theorem real_v81 (h11 : AllR x11) :
    AllR (val_main_v81 (F := Ideal) x11) := by
  unfold val_main_v81
  exact allR_broadcastInDim _ _ _ _ (real_v80 x11 h11)

theorem real_v82 (h0 : AllR x0) (h2 : AllR x2) (h3 : AllR x3) (h4 : AllR x4) (h5 : AllR x5) (h6 : AllR x6) (h11 : AllR x11) :
    AllR (val_main_v82 (F := Ideal) x0 x1 x2 x3 x4 x5 x6 x11) := by
  unfold val_main_v82
  exact allR_mulf _ _ (real_v81 x11 h11) (real_v77 x0 x1 x2 x3 x4 x5 x6 h0 h2 h3 h4 h5 h6)

/-- The first layer's activations (batch-normalised, then rectified with a slope on the negative side) have real entries. -/
theorem real_act1 (h0 : AllR x0) (h2 : AllR x2) (h3 : AllR x3) (h4 : AllR x4) (h5 : AllR x5) (h6 : AllR x6) (h11 : AllR x11) :
    AllR (val_main_v83 (F := Ideal) x0 x1 x2 x3 x4 x5 x6 x11) := by
  unfold val_main_v83
  exact allR_select _ _ _ (real_v77 x0 x1 x2 x3 x4 x5 x6 h0 h2 h3 h4 h5 h6) (real_v82 x0 x1 x2 x3 x4 x5 x6 x11 h0 h2 h3 h4 h5 h6 h11)

/-- The second layer's linear map. -/
theorem real_v84 (h0 : AllR x0) (h2 : AllR x2) (h3 : AllR x3) (h4 : AllR x4) (h5 : AllR x5) (h6 : AllR x6) (h7 : AllR x7) (h11 : AllR x11) :
    AllR (val_main_v84 (F := Ideal) x0 x1 x2 x3 x4 x5 x6 x7 x11) := by
  unfold val_main_v84
  exact allR_dotGeneral _ _ _ _ (real_act1 x0 x1 x2 x3 x4 x5 x6 x11 h0 h2 h3 h4 h5 h6 h11) h7

theorem real_v91 (h0 : AllR x0) (h2 : AllR x2) (h3 : AllR x3) (h4 : AllR x4) (h5 : AllR x5) (h6 : AllR x6) (h7 : AllR x7) (h11 : AllR x11) :
    AllR (val_main_v91 (F := Ideal) x0 x1 x2 x3 x4 x5 x6 x7 x11) := by
  unfold val_main_v91
  exact allR_gather _ _ _ (real_v84 x0 x1 x2 x3 x4 x5 x6 x7 x11 h0 h2 h3 h4 h5 h6 h7 h11)

theorem real_v92 (h2 : AllR x2) :
    AllR (val_main_v92 (F := Ideal) x1 x2) := by
  unfold val_main_v92
  exact allR_broadcastInDim _ _ _ _ (real_v31 x1 x2 h2)

theorem real_v93 (h2 : AllR x2) :
    AllR (val_main_v93 (F := Ideal) x1 x2) := by
  unfold val_main_v93
  exact allR_broadcastInDim _ _ _ _ (real_v92 x1 x2 h2)

/-- The second layer's messages. -/
theorem real_v94 (h0 : AllR x0) (h2 : AllR x2) (h3 : AllR x3) (h4 : AllR x4) (h5 : AllR x5) (h6 : AllR x6) (h7 : AllR x7) (h11 : AllR x11) :
    AllR (val_main_v94 (F := Ideal) x0 x1 x2 x3 x4 x5 x6 x7 x11) := by
  unfold val_main_v94
  exact allR_mulf _ _ (real_v91 x0 x1 x2 x3 x4 x5 x6 x7 x11 h0 h2 h3 h4 h5 h6 h7 h11) (real_v93 x1 x2 h2)

theorem real_v95 :
    AllR (val_main_v95 (F := Ideal)) := by
  unfold val_main_v95 val_main_cst_17
  exact allR_broadcastInDim _ _ _ _ (allR_constant _ _ _ isR_ofBits_00000000)

/-- The second layer's aggregation. -/
theorem real_v97 (h0 : AllR x0) (h2 : AllR x2) (h3 : AllR x3) (h4 : AllR x4) (h5 : AllR x5) (h6 : AllR x6) (h7 : AllR x7) (h11 : AllR x11) :
    AllR (val_main_v97 (F := Ideal) x0 x1 x2 x3 x4 x5 x6 x7 x11) := by
  unfold val_main_v97
  exact allR_scatterAdd _ _ _ _ (real_v95) (real_v94 x0 x1 x2 x3 x4 x5 x6 x7 x11 h0 h2 h3 h4 h5 h6 h7 h11)

theorem real_v98 (h8 : AllR x8) :
    AllR (val_main_v98 (F := Ideal) x8) := by
  unfold val_main_v98
  exact allR_broadcastInDim _ _ _ _ h8

theorem real_v99 (h8 : AllR x8) :
    AllR (val_main_v99 (F := Ideal) x8) := by
  unfold val_main_v99
  exact allR_broadcastInDim _ _ _ _ (real_v98 x8 h8)

/-- The second layer's aggregated features have real entries. -/
theorem real_H2 (h0 : AllR x0) (h2 : AllR x2) (h3 : AllR x3) (h4 : AllR x4) (h5 : AllR x5) (h6 : AllR x6) (h7 : AllR x7) (h8 : AllR x8) (h11 : AllR x11) :
    AllR (val_main_v100 (F := Ideal) x0 x1 x2 x3 x4 x5 x6 x7 x8 x11) := by
  unfold val_main_v100
  exact allR_addf _ _ (real_v97 x0 x1 x2 x3 x4 x5 x6 x7 x11 h0 h2 h3 h4 h5 h6 h7 h11) (real_v99 x8 h8)

end Cert.RefStages

end
-- ==== Proof.Bridge.lean ====
/-
  The idealized kernel's result is the idealized reference's, as functions of the fourteen argument arrays. The comparison runs
  boundary by boundary along the kernel's @main, each live buffer identified with the reference's value of the same name in the
  mathematics:
    * the edge lists with the self-loops appended and the normalised edge weights are the same host operations in both programs;
    * each product of a row-blocked matrix by a weight matrix is the one matrix product, entry by entry the sum over the contracted axis;
    * the aggregation (gather the source rows, scale by the edge weight, scatter-add into the target rows, add the bias) is again the
      same host operations, applied to equal arrays;
    * the statistics kernels' column sums over twenty blocks of 5000 rows are the sums over all rows, so the kernel's mean S/N is the
      reference's; and the kernel's variance Q/N − (S/N)² is the reference's mean of squared deviations BECAUSE every aggregated entry
      is a real number — which the precondition gives, every operation on the way from the finite arguments keeping entries real;
    * the normalisation kernels apply, entry by entry, the same two functions the reference applies.
-/
import proofs.«151287_j81509889343954_1_alg».proof.Proof.KernelChain
import proofs.«151287_j81509889343954_1_alg».proof.Proof.HostRows
import proofs.«151287_j81509889343954_1_alg».proof.Proof.RefReadP
import proofs.«151287_j81509889343954_1_alg».proof.Proof.RefStages
import proofs.«151287_j81509889343954_1_alg».proof.Proof.LibRealEntries
import proofs.«151287_j81509889343954_1_alg».proof.Proof.LibBatchMoments
import proofs.«151287_j81509889343954_1_alg».proof.Proof.LibMatProduct
import proofs.«151287_j81509889343954_1_alg».proof.Proof.EntryFunctions
import Idealize.ShloMosaic.Lib.StableHlo.Run
import Idealize.ShloMosaic.Lib.Pipeline.Value
import Idealize.ShloMosaic.Lib.ValueIdx

set_option maxRecDepth 16384

noncomputable section

namespace Cert.Bridge

open Cert.KernelIdeal Cert.KernelIdeal.Gen Cert.KernelIdeal.Chain
open Cert.ReferenceIdeal.ReadP
open Idealize.ShloMosaic Idealize.ShloMosaic.TcCoe Idealize.SL.Sem Idealize.ShloMosaic.ValueIdx
open Cert.Lib.RealEntries

variable (m : (ℓ : Loc nD τ sig) → Buf (Elt Ideal) ℓ) (ρ : Dev nD → PrngReg) (c : Dev nD)

set_option quotPrecheck false in
local notation "a0" => m ((c : Thread nD τ).loc main_arg0)
set_option quotPrecheck false in
local notation "a1" => m ((c : Thread nD τ).loc main_arg1)
set_option quotPrecheck false in
local notation "a2" => m ((c : Thread nD τ).loc main_arg2)
set_option quotPrecheck false in
local notation "a3" => m ((c : Thread nD τ).loc main_arg3)
set_option quotPrecheck false in
local notation "a4" => m ((c : Thread nD τ).loc main_arg4)
set_option quotPrecheck false in
local notation "a5" => m ((c : Thread nD τ).loc main_arg5)
set_option quotPrecheck false in
local notation "a6" => m ((c : Thread nD τ).loc main_arg6)
set_option quotPrecheck false in
local notation "a7" => m ((c : Thread nD τ).loc main_arg7)
set_option quotPrecheck false in
local notation "a8" => m ((c : Thread nD τ).loc main_arg8)
set_option quotPrecheck false in
local notation "a9" => m ((c : Thread nD τ).loc main_arg9)
set_option quotPrecheck false in
local notation "a10" => m ((c : Thread nD τ).loc main_arg10)
set_option quotPrecheck false in
local notation "a11" => m ((c : Thread nD τ).loc main_arg11)
set_option quotPrecheck false in
local notation "a12" => m ((c : Thread nD τ).loc main_arg12)
set_option quotPrecheck false in
local notation "a13" => m ((c : Thread nD τ).loc main_arg13)

/-! ## The host operations before the first call -/

/-- The source-node list with the self-loops appended, after the first stretch. -/
theorem row1 : W1 m ρ c (Proc.devRef .tc main_v5) = val_main_v5 (F := Ideal) a1 := by
  show StableHlo.after hostOps0 (W0 m ρ c) (Proc.devRef .tc main_v5) = _
  after_results
  rfl

/-- The target-node list with the self-loops appended. -/
theorem col1 : W1 m ρ c (Proc.devRef .tc main_v6) = val_main_v6 (F := Ideal) a1 := by
  show StableHlo.after hostOps0 (W0 m ρ c) (Proc.devRef .tc main_v6) = _
  after_results
  rfl

/-- The edge weights with a unit weight for every self-loop. -/
theorem wgt1 : W1 m ρ c (Proc.devRef .tc main_v8) = val_main_v8 (F := Ideal) a2 := by
  show StableHlo.after hostOps0 (W0 m ρ c) (Proc.devRef .tc main_v8) = _
  after_results
  rfl

set_option maxHeartbeats 1600000 in
/-- Where the weighted in-degree is positive. -/
theorem pos1 : W1 m ρ c (Proc.devRef .tc main_v13) = val_main_v13 (F := Ideal) a1 a2 := by
  show StableHlo.after hostOps0 (W0 m ρ c) (Proc.devRef .tc main_v13) = _
  after_results
  rfl

set_option maxHeartbeats 1600000 in
/-- The inverse square root of the weighted in-degree. -/
theorem rs1 : W1 m ρ c (Proc.devRef .tc main_v14) = val_main_v14 (F := Ideal) a1 a2 := by
  show StableHlo.after hostOps0 (W0 m ρ c) (Proc.devRef .tc main_v14) = _
  after_results
  rfl

/-- The zero the mask falls back to. -/
theorem zero1 : W1 m ρ c (Proc.devRef .tc main_cst_2) = val_main_cst_2 (F := Ideal) := by
  show StableHlo.after hostOps0 (W0 m ρ c) (Proc.devRef .tc main_cst_2) = _
  after_results
  rfl

/-- Contents read through a typed reference of a called function, at a reference whose buffer type is the value's type on the nose. -/
theorem ofBuf_v13 (p1 p2 p3) (v : (⟨S100000, .i1⟩ : BufTy).Contents (Elt Ideal)) :
    (StableHlo.TRef.of (sig := sig) (T := ⟨S100000, .i1⟩) main_v13 p1 p2 p3).ofBuf v = v := rfl
theorem ofBuf_v14 (p1 p2 p3) (v : (⟨S100000, .f32⟩ : BufTy).Contents (Elt Ideal)) :
    (StableHlo.TRef.of (sig := sig) (T := ⟨S100000, .f32⟩) main_v14 p1 p2 p3).ofBuf v = v := rfl
theorem ofBuf_cst2 (p1 p2 p3) (v : (⟨S_, .f32⟩ : BufTy).Contents (Elt Ideal)) :
    (StableHlo.TRef.of (sig := sig) (T := ⟨S_, .f32⟩) main_cst_2 p1 p2 p3).ofBuf v = v := rfl
theorem toBuf_v15 (p1 p2 p3) (v : (⟨S100000, .f32⟩ : BufTy).Contents (Elt Ideal)) :
    (StableHlo.TRef.of (sig := sig) (T := ⟨S100000, .f32⟩) main_v15 p1 p2 p3).toBuf v = v := rfl
/-- Contents moved to a buffer's own type and back are unchanged. -/
theorem ofBuf_toBuf' {T : BufTy} (x : StableHlo.TRef sig T) (v : T.Contents (Elt Ideal)) : x.ofBuf (x.toBuf v) = v := by
  obtain ⟨r, h, h1, h2⟩ := x
  subst h
  rfl

/-- The masked inverse square root of the weighted in-degrees: the called function's three operations over the first stretch's values. -/
theorem dinv2 : W2 m ρ c (Proc.devRef .tc main_v15) = val_main_v15 (F := Ideal) a1 a2 := by
  show StableHlo.after hostOps0_1 (W1 m ρ c) (Proc.devRef .tc main_v15) = _
  generalize hW : W1 m ρ c = Wv
  after_results
  subst hW
  rw [pos1, rs1, zero1]
  rw [ofBuf_toBuf', ofBuf_toBuf', ofBuf_v13, ofBuf_v14, ofBuf_cst2, toBuf_v15]
  rfl

theorem row2 : W2 m ρ c (Proc.devRef .tc main_v5) = val_main_v5 (F := Ideal) a1 :=
  (show W2 m ρ c (Proc.devRef .tc main_v5) = W1 m ρ c (Proc.devRef .tc main_v5) from by host_keeps hostOps0_1).trans (row1 m ρ c)

theorem col2 : W2 m ρ c (Proc.devRef .tc main_v6) = val_main_v6 (F := Ideal) a1 :=
  (show W2 m ρ c (Proc.devRef .tc main_v6) = W1 m ρ c (Proc.devRef .tc main_v6) from by host_keeps hostOps0_1).trans (col1 m ρ c)

theorem wgt2 : W2 m ρ c (Proc.devRef .tc main_v8) = val_main_v8 (F := Ideal) a2 :=
  (show W2 m ρ c (Proc.devRef .tc main_v8) = W1 m ρ c (Proc.devRef .tc main_v8) from by host_keeps hostOps0_1).trans (wgt1 m ρ c)

theorem row_at : W3 m ρ c (Proc.devRef .tc main_v5) = val_main_v5 (F := Ideal) a1 :=
  (show W3 m ρ c (Proc.devRef .tc main_v5) = W2 m ρ c (Proc.devRef .tc main_v5) from by host_keeps hostOps0_2).trans (row2 m ρ c)

theorem col_at : W3 m ρ c (Proc.devRef .tc main_v6) = val_main_v6 (F := Ideal) a1 :=
  (show W3 m ρ c (Proc.devRef .tc main_v6) = W2 m ρ c (Proc.devRef .tc main_v6) from by host_keeps hostOps0_2).trans (col2 m ρ c)

set_option maxHeartbeats 3200000 in
/-- The symmetric normalisation's weight of every edge: the third stretch's operations over the earlier values. -/
theorem nrm_at : W3 m ρ c (Proc.devRef .tc main_v31) = val_main_v31 (F := Ideal) a1 a2 := by
  show StableHlo.after hostOps0_2 (W2 m ρ c) (Proc.devRef .tc main_v31) = _
  generalize hW : W2 m ρ c = Wv
  after_results_simp
  subst hW
  rw [dinv2, row2, col2, wgt2]
  rfl

/-- The residual's bias laid out as a row. -/
theorem brow_at : W3 m ρ c (Proc.devRef .tc main_v32) = shapeCast S1x32 a13 shapeCasts_S32_S1x32 := by
  show StableHlo.after hostOps0_2 (W2 m ρ c) (Proc.devRef .tc main_v32) = _
  generalize hW : W2 m ρ c = Wv
  after_results_simp
  subst hW
  rw [keep_arg13_0_2]
  rfl

/-! ## The reference's normalised layers at an entry -/

section Reference

variable (x0 : (⟨Cert.ReferenceIdeal.S100000x256, .f32⟩ : BufTy).Contents (Elt Ideal)) (x1 : (⟨Cert.ReferenceIdeal.S2x1600000, .i32⟩ : BufTy).Contents (Elt Ideal))
  (x2 : (⟨Cert.ReferenceIdeal.S1600000, .f32⟩ : BufTy).Contents (Elt Ideal)) (x3 : (⟨Cert.ReferenceIdeal.S256x64, .f32⟩ : BufTy).Contents (Elt Ideal))
  (x4 x5 x6 : (⟨Cert.ReferenceIdeal.S64, .f32⟩ : BufTy).Contents (Elt Ideal)) (x7 : (⟨Cert.ReferenceIdeal.S64x32, .f32⟩ : BufTy).Contents (Elt Ideal))
  (x8 x9 x10 : (⟨Cert.ReferenceIdeal.S32, .f32⟩ : BufTy).Contents (Elt Ideal)) (x11 : (⟨Cert.ReferenceIdeal.S1, .f32⟩ : BufTy).Contents (Elt Ideal))
  (x12 : (⟨Cert.ReferenceIdeal.S256x32, .f32⟩ : BufTy).Contents (Elt Ideal)) (x13 : (⟨Cert.ReferenceIdeal.S32, .f32⟩ : BufTy).Contents (Elt Ideal))

/-- The reference's first layer after normalisation and the rectifier, at entry (p, q): the two entry functions applied to the
    aggregated feature's entry, column q of the mean and the variance, of the scale and the shift, and the slope. -/
theorem ref_act1_at (p : Fin 100000) (q : Fin 64) :
    val_main_v83 (F := Ideal) x0 x1 x2 x3 x4 x5 x6 x11 (ix2 p q)
      = Cert.Entry.rect (x11 (ix1 (0 : Fin 1)))
          (Cert.Entry.bn (val_main_v52 (F := Ideal) x0 x1 x2 x3 x4 (ix2 p q)) (val_main_v55 (F := Ideal) x0 x1 x2 x3 x4 (ix1 q))
            (val_main_v62 (F := Ideal) x0 x1 x2 x3 x4 (ix1 q)) (x5 (ix1 q)) (x6 (ix1 q))) := by
  have e64 : idx_main_v63 (idx_main_v64 (ix2 p q)) = ix1 q := funext fun a => Fin.ext (by match a with | ⟨0, _⟩ => rfl)
  have e73 : idx_main_v72 (idx_main_v73 (ix2 p q)) = ix1 q := funext fun a => Fin.ext (by match a with | ⟨0, _⟩ => rfl)
  have e67 : idx_main_v66 (idx_main_v67 (ix2 p q)) = ix1 q := funext fun a => Fin.ext (by match a with | ⟨0, _⟩ => rfl)
  have e76 : idx_main_v75 (idx_main_v76 (ix2 p q)) = ix1 q := funext fun a => Fin.ext (by match a with | ⟨0, _⟩ => rfl)
  have e80 : val_main_v80 (F := Ideal) x11 (idx_main_v81 (ix2 p q)) = x11 (ix1 (0 : Fin 1)) := by
    unfold val_main_v80
    exact shapeCast_apply x11 _ _ _ (by rw [Shape.rowMajor_val_one]; exact (Shape.rowMajorPi_zero _ _).symm)
  rw [val_main_v83_apply, val_main_v79_apply, val_main_v82_apply, val_main_v81_apply, val_main_v78_apply, val_main_cst_14_apply, val_main_v77_apply, val_main_v74_apply, val_main_v76_apply, val_main_v75_apply, val_main_v68_apply, val_main_v67_apply, val_main_v66_apply, val_main_v65_apply, val_main_v64_apply, val_main_v63_apply, val_main_v73_apply, val_main_v72_apply, val_main_v71_apply, val_main_v70_apply, val_main_v69_apply, val_main_cst_13_apply, e64, e73, e67, e76, e80]
  rfl

/-- The reference's result at entry (p, q): the normalised second layer plus the residual. -/
theorem ref_out_at (p : Fin 100000) (q : Fin 32) :
    val_main_v126 (F := Ideal) x0 x1 x2 x3 x4 x5 x6 x7 x8 x9 x10 x11 x12 x13 (ix2 p q)
      = Cert.Entry.bn (val_main_v100 (F := Ideal) x0 x1 x2 x3 x4 x5 x6 x7 x8 x11 (ix2 p q)) (val_main_v103 (F := Ideal) x0 x1 x2 x3 x4 x5 x6 x7 x8 x11 (ix1 q))
            (val_main_v110 (F := Ideal) x0 x1 x2 x3 x4 x5 x6 x7 x8 x11 (ix1 q)) (x9 (ix1 q)) (x10 (ix1 q))
          + val_main_v35 (F := Ideal) x0 x12 x13 (ix2 p q) := by
  have e112 : idx_main_v111 (idx_main_v112 (ix2 p q)) = ix1 q := funext fun a => Fin.ext (by match a with | ⟨0, _⟩ => rfl)
  have e121 : idx_main_v120 (idx_main_v121 (ix2 p q)) = ix1 q := funext fun a => Fin.ext (by match a with | ⟨0, _⟩ => rfl)
  have e115 : idx_main_v114 (idx_main_v115 (ix2 p q)) = ix1 q := funext fun a => Fin.ext (by match a with | ⟨0, _⟩ => rfl)
  have e124 : idx_main_v123 (idx_main_v124 (ix2 p q)) = ix1 q := funext fun a => Fin.ext (by match a with | ⟨0, _⟩ => rfl)
  rw [val_main_v126_apply, val_main_v125_apply, val_main_v122_apply, val_main_v124_apply, val_main_v123_apply, val_main_v116_apply, val_main_v115_apply, val_main_v114_apply, val_main_v113_apply, val_main_v112_apply, val_main_v111_apply, val_main_v121_apply, val_main_v120_apply, val_main_v119_apply, val_main_v118_apply, val_main_v117_apply, val_main_cst_22_apply, e112, e121, e115, e124]
  rfl

end Reference

/-! ## The first call and the first aggregation -/

/-- The first product is the reference's x·W1. -/
theorem h1pre_at : W4 m ρ c (Proc.devRef .tc main_v33_0) = val_main_v36 (F := Ideal) a0 a3 := by
  rw [prod1_at, keep_arg0_0_3, keep_arg3_0_3]
  unfold val_main_v36
  exact (Cert.Dense.dotGeneral_eq_mm Cert.ReferenceIdeal.dot_S100000x256_S256x64_S100000x64_1_0_0_1_n_n rfl rfl rfl rfl rfl rfl _ _).symm

/-- The second product with the bias row is the reference's residual x·Wr + br. -/
theorem xinit_at : W4 m ρ c (Proc.devRef .tc main_v33_1) = val_main_v35 (F := Ideal) a0 a12 a13 := by
  rw [prod2_at, keep_arg0_0_3, keep_arg12_0_3, brow_at]
  funext i
  obtain ⟨p, q, rfl⟩ : ∃ (p : Fin 100000) (q : Fin 32), i = ix2 p q := ⟨i 0, i 1, eq_ix2 i⟩
  have e34 : idx_main_v33 (idx_main_v34 (ix2 p q)) = ix1 q := funext fun a => Fin.ext (by match a with | ⟨0, _⟩ => rfl)
  rw [val_main_v35_apply, val_main_v34_apply, val_main_v33_apply, e34]
  unfold val_main_v32
  rw [Cert.Dense.dotGeneral_eq_mm Cert.ReferenceIdeal.dot_S100000x256_S256x32_S100000x32_1_0_0_1_n_n rfl rfl rfl rfl rfl rfl]
  show Cert.Dense.mm _ _ (ix2 p q) + shapeCast S1x32 _ shapeCasts_S32_S1x32 (ix2 (0 : Fin 1) q) = _
  rw [HostRows.rowCast_at]
  rfl

set_option maxHeartbeats 3200000 in
/-- The first aggregated features are the reference's. -/
theorem agg1_at : W5 m ρ c (Proc.devRef .tc main_v49) = val_main_v52 (F := Ideal) a0 a1 a2 a3 a4 := by
  show StableHlo.after hostOps1 (W4 m ρ c) (Proc.devRef .tc main_v49) = _
  after_results_simp
  rw [h1pre_at, keep_v5_3_4, row_at, keep_v6_3_4, col_at, keep_v31_3_4, nrm_at, keep_arg4_0_4]
  rfl

end Cert.Bridge

end
-- ==== Proof.BridgeLayers.lean ====
/-
  The two normalised layers. The kernel takes each column's mean as S/N and its variance as Q/N − (S/N)², with S and Q the column's
  sums of the entries and of their squares over the 100000 rows and N the constant 100000; the reference takes the mean as (0 + S)/N
  and the variance as the mean of the squared deviations from that mean. For a column of real numbers the two agree (expand the
  square: Σ(h − μ)² = Σh² − 2μΣh + Nμ² = Q − Nμ², since Σh = Nμ), and every aggregated entry is a real number because every
  operation on the way from the finite arguments keeps entries real. The column statistics are first compared for an arbitrary
  column of real entries and then read at the aggregated arrays; with the statistics equal, the normalisation kernels apply entry
  by entry the same two functions the reference applies, which gives the first layer and then the result.
-/
import proofs.«151287_j81509889343954_1_alg».proof.Proof.Bridge
import proofs.«151287_j81509889343954_1_alg».proof.Proof.KernelChain
import proofs.«151287_j81509889343954_1_alg».proof.Proof.HostRows
import proofs.«151287_j81509889343954_1_alg».proof.Proof.RefReadP
import proofs.«151287_j81509889343954_1_alg».proof.Proof.RefStages
import proofs.«151287_j81509889343954_1_alg».proof.Proof.LibRealEntries
import proofs.«151287_j81509889343954_1_alg».proof.Proof.LibBatchMoments
import proofs.«151287_j81509889343954_1_alg».proof.Proof.LibMatProduct
import proofs.«151287_j81509889343954_1_alg».proof.Proof.EntryFunctions
import Idealize.ShloMosaic.Lib.StableHlo.Run
import Idealize.ShloMosaic.Lib.Pipeline.Value
import Idealize.ShloMosaic.Lib.ValueIdx

set_option maxRecDepth 16384

noncomputable section

namespace Cert.Bridge

open Cert.KernelIdeal Cert.KernelIdeal.Gen Cert.KernelIdeal.Chain
open Cert.ReferenceIdeal.ReadP
open Idealize.ShloMosaic Idealize.ShloMosaic.TcCoe Idealize.SL.Sem Idealize.ShloMosaic.ValueIdx
open Cert.Lib.RealEntries

variable (m : (ℓ : Loc nD τ sig) → Buf (Elt Ideal) ℓ) (ρ : Dev nD → PrngReg) (c : Dev nD)

set_option quotPrecheck false in
local notation "a0" => m ((c : Thread nD τ).loc main_arg0)
set_option quotPrecheck false in
local notation "a1" => m ((c : Thread nD τ).loc main_arg1)
set_option quotPrecheck false in
local notation "a2" => m ((c : Thread nD τ).loc main_arg2)
set_option quotPrecheck false in
local notation "a3" => m ((c : Thread nD τ).loc main_arg3)
set_option quotPrecheck false in
local notation "a4" => m ((c : Thread nD τ).loc main_arg4)
set_option quotPrecheck false in
local notation "a5" => m ((c : Thread nD τ).loc main_arg5)
set_option quotPrecheck false in
local notation "a6" => m ((c : Thread nD τ).loc main_arg6)
set_option quotPrecheck false in
local notation "a7" => m ((c : Thread nD τ).loc main_arg7)
set_option quotPrecheck false in
local notation "a8" => m ((c : Thread nD τ).loc main_arg8)
set_option quotPrecheck false in
local notation "a9" => m ((c : Thread nD τ).loc main_arg9)
set_option quotPrecheck false in
local notation "a10" => m ((c : Thread nD τ).loc main_arg10)
set_option quotPrecheck false in
local notation "a11" => m ((c : Thread nD τ).loc main_arg11)
set_option quotPrecheck false in
local notation "a12" => m ((c : Thread nD τ).loc main_arg12)
set_option quotPrecheck false in
local notation "a13" => m ((c : Thread nD τ).loc main_arg13)

/-! ## The statistics of one column of real entries -/

/-- The mean of a column of 100000 real entries: the sum over the constant 100000 is the sum from the initial value 0 over the real
    number 100000. -/
theorem col_mean (f : Fin 100000 → EReal) (hf : ∀ p, IsR (f p)) :
    Ideal.div (∑ p, f p) HostRows.cN = Ideal.div (0 + ∑ p, f p) ((100000 : ℝ) : EReal) := by
  show Ideal.div (∑ p, f p) (Ideal.ofBits .f32 0x47C35000#32) = _
  rw [ofBits_47C35000]
  exact (Cert.Lib.BatchMoments.moments_bridge (n := 100000) (N := 100000) (by norm_num) (by norm_num) f hf).1

/-- The variance of a column of 100000 real entries: the mean of the squares minus the square of the mean is the mean of the squared
    deviations from the mean. -/
theorem col_var (f : Fin 100000 → EReal) (hf : ∀ p, IsR (f p)) :
    Ideal.div (∑ p, f p * f p) HostRows.cN - Ideal.div (∑ p, f p) HostRows.cN * Ideal.div (∑ p, f p) HostRows.cN
      = Ideal.div (0 + ∑ p, (f p - Ideal.div (0 + ∑ p', f p') ((100000 : ℝ) : EReal))
          * (f p - Ideal.div (0 + ∑ p', f p') ((100000 : ℝ) : EReal))) ((100000 : ℝ) : EReal) := by
  show Ideal.div (∑ p, f p * f p) (Ideal.ofBits .f32 0x47C35000#32)
      - Ideal.div (∑ p, f p) (Ideal.ofBits .f32 0x47C35000#32) * Ideal.div (∑ p, f p) (Ideal.ofBits .f32 0x47C35000#32) = _
  rw [ofBits_47C35000]
  exact (Cert.Lib.BatchMoments.moments_bridge (n := 100000) (N := 100000) (by norm_num) (by norm_num) f hf).2.1

/-! ## The first batch normalisation -/

section Layer1

/-- The kernel's mean row is the reference's mean, column by column. -/
theorem mean1_eq (h0 : AllR (a0 : S100000x256.Idx → EReal)) (h2 : AllR (a2 : S1600000.Idx → EReal))
    (h3 : AllR (a3 : S256x64.Idx → EReal)) (h4 : AllR (a4 : S64.Idx → EReal))
    (q : Fin 64) : W7 m ρ c (Proc.devRef .tc main_v52) (ix2 (0 : Fin 1) q) = val_main_v55 (F := Ideal) a0 a1 a2 a3 a4 (ix1 q) := by
  have hR := Cert.RefStages.real_H1 a0 a1 a2 a3 a4 h0 h2 h3 h4
  have eK : W7 m ρ c (Proc.devRef .tc main_v52) (ix2 (0 : Fin 1) q)
      = Ideal.div (ColumnSums.colSums (W5 m ρ c (Proc.devRef .tc main_v49)) (ix2 (0 : Fin 1) q)) HostRows.cN := by
    rw [HostRows.mean1_at, sums1_at]
  have eA := agg1_at m ρ c
  have eR := Cert.RefStages.mean1_at a0 a1 a2 a3 a4 q
  generalize val_main_v52 (F := Ideal) a0 a1 a2 a3 a4 = H at hR eA eR
  refine (eK.trans ?_).trans eR.symm
  rw [eA]
  exact col_mean (fun p => H (ix2 p q)) (fun p => hR (ix2 p q))

/-- The kernel's variance row E[h²] − mean² is the reference's mean of squared deviations, every aggregated entry being real. -/
theorem var1_eq (h0 : AllR (a0 : S100000x256.Idx → EReal)) (h2 : AllR (a2 : S1600000.Idx → EReal))
    (h3 : AllR (a3 : S256x64.Idx → EReal)) (h4 : AllR (a4 : S64.Idx → EReal))
    (q : Fin 64) : W7 m ρ c (Proc.devRef .tc main_v56) (ix2 (0 : Fin 1) q) = val_main_v62 (F := Ideal) a0 a1 a2 a3 a4 (ix1 q) := by
  have hR := Cert.RefStages.real_H1 a0 a1 a2 a3 a4 h0 h2 h3 h4
  have eK : W7 m ρ c (Proc.devRef .tc main_v56) (ix2 (0 : Fin 1) q)
      = Ideal.div (ColumnSums.colSqSums (W5 m ρ c (Proc.devRef .tc main_v49)) (ix2 (0 : Fin 1) q)) HostRows.cN
        - Ideal.div (ColumnSums.colSums (W5 m ρ c (Proc.devRef .tc main_v49)) (ix2 (0 : Fin 1) q)) HostRows.cN
          * Ideal.div (ColumnSums.colSums (W5 m ρ c (Proc.devRef .tc main_v49)) (ix2 (0 : Fin 1) q)) HostRows.cN := by
    rw [HostRows.var1_at, sums1_at, sqsums1_at]
  have eA := agg1_at m ρ c
  have eR := Cert.RefStages.var1_at a0 a1 a2 a3 a4 q
  generalize val_main_v52 (F := Ideal) a0 a1 a2 a3 a4 = H at hR eA eR
  refine (eK.trans ?_).trans eR.symm
  rw [eA]
  exact col_var (fun p => H (ix2 p q)) (fun p => hR (ix2 p q))

/-- The first normalised, rectified layer is the reference's. -/
theorem act1_at (h0 : AllR (a0 : S100000x256.Idx → EReal)) (h2 : AllR (a2 : S1600000.Idx → EReal))
    (h3 : AllR (a3 : S256x64.Idx → EReal)) (h4 : AllR (a4 : S64.Idx → EReal)) : W8 m ρ c (Proc.devRef .tc main_v60) = val_main_v83 (F := Ideal) a0 a1 a2 a3 a4 a5 a6 a11 := by
  rw [layer1_at]
  funext i
  obtain ⟨p, q, rfl⟩ : ∃ (p : Fin 100000) (q : Fin 64), i = ix2 p q := ⟨i 0, i 1, eq_ix2 i⟩
  rw [ref_act1_at]
  show Cert.Entry.rect (W7 m ρ c (Proc.devRef .tc main_v59) (ix2 (0 : Fin 1) (0 : Fin 1)))
      (Cert.Entry.bn (W7 m ρ c (Proc.devRef .tc main_v49) (ix2 p q)) (W7 m ρ c (Proc.devRef .tc main_v52) (ix2 (0 : Fin 1) q))
        (W7 m ρ c (Proc.devRef .tc main_v56) (ix2 (0 : Fin 1) q)) (W7 m ρ c (Proc.devRef .tc main_v57) (ix2 (0 : Fin 1) q))
        (W7 m ρ c (Proc.devRef .tc main_v58) (ix2 (0 : Fin 1) q))) = _
  rw [HostRows.slope_at, HostRows.scale1_at, HostRows.shift1_at, keep_arg11_0_6, keep_arg5_0_6, keep_arg6_0_6, keep_v49_5_7, agg1_at,
    mean1_eq m ρ c h0 h2 h3 h4, var1_eq m ρ c h0 h2 h3 h4]

end Layer1

/-! ## The second layer -/

section Layer2

/-- The second product is the reference's. -/
theorem h2pre_at (h0 : AllR (a0 : S100000x256.Idx → EReal)) (h2 : AllR (a2 : S1600000.Idx → EReal))
    (h3 : AllR (a3 : S256x64.Idx → EReal)) (h4 : AllR (a4 : S64.Idx → EReal)) (h5 : AllR (a5 : S64.Idx → EReal)) (h6 : AllR (a6 : S64.Idx → EReal))
    (h7 : AllR (a7 : S64x32.Idx → EReal)) (h8 : AllR (a8 : S32.Idx → EReal)) (h11 : AllR (a11 : S1.Idx → EReal)) : W9 m ρ c (Proc.devRef .tc main_v61) = val_main_v84 (F := Ideal) a0 a1 a2 a3 a4 a5 a6 a7 a11 := by
  rw [prod3_at, act1_at m ρ c h0 h2 h3 h4, keep_arg7_0_8]
  unfold val_main_v84
  exact (Cert.Dense.dotGeneral_eq_mm Cert.ReferenceIdeal.dot_S100000x64_S64x32_S100000x32_1_0_0_1_n_n rfl rfl rfl rfl rfl rfl _ _).symm

set_option maxHeartbeats 3200000 in
/-- The second aggregated features are the reference's. -/
theorem agg2_at (h0 : AllR (a0 : S100000x256.Idx → EReal)) (h2 : AllR (a2 : S1600000.Idx → EReal))
    (h3 : AllR (a3 : S256x64.Idx → EReal)) (h4 : AllR (a4 : S64.Idx → EReal)) (h5 : AllR (a5 : S64.Idx → EReal)) (h6 : AllR (a6 : S64.Idx → EReal))
    (h7 : AllR (a7 : S64x32.Idx → EReal)) (h8 : AllR (a8 : S32.Idx → EReal)) (h11 : AllR (a11 : S1.Idx → EReal)) : W10 m ρ c (Proc.devRef .tc main_v77) = val_main_v100 (F := Ideal) a0 a1 a2 a3 a4 a5 a6 a7 a8 a11 := by
  show StableHlo.after hostOps4 (W9 m ρ c) (Proc.devRef .tc main_v77) = _
  after_results_simp
  rw [h2pre_at m ρ c h0 h2 h3 h4 h5 h6 h7 h8 h11, keep_v5_4_9, keep_v5_3_4, row_at, keep_v6_4_9, keep_v6_3_4, col_at, keep_v31_4_9, keep_v31_3_4, nrm_at, keep_arg8_0_9]
  rfl

/-- The kernel's second mean row is the reference's mean, column by column. -/
theorem mean2_eq (h0 : AllR (a0 : S100000x256.Idx → EReal)) (h2 : AllR (a2 : S1600000.Idx → EReal))
    (h3 : AllR (a3 : S256x64.Idx → EReal)) (h4 : AllR (a4 : S64.Idx → EReal)) (h5 : AllR (a5 : S64.Idx → EReal)) (h6 : AllR (a6 : S64.Idx → EReal))
    (h7 : AllR (a7 : S64x32.Idx → EReal)) (h8 : AllR (a8 : S32.Idx → EReal)) (h11 : AllR (a11 : S1.Idx → EReal))
    (q : Fin 32) : W12 m ρ c (Proc.devRef .tc main_v80) (ix2 (0 : Fin 1) q) = val_main_v103 (F := Ideal) a0 a1 a2 a3 a4 a5 a6 a7 a8 a11 (ix1 q) := by
  have hR := Cert.RefStages.real_H2 a0 a1 a2 a3 a4 a5 a6 a7 a8 a11 h0 h2 h3 h4 h5 h6 h7 h8 h11
  have eK : W12 m ρ c (Proc.devRef .tc main_v80) (ix2 (0 : Fin 1) q)
      = Ideal.div (ColumnSums2.colSums (W10 m ρ c (Proc.devRef .tc main_v77)) (ix2 (0 : Fin 1) q)) HostRows.cN := by
    rw [HostRows.mean2_at, sums2_at]
  have eA := agg2_at m ρ c h0 h2 h3 h4 h5 h6 h7 h8 h11
  have eR := Cert.RefStages.mean2_at a0 a1 a2 a3 a4 a5 a6 a7 a8 a11 q
  generalize val_main_v100 (F := Ideal) a0 a1 a2 a3 a4 a5 a6 a7 a8 a11 = H at hR eA eR
  refine (eK.trans ?_).trans eR.symm
  rw [eA]
  exact col_mean (fun p => H (ix2 p q)) (fun p => hR (ix2 p q))

/-- The kernel's second variance row is the reference's mean of squared deviations, every aggregated entry being real. -/
theorem var2_eq (h0 : AllR (a0 : S100000x256.Idx → EReal)) (h2 : AllR (a2 : S1600000.Idx → EReal))
    (h3 : AllR (a3 : S256x64.Idx → EReal)) (h4 : AllR (a4 : S64.Idx → EReal)) (h5 : AllR (a5 : S64.Idx → EReal)) (h6 : AllR (a6 : S64.Idx → EReal))
    (h7 : AllR (a7 : S64x32.Idx → EReal)) (h8 : AllR (a8 : S32.Idx → EReal)) (h11 : AllR (a11 : S1.Idx → EReal))
    (q : Fin 32) : W12 m ρ c (Proc.devRef .tc main_v84) (ix2 (0 : Fin 1) q) = val_main_v110 (F := Ideal) a0 a1 a2 a3 a4 a5 a6 a7 a8 a11 (ix1 q) := by
  have hR := Cert.RefStages.real_H2 a0 a1 a2 a3 a4 a5 a6 a7 a8 a11 h0 h2 h3 h4 h5 h6 h7 h8 h11
  have eK : W12 m ρ c (Proc.devRef .tc main_v84) (ix2 (0 : Fin 1) q)
      = Ideal.div (ColumnSums2.colSqSums (W10 m ρ c (Proc.devRef .tc main_v77)) (ix2 (0 : Fin 1) q)) HostRows.cN
        - Ideal.div (ColumnSums2.colSums (W10 m ρ c (Proc.devRef .tc main_v77)) (ix2 (0 : Fin 1) q)) HostRows.cN
          * Ideal.div (ColumnSums2.colSums (W10 m ρ c (Proc.devRef .tc main_v77)) (ix2 (0 : Fin 1) q)) HostRows.cN := by
    rw [HostRows.var2_at, sums2_at, sqsums2_at]
  have eA := agg2_at m ρ c h0 h2 h3 h4 h5 h6 h7 h8 h11
  have eR := Cert.RefStages.var2_at a0 a1 a2 a3 a4 a5 a6 a7 a8 a11 q
  generalize val_main_v100 (F := Ideal) a0 a1 a2 a3 a4 a5 a6 a7 a8 a11 = H at hR eA eR
  refine (eK.trans ?_).trans eR.symm
  rw [eA]
  exact col_var (fun p => H (ix2 p q)) (fun p => hR (ix2 p q))

/-- THE RESULT: the kernel's result buffer holds the reference's result. -/
theorem result_eq (h0 : AllR (a0 : S100000x256.Idx → EReal)) (h2 : AllR (a2 : S1600000.Idx → EReal))
    (h3 : AllR (a3 : S256x64.Idx → EReal)) (h4 : AllR (a4 : S64.Idx → EReal)) (h5 : AllR (a5 : S64.Idx → EReal)) (h6 : AllR (a6 : S64.Idx → EReal))
    (h7 : AllR (a7 : S64x32.Idx → EReal)) (h8 : AllR (a8 : S32.Idx → EReal)) (h11 : AllR (a11 : S1.Idx → EReal)) : W13 m ρ c (Proc.devRef .tc main_v87) = val_main_v126 (F := Ideal) a0 a1 a2 a3 a4 a5 a6 a7 a8 a9 a10 a11 a12 a13 := by
  rw [layer2_at]
  funext i
  obtain ⟨p, q, rfl⟩ : ∃ (p : Fin 100000) (q : Fin 32), i = ix2 p q := ⟨i 0, i 1, eq_ix2 i⟩
  rw [ref_out_at]
  show Cert.Entry.bn (W12 m ρ c (Proc.devRef .tc main_v77) (ix2 p q)) (W12 m ρ c (Proc.devRef .tc main_v80) (ix2 (0 : Fin 1) q))
        (W12 m ρ c (Proc.devRef .tc main_v84) (ix2 (0 : Fin 1) q)) (W12 m ρ c (Proc.devRef .tc main_v85) (ix2 (0 : Fin 1) q))
        (W12 m ρ c (Proc.devRef .tc main_v86) (ix2 (0 : Fin 1) q)) + W12 m ρ c (Proc.devRef .tc main_v33_1) (ix2 p q) = _
  rw [HostRows.scale2_at, HostRows.shift2_at, keep_arg9_0_11, keep_arg10_0_11, keep_v77_10_12, agg2_at m ρ c h0 h2 h3 h4 h5 h6 h7 h8 h11,
    keep_v33_1_4_12, xinit_at, mean2_eq m ρ c h0 h2 h3 h4 h5 h6 h7 h8 h11, var2_eq m ρ c h0 h2 h3 h4 h5 h6 h7 h8 h11]

end Layer2

end Cert.Bridge

end
-- ==== Proof.LibFiniteInputs.lean ====
/-
  Finiteness of an input array, read back from one conjunct of a precondition of the usual form
  "all(|a| < +inf)".

  Such a conjunct compares, entry by entry, the absolute value of the array with the scalar whose pattern has an
  all-ones exponent field and a zero significand, broadcast to the array's shape, and reduces the comparison by
  conjunction over every axis into a single bit. Over the extended reals that pattern denotes +∞ and the absolute
  value of x is max(x, −x); a reduction by conjunction into a single bit that is one has every element one; and
  max(x, −x) < +∞ rules out x = +∞ and x = −∞, leaving a real number. So if the conjunct's bit is one, every entry of
  the array is (the inclusion of) a real number — which is what a law that needs distributivity or cancellation asks.
  A precondition that joins several such conjuncts by `and` is split with `IntOp.andi_eq_one` first.
-/
import Idealize.ShloMosaic.Lib.ReduceAll
import Idealize.ShloMosaic.Lib.ValueIdx
import Idealize.ShloMosaic.PureOps.Ideal

noncomputable section

namespace Cert.Lib.FiniteInputs

open Idealize.ShloMosaic

/-- The single-precision pattern with an all-ones exponent field, zero significand and clear sign denotes +∞. -/
theorem ofBits_pos_inf : Ideal.ofBits .f32 0x7F800000#32 = (⊤ : EReal) := by
  simp [Ideal.ofBits, Ideal.ieee]

/-- An extended real whose absolute value max(x, −x) is strictly below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The rank-zero shape has a single index. -/
instance subsingleton_scalar_idx : Subsingleton (⟨0, ![]⟩ : Shape).Idx := ⟨fun _ _ => funext fun d => d.elim0⟩

/-- One conjunct: if "every entry's absolute value is below the all-ones-exponent pattern", reduced by conjunction
    over all axes into one bit, is one, then every entry of the array is real. -/
theorem real_of_all_lt_inf {s : Shape} {axes : List (Fin s.rank)} (a : FVec Ideal s .f32)
    (bc : (⟨0, ![]⟩ : Shape).BroadcastsInDim s (![] : Fin 0 → Fin s.rank))
    (hr : s.ReducesTo axes (⟨0, ![]⟩ : Shape)) (hu : 0 < (⟨0, ![]⟩ : Shape).numel)
    (init : IVec (⟨0, ![]⟩ : Shape) 1) (j : (⟨0, ![]⟩ : Shape).Idx)
    (e : Host.reduce IntOp.andi
        (cmpf .olt (Host.absf a)
          (broadcastInDim s ![] bc (constant (F := Ideal) (⟨0, ![]⟩ : Shape) .f32 0x7F800000#32)))
        init hr hu j = 1#1) :
    ∀ i, ∃ r : ℝ, a i = (r : EReal) := by
  intro i
  have hi := Host.reduce_andi_all _ init hr hu j e i
  have hi' : Ideal.cmp .olt (max (a i) (-(a i))) (Ideal.ofBits .f32 0x7F800000#32) = 1#1 := hi
  rw [ofBits_pos_inf] at hi'
  refine real_of_abs_lt_top (a i) ?_
  by_contra hn
  simp [Ideal.cmp, hn] at hi'

end Cert.Lib.FiniteInputs

end
-- ==== Proof.FiniteArgs.lean ====
import Idealize.ShloMosaic.Lib.Affine
import Idealize.ShloMosaic.Lib.ValueIdx
import proofs.«151287_j81509889343954_1_alg».proof.Pre_finite_inputs
import proofs.«151287_j81509889343954_1_alg».proof.Proof.LibFiniteInputs

/-!
# Finite arguments are real arguments

The precondition "every float argument is finite" is a single bit: the conjunction, over the
thirteen float arguments, of "every entry's absolute value is strictly below `+∞`", each reduced
by conjunction over all axes. If that bit is one, each conjunct's bit is one (a conjunction of
bits is one exactly when both are), and a conjunct's bit being one says that every entry of its
argument is neither `+∞` nor `-∞`, that is, a real number.
-/

noncomputable section

namespace Cert.FiniteArgs

open Idealize.ShloMosaic
open Cert.Pre_finite_inputs
open Cert.Pre_finite_inputs.Facts
open Cert.Lib.FiniteInputs

/-- If the precondition's bit is one, every entry of every float argument is a real number. The
    bit is a left-nested conjunction of thirteen bits, one per float argument in argument order
    (the integer argument has none); it is split from the outermost conjunct inwards. -/
theorem real_args [Cert.Pre_finite_inputs.Facts]
    (a0 : FVec Ideal Cert.Pre_finite_inputs.S100000x256 .f32)
    (a1 : IVec Cert.Pre_finite_inputs.S2x1600000 32)
    (a2 : FVec Ideal Cert.Pre_finite_inputs.S1600000 .f32)
    (a3 : FVec Ideal Cert.Pre_finite_inputs.S256x64 .f32)
    (a4 a5 a6 : FVec Ideal Cert.Pre_finite_inputs.S64 .f32)
    (a7 : FVec Ideal Cert.Pre_finite_inputs.S64x32 .f32)
    (a8 a9 a10 : FVec Ideal Cert.Pre_finite_inputs.S32 .f32)
    (a11 : FVec Ideal Cert.Pre_finite_inputs.S1 .f32)
    (a12 : FVec Ideal Cert.Pre_finite_inputs.S256x32 .f32)
    (a13 : FVec Ideal Cert.Pre_finite_inputs.S32 .f32)
    (h : Cert.Pre_finite_inputs.fn (F := Ideal) a0 a1 a2 a3 a4 a5 a6 a7 a8 a9 a10 a11 a12 a13
      = fun _ => 1#1) :
    (∀ i, ∃ r : ℝ, a0 i = (r : EReal)) ∧
    (∀ i, ∃ r : ℝ, a2 i = (r : EReal)) ∧
    (∀ i, ∃ r : ℝ, a3 i = (r : EReal)) ∧
    (∀ i, ∃ r : ℝ, a4 i = (r : EReal)) ∧
    (∀ i, ∃ r : ℝ, a5 i = (r : EReal)) ∧
    (∀ i, ∃ r : ℝ, a6 i = (r : EReal)) ∧
    (∀ i, ∃ r : ℝ, a7 i = (r : EReal)) ∧
    (∀ i, ∃ r : ℝ, a8 i = (r : EReal)) ∧
    (∀ i, ∃ r : ℝ, a9 i = (r : EReal)) ∧
    (∀ i, ∃ r : ℝ, a10 i = (r : EReal)) ∧
    (∀ i, ∃ r : ℝ, a11 i = (r : EReal)) ∧
    (∀ i, ∃ r : ℝ, a12 i = (r : EReal)) ∧
    (∀ i, ∃ r : ℝ, a13 i = (r : EReal)) := by
  have h0 := congrFun h ValueIdx.ix0
  dsimp only [fn, fn_part1, fn_part2, fn_part3, andi] at h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨real_of_all_lt_inf a0 _ _ _ _ _ e0, real_of_all_lt_inf a2 _ _ _ _ _ e2,
    real_of_all_lt_inf a3 _ _ _ _ _ e3, real_of_all_lt_inf a4 _ _ _ _ _ e4,
    real_of_all_lt_inf a5 _ _ _ _ _ e5, real_of_all_lt_inf a6 _ _ _ _ _ e6,
    real_of_all_lt_inf a7 _ _ _ _ _ e7, real_of_all_lt_inf a8 _ _ _ _ _ e8,
    real_of_all_lt_inf a9 _ _ _ _ _ e9, real_of_all_lt_inf a10 _ _ _ _ _ e10,
    real_of_all_lt_inf a11 _ _ _ _ _ e11, real_of_all_lt_inf a12 _ _ _ _ _ e12,
    real_of_all_lt_inf a13 _ _ _ _ _ e13⟩

end Cert.FiniteArgs

end
-- ==== Proof.lean ====
/-
  A two-layer graph convolution with batch normalisation — kernel against reference, at exact arithmetic.

  Both programs take the node features x [100000, 256], the edge list [2, 1600000] with its weights, and the layers' parameters.
  Both append a self-loop to every node, give every edge the symmetric normalisation's weight  d(source)^(−1/2) · w · d(target)^(−1/2)
  (d the weighted in-degree, the factor taken as 0 where the degree is not positive), and compute
      h₁ = aggregate (x·W1) + b1,   a₁ = rectifier_a (batchnorm (h₁; g1, β1)),
      h₂ = aggregate (a₁·W2) + b2,  result = batchnorm (h₂; g2, β2) + (x·Wr + br),
  where aggregate gathers each edge's source row, scales it by the edge's weight and adds it into the edge's target row, and
  batchnorm normalises every column by its mean and variance over the 100000 rows.

  The kernel runs the three matrix products, the two pairs of column sums (Σ h and Σ h², accumulated over twenty blocks of 5000
  rows) and the two normalisations as six pallas_calls, with the aggregations and the division of the sums by 100000 as host
  operations between them; it takes the variance as  Σh²/N − (Σh/N)².  The reference is plain host code and takes the variance as
  the mean of the squared deviations  Σ(h − Σh/N)²/N.

  On the extended reals the two variances agree where every entry of h is a real number, and not in general (an infinite entry
  makes the two sides different infinities or an indeterminate form). The precondition — every float argument finite — gives this:
  each operation on the way from the arguments to h₁ and to h₂ keeps entries real (sums, products and differences of reals; the
  inverse square root of a positive real; the masked inverse square root of a degree, which is 0 where the degree is not positive;
  the inverse square root of variance + ε, the variance being a non-negative real). Everything else is the same operation on both
  sides, or a sum re-grouped (a matrix product over row blocks; column sums over blocks of rows), which needs no finiteness.

  The modules: BlockProducts, ColumnSums, NormRectify, BlockProduct2, ColumnSums2, NormResidual — each pallas_call's result arrays as
  one whole-array function of the arrays it finds; KernelRun — the kernel's run with its result named; KernelChain, HostRows —
  reading buffers across the segments of @main; RefStages — the reference's statistics at a column and the realness of its stages;
  Bridge — the two programs agree up to the first aggregation; BridgeLayers — the column statistics agree, hence the two normalised
  layers and the results; FiniteArgs — the precondition gives real entries.
-/
import proofs.«151287_j81509889343954_1_alg».proof.Defs
import proofs.«151287_j81509889343954_1_alg».proof.Proof.Gen.Kernel
import proofs.«151287_j81509889343954_1_alg».proof.Proof.Gen.Kernel.Skeleton
import proofs.«151287_j81509889343954_1_alg».proof.Proof.Gen.Kernel.Launch
import proofs.«151287_j81509889343954_1_alg».proof.Proof.Gen.Kernel.Points
import proofs.«151287_j81509889343954_1_alg».proof.Proof.Gen.Kernel.Frame
import proofs.«151287_j81509889343954_1_alg».proof.Proof.Gen.KernelIdeal
import proofs.«151287_j81509889343954_1_alg».proof.Proof.Gen.KernelIdeal.Skeleton
import proofs.«151287_j81509889343954_1_alg».proof.Proof.Gen.KernelIdeal.Launch
import proofs.«151287_j81509889343954_1_alg».proof.Proof.Gen.KernelIdeal.Points
import proofs.«151287_j81509889343954_1_alg».proof.Proof.Gen.KernelIdeal.Frame
import proofs.«151287_j81509889343954_1_alg».proof.Proof.Gen.ReferenceIdeal
import proofs.«151287_j81509889343954_1_alg».proof.Proof.Gen.Pre_finite_inputs
import proofs.«151287_j81509889343954_1_alg».proof.Proof.RefRunP
import proofs.«151287_j81509889343954_1_alg».proof.Proof.RefReadP
import proofs.«151287_j81509889343954_1_alg».proof.Proof.KernelRun
import proofs.«151287_j81509889343954_1_alg».proof.Proof.Bridge
import proofs.«151287_j81509889343954_1_alg».proof.Proof.BridgeLayers
import proofs.«151287_j81509889343954_1_alg».proof.Proof.FiniteArgs
import Idealize.ShloMosaic.Adequacy
import Idealize.ShloMosaic.Init

noncomputable section

namespace Cert.Proof

open Idealize.ShloMosaic Idealize.SL.Sem

/-- The word-level kernel runs and its argument arrays end unchanged. -/
theorem frame_k : Cert.frame_Kernel := fun m ρ _ => Cert.Kernel.Gen.frame m ρ

/-- The idealized kernel runs and its argument arrays end unchanged. -/
theorem frame_ki : Cert.frame_KernelIdeal := fun m ρ _ => Cert.KernelIdeal.Gen.frame m ρ

/-- The idealized reference runs and its argument arrays end unchanged: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the arguments both idealized programs end with the same result: the kernel's result buffer holds the
    reference's result term of the arguments, every float argument's entries being real by the precondition. -/
theorem algebraic : Cert.algebraic_KernelIdeal_ReferenceIdeal := by
  intro m ρ m' ρ' hpre hagree
  refine ⟨fun c => Cert.KernelIdeal.Gen.W13 m ρ c (Proc.devRef .tc Cert.KernelIdeal.main_v87), Cert.KernelIdeal.Run.run m ρ, ?_⟩
  refine (θ_run Cert.ReferenceIdeal.defs _ _).mono (fun _ h c => ⟨(h c).1.trans ?_, (h c).2⟩) (Cert.ReferenceIdeal.ValueP.run (F := Ideal) m' ρ')
  obtain ⟨r0, r2, r3, r4, r5, r6, r7, r8, r9, r10, r11, r12, r13⟩ := Cert.FiniteArgs.real_args _ _ _ _ _ _ _ _ _ _ _ _ _ _ (hpre c)
  rw [Cert.ReferenceIdeal.ReadP.val_main_v126_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
  exact (Cert.Bridge.result_eq m ρ c r0 r2 r3 r4 r5 r6 r7 r8 r11).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
